-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x2048x1024 .f32) (main_arg1 : FVec F S3072x1024 .f32) (main_arg2 : FVec F S1024x1024 .f32) (main_arg3 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S3x16x64x1024 : Shape := ⟨4, ![3, 16, 64, 1024]⟩
abbrev S1024x16x64 : Shape := ⟨3, ![1024, 16, 64]⟩
abbrev S16x1024x64 : Shape := ⟨3, ![16, 1024, 64]⟩
abbrev S1x1024 : Shape := ⟨2, ![1, 1024]⟩
abbrev S4x16x2048x64 : Shape := ⟨4, ![4, 16, 2048, 64]⟩
abbrev S1x1024x1024 : Shape := ⟨3, ![1, 1024, 1024]⟩
abbrev S1x1x64x1024 : Shape := ⟨4, ![1, 1, 64, 1024]⟩
abbrev S1x1x1024x64 : Shape := ⟨4, ![1, 1, 1024, 64]⟩
abbrev S64x1024 : Shape := ⟨2, ![64, 1024]⟩
abbrev S1024x64 : Shape := ⟨2, ![1024, 64]⟩
abbrev S64x2048x64 : Shape := ⟨3, ![64, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024x64 : Shape := ⟨3, ![1, 1024, 64]⟩

abbrev nBuf : Space → Nat
  | .hbm => 20
  | .vmem => 30
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4x2048x1024, .bf16⟩
  | .hbm, ⟨5, _⟩ => ⟨S3072x1024, .bf16⟩
  | .hbm, ⟨6, _⟩ => ⟨S3x16x64x1024, .bf16⟩
  | .hbm, ⟨7, _⟩ => ⟨S1024x1024, .bf16⟩
  | .hbm, ⟨8, _⟩ => ⟨S1024x16x64, .bf16⟩
  | .hbm, ⟨9, _⟩ => ⟨S16x1024x64, .bf16⟩
  | .hbm, ⟨10, _⟩ => ⟨S1x1024, .f32⟩
  | .hbm, ⟨11, _⟩ => ⟨S4x16x2048x64, .bf16⟩
  | .hbm, ⟨12, _⟩ => ⟨S4x16x2048x64, .bf16⟩
  | .hbm, ⟨13, _⟩ => ⟨S4x16x2048x64, .bf16⟩
  | .hbm, ⟨14, _⟩ => ⟨S64x2048x64, .bf16⟩
  | .hbm, ⟨15, _⟩ => ⟨S64x2048x64, .bf16⟩
  | .hbm, ⟨16, _⟩ => ⟨S64x2048x64, .bf16⟩
  | .hbm, ⟨17, _⟩ => ⟨S64x2048x64, .bf16⟩
  | .hbm, ⟨18, _⟩ => ⟨S4x16x2048x64, .bf16⟩
  | .hbm, ⟨19, _⟩ => ⟨S4x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1x64x1024, .bf16⟩
  | .local _ .vmem, ⟨3, _⟩ => ⟨S1x1x64x1024, .bf16⟩
  | .local _ .vmem, ⟨4, _⟩ => ⟨S1x1x64x1024, .bf16⟩
  | .local _ .vmem, ⟨5, _⟩ => ⟨S1x1x64x1024, .bf16⟩
  | .local _ .vmem, ⟨6, _⟩ => ⟨S1x1x64x1024, .bf16⟩
  | .local _ .vmem, ⟨7, _⟩ => ⟨S1x1x64x1024, .bf16⟩
  | .local _ .vmem, ⟨8, _⟩ => ⟨S1x1x1024x64, .bf16⟩
  | .local _ .vmem, ⟨9, _⟩ => ⟨S1x1x1024x64, .bf16⟩
  | .local _ .vmem, ⟨10, _⟩ => ⟨S1x1x1024x64, .bf16⟩
  | .local _ .vmem, ⟨11, _⟩ => ⟨S1x1x1024x64, .bf16⟩
  | .local _ .vmem, ⟨12, _⟩ => ⟨S1x1x1024x64, .bf16⟩
  | .local _ .vmem, ⟨13, _⟩ => ⟨S1x1x1024x64, .bf16⟩
  | .local _ .vmem, ⟨14, _⟩ => ⟨S1x512x64, .bf16⟩
  | .local _ .vmem, ⟨15, _⟩ => ⟨S1x512x64, .bf16⟩
  | .local _ .vmem, ⟨16, _⟩ => ⟨S1x2048x64, .bf16⟩
  | .local _ .vmem, ⟨17, _⟩ => ⟨S1x2048x64, .bf16⟩
  | .local _ .vmem, ⟨18, _⟩ => ⟨S1x2048x64, .bf16⟩
  | .local _ .vmem, ⟨19, _⟩ => ⟨S1x2048x64, .bf16⟩
  | .local _ .vmem, ⟨20, _⟩ => ⟨S1x512x64, .bf16⟩
  | .local _ .vmem, ⟨21, _⟩ => ⟨S1x512x64, .bf16⟩
  | .local _ .vmem, ⟨22, _⟩ => ⟨S1x1x1024x64, .bf16⟩
  | .local _ .vmem, ⟨23, _⟩ => ⟨S1x1x1024x64, .bf16⟩
  | .local _ .vmem, ⟨24, _⟩ => ⟨S1x1024x64, .bf16⟩
  | .local _ .vmem, ⟨25, _⟩ => ⟨S1x1024x64, .bf16⟩
  | .local _ .vmem, ⟨26, _⟩ => ⟨S1x1024, .f32⟩
  | .local _ .vmem, ⟨27, _⟩ => ⟨S1x1024x1024, .f32⟩
  | .local _ .vmem, ⟨28, _⟩ => ⟨S1x1024x1024, .f32⟩
  | .local _ .vmem, ⟨29, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem3_1 : DmaSem sig := 28

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, arg2.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev grid1 : Pipeline.Grid := ⟨2, ![64, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![4, 2, 16], ![false, false, false]⟩

def k2_cond2 (i : grid2.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_11 : BitVec 32 := 0#32
  let v15 : BitVec 1 := Scalar.cmpi .ne v14 c0_i32_11
  v15

def cc2_transform_0 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1x1024x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x1024x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 2 → Memref sig .tc .vmem S1x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  bitsLt_bf16_f32 : FTy.bits .bf16 < FTy.bits .f32
  shapeCasts_S3072x1024_S3x16x64x1024 : S3072x1024.ShapeCasts S3x16x64x1024
  shapeCasts_S1024x1024_S1024x16x64 : S1024x1024.ShapeCasts S1024x16x64
  transposes_S1024x16x64_S16x1024x64_1_0_2 : S1024x16x64.Transposes [1, 0, 2] S16x1024x64
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x64x1024_S1x1x64x1024_0_0_0_0 : ∀ a, (![0, 0, 0, 0] : Fin 4 → Nat) a + S1x1x64x1024.size a ≤ S1x1x64x1024.size a
  h_S1x1x64x1024 : 0 < S1x1x64x1024.numel
  shapeCasts_S1x1x64x1024_S64x1024 : S1x1x64x1024.ShapeCasts S64x1024
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  shapeCasts_S1024x64_S1x1x1024x64 : S1024x64.ShapeCasts S1x1x1024x64
  packedbf16_S1x1x1024x64_S1x1x1024x64_0_0_0_0 : (Rect.unit (s := S1x1x1024x64) ![0, 0, 0, 0] S1x1x1024x64.size inb_S1x1x1024x64_S1x1x1024x64_0_0_0_0).PackedRows (EltTy.packing .bf16)
  shapeCasts_S4x16x2048x64_S64x2048x64 : S4x16x2048x64.ShapeCasts S64x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S64x2048x64_S4x16x2048x64 : S64x2048x64.ShapeCasts S4x16x2048x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1x1024x1024 : S1024x1024.ShapeCasts S1x1024x1024
  dot_S1024x1024_S64x1024_S1024x64_1_1_0_0_n_n_wf : DotDims.WF S1024x1024 S64x1024 S1024x64 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x2048x1024.size a
  hwx0_0 : ∀ i : grid0.Coords, EltTy.bits .bf16 = 32 ∨ (Rect.block (s := S4x2048x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x1024.size a ≤ S3x16x64x1024.size a
  hwx0_1 : ∀ i : grid0.Coords, EltTy.bits .bf16 = 32 ∨ (Rect.block (s := S3x16x64x1024) S1x1x64x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64x1024.size a ≤ S3x16x64x1024.size a
  hwx0_2 : ∀ i : grid0.Coords, EltTy.bits .bf16 = 32 ∨ (Rect.block (s := S3x16x64x1024) S1x1x64x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64x1024.size a ≤ S3x16x64x1024.size a
  hwx0_3 : ∀ i : grid0.Coords, EltTy.bits .bf16 = 32 ∨ (Rect.block (s := S3x16x64x1024) S1x1x64x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S4x16x2048x64.size a
  hwx0_4 : ∀ i : grid0.Coords, EltTy.bits .bf16 = 32 ∨ (Rect.block (s := S4x16x2048x64) S1x1x1024x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x64.size a ≤ S4x16x2048x64.size a
  hwx0_5 : ∀ i : grid0.Coords, EltTy.bits .bf16 = 32 ∨ (Rect.block (s := S4x16x2048x64) S1x1x1024x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024x64.size a ≤ S4x16x2048x64.size a
  hwx0_6 : ∀ i : grid0.Coords, EltTy.bits .bf16 = 32 ∨ (Rect.block (s := S4x16x2048x64) S1x1x1024x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S64x2048x64.size a
  hwx1_0 : ∀ i : grid1.Coords, EltTy.bits .bf16 = 32 ∨ (Rect.block (s := S64x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S64x2048x64.size a
  hwx1_1 : ∀ i : grid1.Coords, EltTy.bits .bf16 = 32 ∨ (Rect.block (s := S64x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S64x2048x64.size a
  hwx1_2 : ∀ i : grid1.Coords, EltTy.bits .bf16 = 32 ∨ (Rect.block (s := S64x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S64x2048x64.size a
  hwx1_3 : ∀ i : grid1.Coords, EltTy.bits .bf16 = 32 ∨ (Rect.block (s := S64x2048x64) S1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x1024x64.size a ≤ S4x16x2048x64.size a
  hwx2_0 : ∀ i : grid2.Coords, EltTy.bits .bf16 = 32 ∨ (Rect.block (s := S4x16x2048x64) S1x1x1024x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x64.size a ≤ S16x1024x64.size a
  hwx2_1 : ∀ i : grid2.Coords, EltTy.bits .bf16 = 32 ∨ (Rect.block (s := S16x1024x64) S1x1024x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x1024.size a ≤ S4x2048x1024.size a
  hwx2_3 : ∀ i : grid2.Coords, EltTy.bits .f32 = 32 ∨ (Rect.block (s := S4x2048x1024) S1x1024x1024.size (cc2_transform_3 i) (hinb2_3 i)).WholeWords (EltTy.packing .f32)

variable [Facts₀]

def dot_S1024x1024_S64x1024_S1024x64_1_1_0_0_n_n : DotDims S1024x1024 S64x1024 S1024x64 where
  lhsContracting := [1]
  rhsContracting := [1]
  lhsNonContracting := [0]
  rhsNonContracting := [0]
  lhsBatch := []
  rhsBatch := []
  wf := dot_S1024x1024_S64x1024_S1024x64_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1x1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1x1x1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_2) S1x1x1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S1x1x1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S4x2048x3072 : Shape := ⟨3, ![4, 2048, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4x2048x3072, .f32⟩
  | .hbm, ⟨5, _⟩ => ⟨S4x2048x3x16x64, .f32⟩
  | .hbm, ⟨6, _⟩ => ⟨S3x4x16x2048x64, .f32⟩
  | .hbm, ⟨7, _⟩ => ⟨S1x4x16x2048x64, .f32⟩
  | .hbm, ⟨8, _⟩ => ⟨S4x16x2048x64, .f32⟩
  | .hbm, ⟨9, _⟩ => ⟨S1x4x16x2048x64, .f32⟩
  | .hbm, ⟨10, _⟩ => ⟨S4x16x2048x64, .f32⟩
  | .hbm, ⟨11, _⟩ => ⟨S1x4x16x2048x64, .f32⟩
  | .hbm, ⟨12, _⟩ => ⟨S4x16x2048x64, .f32⟩
  | .hbm, ⟨13, _⟩ => ⟨S4x16x2048x2048, .f32⟩
  | .hbm, ⟨14, _⟩ => ⟨S_, .f32⟩
  | .hbm, ⟨15, _⟩ => ⟨S4x16x2048x2048, .f32⟩
  | .hbm, ⟨16, _⟩ => ⟨S4x16x2048x2048, .f32⟩
  | .hbm, ⟨17, _⟩ => ⟨S_, .f32⟩
  | .hbm, ⟨18, _⟩ => ⟨S4x16x2048, .f32⟩
  | .hbm, ⟨19, _⟩ => ⟨S_, .f32⟩
  | .hbm, ⟨20, _⟩ => ⟨S4x16x2048, .f32⟩
  | .hbm, ⟨21, _⟩ => ⟨S4x16x2048, .f32⟩
  | .hbm, ⟨22, _⟩ => ⟨S4x16x2048x1, .f32⟩
  | .hbm, ⟨23, _⟩ => ⟨S4x16x2048x2048, .f32⟩
  | .hbm, ⟨24, _⟩ => ⟨S4x16x2048x2048, .f32⟩
  | .hbm, ⟨25, _⟩ => ⟨S4x16x2048x2048, .f32⟩
  | .hbm, ⟨26, _⟩ => ⟨S_, .f32⟩
  | .hbm, ⟨27, _⟩ => ⟨S4x16x2048, .f32⟩
  | .hbm, ⟨28, _⟩ => ⟨S4x16x2048x1, .f32⟩
  | .hbm, ⟨29, _⟩ => ⟨S4x16x2048x2048, .f32⟩
  | .hbm, ⟨30, _⟩ => ⟨S4x16x2048x2048, .f32⟩
  | .hbm, ⟨31, _⟩ => ⟨S4x16x2048x64, .f32⟩
  | .hbm, ⟨32, _⟩ => ⟨S4x2048x16x64, .f32⟩
  | .hbm, ⟨33, _⟩ => ⟨S4x2048x1024, .f32⟩
  | .hbm, ⟨34, _⟩ => ⟨S4x2048x1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S4x2048x3072_S4x2048x3x16x64 : S4x2048x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.WordQkvRegion.lean ====
import proofs.«146399_j69234872812274_2_alg».proof.Proof.Gen.Kernel.Launch
import proofs.«146399_j69234872812274_2_alg».proof.Proof.Gen.Kernel.Skeleton
import proofs.«146399_j69234872812274_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# (The program as printed, at the word level.) The projection onto queries, keys and values (the first pallas_call), at the contents `V` it is entered from

Its grid is 4 × 2 × 16: point (b, n, h) reads rows 1024·n … 1024·n + 1023 of batch b's activations and head h's three
64 × 1024 weight tiles (the query, key and value rows of the one weight array, which three windows read), and writes the
1024 × 64 tile of each of the three outputs: the activations against each weight tile, contracted over the 1024 features.
Nothing is kept between points.
-/

set_option maxRecDepth 16384

noncomputable section

namespace Cert.Kernel.Qkv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation window's buffer holds its tile at every point, fetched there or kept from the point before. -/
theorem before_x_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The query-weight window's buffer holds head h's tile. -/
theorem before_wq_of {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- The key-weight window's buffer holds head h's tile. -/
theorem before_wk_of {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- The value-weight window's buffer holds head h's tile. -/
theorem before_wv_of {c : Dev nD} (dat : Dat τ (Elt F) Unit ℕ (UR sig nD τ) ℕ cfg0 c) (hA : dat.A 3 = V c (Pipeline.arrRef spec0 3))
    (hafter : ∀ t, dat.after 3 t = tile V c 3 t) (t : Fin cfg0.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-- The whole tiles of the three shapes the body touches. -/
abbrev rX : Rect S1x1024x1024 := Rect.unit (s := S1x1024x1024) ![0, 0, 0] S1x1024x1024.size inb_S1x1024x1024_S1x1024x1024_0_0_0
abbrev rW : Rect S1x1x64x1024 := Rect.unit (s := S1x1x64x1024) ![0, 0, 0, 0] S1x1x64x1024.size inb_S1x1x64x1024_S1x1x64x1024_0_0_0_0
abbrev rO : Rect S1x1x1024x64 := Rect.unit (s := S1x1x1024x64) ![0, 0, 0, 0] S1x1x1024x64.size inb_S1x1x1024x64_S1x1x1024x64_0_0_0_0

/-- What a point leaves in each output tile: the one store into it, of the activations against that weight tile. -/
def outQ (x : Vec F S1x1024x1024 .bf16) (w : Vec F S1x1x64x1024 .bf16) : Vec F S1x1x1024x64 .bf16 :=
  View.canon [⟨rO, k0_pay2 (View.ld x rX) (View.ld w rW)⟩]
def outK (x : Vec F S1x1024x1024 .bf16) (w : Vec F S1x1x64x1024 .bf16) : Vec F S1x1x1024x64 .bf16 :=
  View.canon [⟨rO, k0_pay3 (View.ld x rX) (View.ld w rW)⟩]
def outV (x : Vec F S1x1024x1024 .bf16) (w : Vec F S1x1x64x1024 .bf16) : Vec F S1x1x1024x64 .bf16 :=
  View.canon [⟨rO, k0_pay4 (View.ld x rX) (View.ld w rW)⟩]

/-- One store of the whole tile covers it. -/
theorem cover_out (p0 : Vec F S1x1x1024x64 .bf16) (y : S1x1x1024x64.Idx) :
    ∃ pc ∈ ([⟨rO, p0⟩] : List (View.Piece (Elt F) S1x1x1024x64 .bf16)), y ∈ pc.1.set :=
  View.cover_of_tiled [⟨rO, p0⟩] S1x1x1024x64.size (by rfl) y

set_option maxHeartbeats 2000000 in
/-- The body on whole staging buffers, the inputs at `x`, `wq`, `wk`, `wv` and the outputs at anything, runs to the end
    with the inputs as they were and the three outputs at `outQ x wq`, `outK x wk`, `outV x wv`. -/
theorem sound_kernel (c : Dev nD) (E : Set ℕ) (i : grid0.Coords)
    (arg3 : Memref sig .tc .vmem S1x1024x1024 .bf16) (harg3 : arg3.IsWhole)
    (arg4 : Memref sig .tc .vmem S1x1x64x1024 .bf16) (harg4 : arg4.IsWhole) (arg5 : Memref sig .tc .vmem S1x1x64x1024 .bf16) (harg5 : arg5.IsWhole)
    (arg6 : Memref sig .tc .vmem S1x1x64x1024 .bf16) (harg6 : arg6.IsWhole)
    (arg7 : Memref sig .tc .vmem S1x1x1024x64 .bf16) (harg7 : arg7.IsWhole) (arg8 : Memref sig .tc .vmem S1x1x1024x64 .bf16) (harg8 : arg8.IsWhole)
    (arg9 : Memref sig .tc .vmem S1x1x1024x64 .bf16) (harg9 : arg9.IsWhole)
    (x : Vec F S1x1024x1024 .bf16) (wq wk wv : Vec F S1x1x64x1024 .bf16) (K : PUnit → sProp 𝕄) :
    iprop(owns (c : Thread nD τ) arg3 fullShare x ∗ owns (c : Thread nD τ) arg4 fullShare wq ∗ owns (c : Thread nD τ) arg5 fullShare wk
        ∗ owns (c : Thread nD τ) arg6 fullShare wv
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x ∗ owns (c : Thread nD τ) arg4 fullShare wq ∗ owns (c : Thread nD τ) arg5 fullShare wk
            ∗ owns (c : Thread nD τ) arg6 fullShare wv
            ∗ owns (c : Thread nD τ) arg7 fullShare (outQ x wq) ∗ owns (c : Thread nD τ) arg8 fullShare (outK x wk)
            ∗ owns (c : Thread nD τ) arg9 fullShare (outV x wv)) -∗ K ⟨⟩))
      ⊢ wp frame (wpE (defs₀ (F := F)) Variants.none c none) E
          (cc0__qkv_fused_kernel i arg3 harg3 arg4 harg4 arg5 harg5 arg6 harg6 arg7 harg7 arg8 harg8 arg9 harg9) K := by
  simp only [cc0__qkv_fused_kernel_eq_skeleton]; unfold cc0__qkv_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_out _)
  isplitl [H5]
  · iexists _; isplitr
    swap; · iexact H5
    ipureintro
    exact View.read_writes_eq_canon _ _ _ (cover_out _)
  iexists _; isplitr
  swap; · iexact H6
  ipureintro
  exact View.read_writes_eq_canon _ _ _ (cover_out _)

/-! ## The proof data -/

/-- The projection pipeline's proof data on core `c`: the arrays as the region finds them; after the body at point `t`
    each input's buffer still at its tile, each output's at the activations against its weight tile; the invariant is the
    scoped rest and the generator register, untouched; nothing owed. The weight array is read by three windows: its full
    share is dealt as the left half, and the two halves of the right half. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => tile V c 3 t
    | ⟨4, _⟩ => outQ (tile V c 0 t) (tile V c 1 t)
    | ⟨5, _⟩ => outK (tile V c 0 t) (tile V c 2 t)
    | ⟨6, _⟩ => outV (tile V c 0 t) (tile V c 3 t)
  Φ _ := Pipeline.ΦA spec0 c
  q w := match w with
    | ⟨1, _⟩ => fullShare.left
    | ⟨2, _⟩ => fullShare.right.left
    | ⟨3, _⟩ => fullShare.right.right
    | _ => fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = tile V c 0 t := by dsimp only [dat]
theorem after_wq (c : Dev nD) (t : Fin cfg0.N) : (dat V c).after 1 t = tile V c 1 t := by dsimp only [dat]
theorem after_wk (c : Dev nD) (t : Fin cfg0.N) : (dat V c).after 2 t = tile V c 2 t := by dsimp only [dat]
theorem after_wv (c : Dev nD) (t : Fin cfg0.N) : (dat V c).after 3 t = tile V c 3 t := by dsimp only [dat]
theorem after_q (c : Dev nD) (t : Fin cfg0.N) : (dat V c).after 4 t = outQ (tile V c 0 t) (tile V c 1 t) := by dsimp only [dat]
theorem after_k (c : Dev nD) (t : Fin cfg0.N) : (dat V c).after 5 t = outK (tile V c 0 t) (tile V c 2 t) := by dsimp only [dat]
theorem after_v (c : Dev nD) (t : Fin cfg0.N) : (dat V c).after 6 t = outV (tile V c 0 t) (tile V c 3 t) := by dsimp only [dat]

theorem before_x (c : Dev nD) (t : Fin cfg0.N) (d) : (dat V c).before 0 t d = tile V c 0 t :=
  before_x_of V (dat V c) (A_eq V c 0) (after_x V c) t d
theorem before_wq (c : Dev nD) (t : Fin cfg0.N) (d) : (dat V c).before 1 t d = tile V c 1 t :=
  before_wq_of V (dat V c) (A_eq V c 1) (after_wq V c) t d
theorem before_wk (c : Dev nD) (t : Fin cfg0.N) (d) : (dat V c).before 2 t d = tile V c 2 t :=
  before_wk_of V (dat V c) (A_eq V c 2) (after_wk V c) t d
theorem before_wv (c : Dev nD) (t : Fin cfg0.N) (d) : (dat V c).before 3 t d = tile V c 3 t :=
  before_wv_of V (dat V c) (A_eq V c 3) (after_wv V c) t d

/-! ## The body obligation at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' buffers hold their tiles, so the triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_wq, before_wk, before_wv]
  rw [show (dat V c).Φ t.succ = (dat V c).Φ t.castSucc from rfl,
    show (dat V c).owesAt () t.succ = (dat V c).owesAt () t.castSucc from rfl,
    after_x, after_wq, after_wk, after_wv, after_q, after_k, after_v]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (tile V c 0 t) (tile V c 1 t) (tile V c 2 t) (tile V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Qkv

end
-- ==== Proof.WordQkvArrays.lean ====
import proofs.«146399_j69234872812274_2_alg».proof.Proof.WordQkvRegion

/-!
# (The program as printed, at the word level.) The projection region's arrays at entry and exit

Its seven windows stand on five buffers: the activations, the weights (read by three windows), and the three outputs.
At entry the weight buffer, held whole, is dealt to the three windows as the left half of its share and the two halves
of the right half; at exit the three parts, still at the entry contents (no window writes the weights), are joined again.
-/

set_option maxRecDepth 16384

noncomputable section

namespace Cert.Kernel.Qkv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the seven windows. -/
theorem image_arr : Finset.univ.image (Pipeline.arrRef spec0) = {main_v0, main_v2, main_v7_0, main_v7_1, main_v7_2} := by decide

/-- Those buffers, each whole at the full share at contents `W`, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v2) ↦{fullShare} W main_v2)
          ∗ (((c : Thread nD τ).loc main_v7_0) ↦{fullShare} W main_v7_0) ∗ (((c : Thread nD τ).loc main_v7_1) ↦{fullShare} W main_v7_1)
          ∗ (((c : Thread nD τ).loc main_v7_2) ↦{fullShare} W main_v7_2)) := by
  unfold Pipeline.arrBufs; rw [image_arr]
  rw [BI.bigSep_insert (by decide), BI.bigSep_insert (by decide), BI.bigSep_insert (by decide), BI.bigSep_insert (by decide), BI.bigSep_singleton]
  rfl

/-- Each window's share of its array. -/
theorem share_0 (c : Dev nD) : (dat V c).share 0 = fullShare := by unfold Dat.share; rfl
theorem share_1 (c : Dev nD) : (dat V c).share 1 = fullShare.left := by unfold Dat.share; rfl
theorem share_2 (c : Dev nD) : (dat V c).share 2 = fullShare.right.left := by unfold Dat.share; rfl
theorem share_3 (c : Dev nD) : (dat V c).share 3 = fullShare.right.right := by unfold Dat.share; rfl
theorem share_4 (c : Dev nD) : (dat V c).share 4 = fullShare := by unfold Dat.share; rfl
theorem share_5 (c : Dev nD) : (dat V c).share 5 = fullShare := by unfold Dat.share; rfl
theorem share_6 (c : Dev nD) : (dat V c).share 6 = fullShare := by unfold Dat.share; rfl

/-- The pipeline's arrays at contents `G`, window by window, each whole at its share. -/
theorem arrays_eq (c : Dev nD) (G : (w : Fin cfg0.W) → Buf (Elt F) ((cfg0.win w).arr.view.loc (c : Thread nD τ))) :
    ((dat V c).arrays G : sProp 𝕄)
      = iprop((((c : Thread nD τ).loc main_v0) ↦{fullShare} G 0) ∗ (((c : Thread nD τ).loc main_v2) ↦{fullShare.left} G 1)
          ∗ (((c : Thread nD τ).loc main_v2) ↦{fullShare.right.left} G 2) ∗ (((c : Thread nD τ).loc main_v2) ↦{fullShare.right.right} G 3)
          ∗ (((c : Thread nD τ).loc main_v7_0) ↦{fullShare} G 4) ∗ (((c : Thread nD τ).loc main_v7_1) ↦{fullShare} G 5)
          ∗ (((c : Thread nD τ).loc main_v7_2) ↦{fullShare} G 6)) := by
  have h : ((dat V c).arrays G : sProp 𝕄)
      = bigSep Finset.univ fun w => (((c : Thread nD τ).loc (Pipeline.arrRef spec0 w)) ↦{(dat V c).share w} G w : sProp 𝕄) := by
    unfold Dat.arrays
    exact bigSep_congr fun w _ => by rw [(arr_whole0 w).set_eq_univ]
  rw [h, bigSep_W0, share_0, share_1, share_2, share_3, share_4, share_5, share_6]

/-- ENTRY: the five buffers whole at `V` make the arrays at their entry contents, the weights dealt in three. -/
theorem arrays_of_bufs (c : Dev nD) :
    (Pipeline.arrBufs (Ix := Unit) (Name := ℕ) (U := UR sig nD τ) (Lvl := ℕ) spec0 c (V c) : sProp 𝕄)
      ⊢ (dat V c).arrays ((dat V c).arrAt · 0) := by
  rw [arrBufs_eq, arrays_eq]
  iintro ⟨Hx, Hw, Hq, Hk, Hv⟩
  ihave Hw' := (pointsTo_share (PosShare.mem_left_op_right fullShare)).1 $$ Hw
  icases Hw' with ⟨Hw1, Hwr⟩
  ihave Hwr' := (pointsTo_share (PosShare.mem_left_op_right fullShare.right)).1 $$ Hwr
  icases Hwr' with ⟨Hw2, Hw3⟩
  isplitl [Hx]; · iexact Hx
  isplitl [Hw1]; · iexact Hw1
  isplitl [Hw2]; · iexact Hw2
  isplitl [Hw3]; · iexact Hw3
  isplitl [Hq]; · iexact Hq
  isplitl [Hk]; · iexact Hk
  iexact Hv

/-- No window writes an input's array: after every write-back it holds its entry contents. -/
theorem arrAt_x (c : Dev nD) : (dat V c).arrAt 0 cfg0.N = V c main_v0 := ((dat V c).arrAt_in 0 rfl _).trans (A_eq V c 0)
theorem arrAt_wq (c : Dev nD) : (dat V c).arrAt 1 cfg0.N = V c main_v2 := ((dat V c).arrAt_in 1 rfl _).trans (A_eq V c 1)
theorem arrAt_wk (c : Dev nD) : (dat V c).arrAt 2 cfg0.N = V c main_v2 := ((dat V c).arrAt_in 2 rfl _).trans (A_eq V c 2)
theorem arrAt_wv (c : Dev nD) : (dat V c).arrAt 3 cfg0.N = V c main_v2 := ((dat V c).arrAt_in 3 rfl _).trans (A_eq V c 3)

/-- EXIT: the arrays at their final contents make the five buffers whole at any contents `W` that agree with `V` on the
    two inputs and hold the three outputs' final contents: the weights' three parts are joined. -/
theorem bufs_of_arrays (c : Dev nD) (W : (b : Ref sig .tc) → Buf (Elt F) ((c : Thread nD τ).loc b))
    (hx : W main_v0 = V c main_v0) (hw : W main_v2 = V c main_v2)
    (hq : W main_v7_0 = (dat V c).arrAt 4 cfg0.N) (hk : W main_v7_1 = (dat V c).arrAt 5 cfg0.N) (hv : W main_v7_2 = (dat V c).arrAt 6 cfg0.N) :
    ((dat V c).arrays ((dat V c).arrAt · cfg0.N) : sProp 𝕄)
      ⊢ Pipeline.arrBufs (Ix := Unit) (Name := ℕ) (U := UR sig nD τ) (Lvl := ℕ) spec0 c W := by
  rw [arrBufs_eq, arrays_eq, hx, hw, hq, hk, hv]
  rw [arrAt_x, arrAt_wq, arrAt_wk, arrAt_wv]
  iintro ⟨Hx, Hw1, Hw2, Hw3, Hq, Hk, Hv⟩
  ihave Hwr := (pointsTo_share (PosShare.mem_left_op_right fullShare.right)).2 $$ [Hw2 Hw3]
  · isplitl [Hw2] <;> iassumption
  ihave Hw := (pointsTo_share (PosShare.mem_left_op_right fullShare)).2 $$ [Hw1 Hwr]
  · isplitl [Hw1] <;> iassumption
  isplitl [Hx]; · iexact Hx
  isplitl [Hw]; · iexact Hw
  isplitl [Hq]; · iexact Hq
  isplitl [Hk]; · iexact Hk
  iexact Hv

end Cert.Kernel.Qkv

end
-- ==== Proof.WordAttnRegion.lean ====
import proofs.«146399_j69234872812274_2_alg».proof.Proof.Gen.Kernel.Launch
import proofs.«146399_j69234872812274_2_alg».proof.Proof.Gen.Kernel.Skeleton
import proofs.«146399_j69234872812274_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# (The program as printed, at the word level.) The attention region (the second pallas_call), at the contents `V` it is entered from

Its grid is 64 × 4: point (bh, qi) reads rows 512·qi … 512·qi + 511 of head bh's queries, all 2048 rows of that
head's keys and values, and writes the same 512 rows of the head's output: the softmax of the scaled scores
against the keys, summed against the values and divided by the row's total weight. Nothing is kept from one
point to the next, so what a point leaves in the output tile is one function of the three input tiles.
-/

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's buffer holds its tile at every point. -/
theorem before_q_of {c : Dev nD} (dat : Dat τ (Elt F) Unit ℕ (UR sig nD τ) ℕ cfg1 c) (hA : dat.A 0 = V c (Pipeline.arrRef spec1 0))
    (hafter : ∀ t, dat.after 0 t = tile V c 0 t) (t : Fin cfg1.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The key window's buffer holds the head's keys at every point, fetched there or kept from the point before. -/
theorem before_k_of {c : Dev nD} (dat : Dat τ (Elt F) Unit ℕ (UR sig nD τ) ℕ cfg1 c) (hA : dat.A 1 = V c (Pipeline.arrRef spec1 1))
    (hafter : ∀ t, dat.after 1 t = tile V c 1 t) (t : Fin cfg1.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- The value window's buffer holds the head's values at every point, likewise. -/
theorem before_v_of {c : Dev nD} (dat : Dat τ (Elt F) Unit ℕ (UR sig nD τ) ℕ cfg1 c) (hA : dat.A 2 = V c (Pipeline.arrRef spec1 2))
    (hafter : ∀ t, dat.after 2 t = tile V c 2 t) (t : Fin cfg1.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- The whole 1 × 512 × 64 tile, and the whole 1 × 2048 × 64 tile. -/
abbrev rQ : Rect S1x512x64 := Rect.unit (s := S1x512x64) ![0, 0, 0] S1x512x64.size inb_S1x512x64_S1x512x64_0_0_0
abbrev rKV : Rect S1x2048x64 := Rect.unit (s := S1x2048x64) ![0, 0, 0] S1x2048x64.size inb_S1x2048x64_S1x2048x64_0_0_0

/-- What a point leaves in the output tile: the one store of the body, of the attention of the three input tiles. -/
def outTile (q : Vec F S1x512x64 .bf16) (k v : Vec F S1x2048x64 .bf16) : Vec F S1x512x64 .bf16 :=
  View.canon [⟨rQ, k1_pay1 (View.ld q rQ) (View.ld k rKV) (View.ld v rKV)⟩]

/-- The one store covers the tile. -/
theorem cover_out (p0 : Vec F S1x512x64 .bf16) (y : S1x512x64.Idx) :
    ∃ pc ∈ ([⟨rQ, p0⟩] : List (View.Piece (Elt F) S1x512x64 .bf16)), y ∈ pc.1.set :=
  View.cover_of_tiled [⟨rQ, p0⟩] S1x512x64.size (by rfl) y

set_option maxHeartbeats 1000000 in
/-- The body on whole staging buffers, the inputs at `q`, `k`, `v` and the output at anything, runs to the end with the
    inputs as they were and the output at `outTile q k v`. -/
theorem sound_kernel (c : Dev nD) (E : Set ℕ) (i : grid1.Coords)
    (arg2 : Memref sig .tc .vmem S1x512x64 .bf16) (harg2 : arg2.IsWhole) (arg3 : Memref sig .tc .vmem S1x2048x64 .bf16) (harg3 : arg3.IsWhole)
    (arg4 : Memref sig .tc .vmem S1x2048x64 .bf16) (harg4 : arg4.IsWhole) (arg5 : Memref sig .tc .vmem S1x512x64 .bf16) (harg5 : arg5.IsWhole)
    (q : Vec F S1x512x64 .bf16) (k v : Vec F S1x2048x64 .bf16) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d)
        ∗ (iprop(owns (c : Thread nD τ) arg2 fullShare q ∗ owns (c : Thread nD τ) arg3 fullShare k ∗ owns (c : Thread nD τ) arg4 fullShare v
            ∗ owns (c : Thread nD τ) arg5 fullShare (outTile q k v)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The proof data -/

/-- The attention pipeline's proof data on core `c`: the arrays as the region finds them; after the body at point `t`
    each input's buffer still at its tile, the output's at the attention of the three tiles; the invariant is the scoped
    rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => outTile (tile V c 0 t) (tile V c 1 t) (tile V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_q (c : Dev nD) (t : Fin cfg1.N) : (dat V c).after 0 t = tile V c 0 t := by dsimp only [dat]
theorem after_k (c : Dev nD) (t : Fin cfg1.N) : (dat V c).after 1 t = tile V c 1 t := by dsimp only [dat]
theorem after_v (c : Dev nD) (t : Fin cfg1.N) : (dat V c).after 2 t = tile V c 2 t := by dsimp only [dat]
theorem after_o (c : Dev nD) (t : Fin cfg1.N) :
    (dat V c).after 3 t = outTile (tile V c 0 t) (tile V c 1 t) (tile V c 2 t) := by dsimp only [dat]

theorem before_q (c : Dev nD) (t : Fin cfg1.N) (d) : (dat V c).before 0 t d = tile V c 0 t :=
  before_q_of V (dat V c) (A_eq V c 0) (after_q V c) t d
theorem before_k (c : Dev nD) (t : Fin cfg1.N) (d) : (dat V c).before 1 t d = tile V c 1 t :=
  before_k_of V (dat V c) (A_eq V c 1) (after_k V c) t d
theorem before_v (c : Dev nD) (t : Fin cfg1.N) (d) : (dat V c).before 2 t d = tile V c 2 t :=
  before_v_of V (dat V c) (A_eq V c 2) (after_v V c) t d

/-! ## The body obligation at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their tiles, so the triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k, before_v]
  rw [show (dat V c).Φ t.succ = (dat V c).Φ t.castSucc from rfl,
    show (dat V c).owesAt () t.succ = (dat V c).owesAt () t.castSucc from rfl,
    after_q, after_k, after_v, after_o]
  iintro ⟨HΦ, Ho, ⟨%d0, H0⟩, ⟨%d1, H1⟩, ⟨%d2, H2⟩, ⟨%d3, H3⟩⟩
  iapply (sound_kernel c Set.univ _ _ _ _ _ _ _ _ _ (tile V c 0 t) (tile V c 1 t) (tile V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Attn

end
-- ==== Proof.WordOutProjRuns.lean ====
import proofs.«146399_j69234872812274_2_alg».proof.Proof.Gen.Kernel.Launch
import proofs.«146399_j69234872812274_2_alg».proof.Proof.Gen.Kernel.Skeleton
import proofs.«146399_j69234872812274_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# (The program as printed, at the word level.) The output projection (the third pallas_call): conditions, schedule facts and the body's runs

Its grid is 4 × 2 × 16: point (b, n, h) reads the 1024 × 64 tile of head h's attention output at rows 1024·n … of batch b,
head h's 1024 × 64 tile of the output weights, and the bias row. A 1024 × 1024 scratch carries the running sum over the
heads: it is reset to zero at head 0, the product of the two tiles (contracted over the 64 lanes) is added to it at every
head, and at head 15 the bias is added and the sum is stored into the output tile, which is written back only there.
The body therefore runs in one of three ways according to the head, and each way is run once here.
-/

set_option maxRecDepth 16384

noncomputable section

namespace Cert.Kernel.OutProj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def tile (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The attention-output window's buffer holds its tile at every point. -/
theorem before_a_of {c : Dev nD} (dat : Dat τ (Elt F) Unit ℕ (UR sig nD τ) ℕ cfg2 c) (hA : dat.A 0 = V c (Pipeline.arrRef spec2 0))
    (hafter : ∀ t, dat.after 0 t = tile V c 0 t) (t : Fin cfg2.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The weight window's buffer holds head h's tile. -/
theorem before_w_of {c : Dev nD} (dat : Dat τ (Elt F) Unit ℕ (UR sig nD τ) ℕ cfg2 c) (hA : dat.A 1 = V c (Pipeline.arrRef spec2 1))
    (hafter : ∀ t, dat.after 1 t = tile V c 1 t) (t : Fin cfg2.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- The bias window's buffer holds the bias row at every point (fetched once, at the first). -/
theorem before_b_of {c : Dev nD} (dat : Dat τ (Elt F) Unit ℕ (UR sig nD τ) ℕ cfg2 c) (hA : dat.A 2 = V c (Pipeline.arrRef spec2 2))
    (hafter : ∀ t, dat.after 2 t = tile V c 2 t) (t : Fin cfg2.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-! ## The two conditions on the head coordinate -/

/-- The body resets the running sum: the head is 0. -/
abbrev isFirst (i : grid2.Coords) : Prop := (Scalar.cmpi .ne (Scalar.extui (Scalar.cmpi .eq (BitVec.ofNat 32 (i 2).val) 0#32)) 0#32) = 1#1
theorem isFirst_iff : ∀ t : Fin cfg2.N, isFirst (grid2.coords t) ↔ t.val % 16 = 0 :=
  (by decide +kernel : ∀ t : Fin grid2.N, isFirst (grid2.coords t) ↔ t.val % 16 = 0)

/-- The body adds the bias and stores the output: the head is 15. -/
abbrev isLast (i : grid2.Coords) : Prop := k2_cond2 i = 1#1
theorem isLast_iff : ∀ t : Fin cfg2.N, isLast (grid2.coords t) ↔ t.val % 16 = 15 :=
  (by decide +kernel : ∀ t : Fin grid2.N, isLast (grid2.coords t) ↔ t.val % 16 = 15)

/-! ## Where the windows are idle -/

theorem live_a : ∀ t : Fin cfg2.N, cfg2.idle 0 (grid2.coords t) = false := by decide +kernel
theorem live_w : ∀ t : Fin cfg2.N, cfg2.idle 1 (grid2.coords t) = false := by decide +kernel
theorem live_b : ∀ t : Fin cfg2.N, cfg2.idle 2 (grid2.coords t) = false := by decide +kernel
/-- Away from head 15 nothing is stored into the output tile, and it is not written back. -/
theorem idle_o : ∀ t : Fin cfg2.N, ¬isLast (grid2.coords t) → cfg2.idle 3 (grid2.coords t) = true := by decide +kernel
theorem noFlush_o : ∀ t : Fin cfg2.N, ¬isLast (grid2.coords t) → (cfg2.win 3).flush t = false := by decide +kernel
theorem live_o : ∀ t : Fin cfg2.N, isLast (grid2.coords t) → cfg2.idle 3 (grid2.coords t) = false := by decide +kernel

/-! ## The buffers the body is called with -/

abbrev VO : View sig .tc .vmem S1x1024x1024 .f32 := (Memref.whole cc2_stg3_0 : Memref sig .tc .vmem S1x1024x1024 .f32).view
abbrev ms_a (t : Fin cfg2.N) : Memref sig .tc .vmem S1x1x1024x64 .bf16 := win2_0.stage (cfg2.slots t 0)
abbrev hs_a (t : Fin cfg2.N) : (ms_a t).IsWhole := hstage2_0 ((cfg2.slots t 0).cast nbuf2_0)
abbrev ms_w (t : Fin cfg2.N) : Memref sig .tc .vmem S1x1024x64 .bf16 := win2_1.stage (cfg2.slots t 1)
abbrev hs_w (t : Fin cfg2.N) : (ms_w t).IsWhole := hstage2_1 ((cfg2.slots t 1).cast nbuf2_1)
abbrev ms_b (t : Fin cfg2.N) : Memref sig .tc .vmem S1x1024 .f32 := win2_2.stage (cfg2.slots t 2)
abbrev hs_b (t : Fin cfg2.N) : (ms_b t).IsWhole := hstage2_2 ((cfg2.slots t 2).cast nbuf2_2)
abbrev ms_o (t : Fin cfg2.N) : Memref sig .tc .vmem S1x1024x1024 .f32 := win2_3.stage (cfg2.slots t 3)
abbrev hs_o (t : Fin cfg2.N) : (ms_o t).IsWhole := hstage2_3 ((cfg2.slots t 3).cast nbuf2_3)
/-- The scratch that carries the running sum. -/
abbrev scM : Memref sig .tc .vmem S1024x1024 .f32 := Memref.whole cc2_scratch0
abbrev VS : View sig .tc .vmem S1024x1024 .f32 := scM.view

/-! ## The body's three runs -/

set_option maxHeartbeats 2000000 in
/-- Head 0: the scratch, at anything, is reset and the product added; the bias and the output tile are not touched. The
    pieces the scratch ends with are found by the run. -/
noncomputable def runFirst (c : Dev nD) (i : grid2.Coords) (arg3 : Memref sig .tc .vmem S1x1x1024x64 .bf16) (harg3 : arg3.IsWhole) (arg4 : Memref sig .tc .vmem S1x1024x64 .bf16) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : isFirst i) (hc1 : ¬isLast i)
    (xa : Vec F S1x1x1024x64 .bf16) (xw : Vec F S1x1024x64 .bf16) :
    Σ' (LO : List (View.Piece (Elt F) S1x1024x1024 .f32)), { LS : List (View.Piece (Elt F) S1024x1024 .f32) //
      ∀ (xb : Vec F S1x1024 .f32) (xo : Vec F S1x1024x1024 .f32) (E : Set ℕ) (K : PUnit → sProp 𝕄),
        iprop(owns (c : Thread nD τ) arg3 fullShare xa ∗ owns (c : Thread nD τ) arg4 fullShare xw ∗ owns (c : Thread nD τ) arg5 fullShare xb
            ∗ owns (c : Thread nD τ) arg6 fullShare xo ∗ (∃ d, owns (c : Thread nD τ) arg7 fullShare d)
            ∗ (iprop(owns (c : Thread nD τ) arg3 fullShare xa ∗ owns (c : Thread nD τ) arg4 fullShare xw ∗ owns (c : Thread nD τ) arg5 fullShare xb
                ∗ owns (c : Thread nD τ) arg6 fullShare xo
                ∗ (∃ f, arg7.view.loc (c : Thread nD τ) ↦[arg7.view.set]{fullShare} arg7.view.writes (Elt F) f LS)) -∗ K ⟨⟩))
          ⊢ wp frame (wpE (defs₀ (F := F)) Variants.none c none) E (cc2__proj_fused_kernel i arg3 harg3 arg4 harg4 arg5 harg5 arg6 harg6 arg7 harg7) K } := by
  refine ⟨[], ?_, fun xb xo E K => ?run⟩
  case run =>
    simp only [cc2__proj_fused_kernel_eq_skeleton]; unfold cc2__proj_fused_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- Heads 1 to 14: the product is added to the scratch as the head before left it (`xs`). -/
noncomputable def runMid (c : Dev nD) (i : grid2.Coords) (arg3 : Memref sig .tc .vmem S1x1x1024x64 .bf16) (harg3 : arg3.IsWhole) (arg4 : Memref sig .tc .vmem S1x1024x64 .bf16) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬isFirst i) (hc1 : ¬isLast i)
    (xa : Vec F S1x1x1024x64 .bf16) (xw : Vec F S1x1024x64 .bf16) (xs : Vec F S1024x1024 .f32) :
    Σ' (LO : List (View.Piece (Elt F) S1x1024x1024 .f32)), { LS : List (View.Piece (Elt F) S1024x1024 .f32) //
      ∀ (xb : Vec F S1x1024 .f32) (xo : Vec F S1x1024x1024 .f32) (E : Set ℕ) (K : PUnit → sProp 𝕄),
        iprop(owns (c : Thread nD τ) arg3 fullShare xa ∗ owns (c : Thread nD τ) arg4 fullShare xw ∗ owns (c : Thread nD τ) arg5 fullShare xb
            ∗ owns (c : Thread nD τ) arg6 fullShare xo ∗ owns (c : Thread nD τ) arg7 fullShare xs
            ∗ (iprop(owns (c : Thread nD τ) arg3 fullShare xa ∗ owns (c : Thread nD τ) arg4 fullShare xw ∗ owns (c : Thread nD τ) arg5 fullShare xb
                ∗ owns (c : Thread nD τ) arg6 fullShare xo
                ∗ (∃ f, arg7.view.loc (c : Thread nD τ) ↦[arg7.view.set]{fullShare} arg7.view.writes (Elt F) f LS)) -∗ K ⟨⟩))
          ⊢ wp frame (wpE (defs₀ (F := F)) Variants.none c none) E (cc2__proj_fused_kernel i arg3 harg3 arg4 harg4 arg5 harg5 arg6 harg6 arg7 harg7) K } := by
  refine ⟨[], ?_, fun xb xo E K => ?run⟩
  case run =>
    simp only [cc2__proj_fused_kernel_eq_skeleton]; unfold cc2__proj_fused_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- Head 15: the product is added to the scratch as head 14 left it, and the sum plus the bias row is stored into the
    output tile, which the body finds at anything. -/
noncomputable def runLast (c : Dev nD) (i : grid2.Coords) (arg3 : Memref sig .tc .vmem S1x1x1024x64 .bf16) (harg3 : arg3.IsWhole) (arg4 : Memref sig .tc .vmem S1x1024x64 .bf16) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬isFirst i) (hc1 : isLast i)
    (xa : Vec F S1x1x1024x64 .bf16) (xw : Vec F S1x1024x64 .bf16) (xb : Vec F S1x1024 .f32) (xs : Vec F S1024x1024 .f32) :
    Σ' (LO : List (View.Piece (Elt F) S1x1024x1024 .f32)), { LS : List (View.Piece (Elt F) S1024x1024 .f32) //
      ∀ (E : Set ℕ) (K : PUnit → sProp 𝕄),
        iprop(owns (c : Thread nD τ) arg3 fullShare xa ∗ owns (c : Thread nD τ) arg4 fullShare xw ∗ owns (c : Thread nD τ) arg5 fullShare xb
            ∗ (∃ d, owns (c : Thread nD τ) arg6 fullShare d) ∗ owns (c : Thread nD τ) arg7 fullShare xs
            ∗ (iprop(owns (c : Thread nD τ) arg3 fullShare xa ∗ owns (c : Thread nD τ) arg4 fullShare xw ∗ owns (c : Thread nD τ) arg5 fullShare xb
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc2__proj_fused_kernel i arg3 harg3 arg4 harg4 arg5 harg5 arg6 harg6 arg7 harg7) K } := by
  refine ⟨?_, ?_, fun E K => ?run⟩
  case run =>
    simp only [cc2__proj_fused_kernel_eq_skeleton]; unfold cc2__proj_fused_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.OutProj

end
-- ==== Proof.WordOutProjRegion.lean ====
import proofs.«146399_j69234872812274_2_alg».proof.Proof.WordOutProjRuns

/-!
# (The program as printed, at the word level.) The output projection region: what the running sum holds point by point, and the body obligation

After the body at point t the scratch holds the sum of the products of the heads 0 … (t mod 16) of the point's batch
and row tile, by recursion on the point: reset at a head 0, otherwise what the point before left plus this head's
product. The output tile holds that sum plus the bias row after a head 15, and is not stated elsewhere (it is neither
stored into nor written back there). The region's invariant hands the scratch from one point to the next at exactly
these contents; before the very first point it is at anything.
-/

set_option maxRecDepth 16384

noncomputable section

namespace Cert.Kernel.OutProj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The runs at a point -/

/-- The run of a head-0 point `t`, on the buffers the pipeline passes there and the point's tiles. -/
abbrev firstAt (c : Dev nD) (t : Fin cfg2.N) (h0 : t.val % 16 = 0) (h1 : ¬t.val % 16 = 15) :=
  runFirst (F := F) c (grid2.coords t) (ms_a t) (hs_a t) (ms_w t) (hs_w t) (ms_b t) (hs_b t) (ms_o t) (hs_o t) scM (Memref.isWhole_whole _)
    ((isFirst_iff t).mpr h0) (fun h => h1 ((isLast_iff t).mp h)) (tile V c 0 t) (tile V c 1 t)

/-- The run of a point `t` of heads 1 to 14, the scratch found at `xs`. -/
abbrev midAt (c : Dev nD) (t : Fin cfg2.N) (h0 : ¬t.val % 16 = 0) (h1 : ¬t.val % 16 = 15) (xs : Vec F S1024x1024 .f32) :=
  runMid (F := F) c (grid2.coords t) (ms_a t) (hs_a t) (ms_w t) (hs_w t) (ms_b t) (hs_b t) (ms_o t) (hs_o t) scM (Memref.isWhole_whole _)
    (fun h => h0 ((isFirst_iff t).mp h)) (fun h => h1 ((isLast_iff t).mp h)) (tile V c 0 t) (tile V c 1 t) xs

/-- The run of a head-15 point `t`, the scratch found at `xs`. -/
abbrev lastAt (c : Dev nD) (t : Fin cfg2.N) (h0 : ¬t.val % 16 = 0) (h1 : t.val % 16 = 15) (xs : Vec F S1024x1024 .f32) :=
  runLast (F := F) c (grid2.coords t) (ms_a t) (hs_a t) (ms_w t) (hs_w t) (ms_b t) (hs_b t) (ms_o t) (hs_o t) scM (Memref.isWhole_whole _)
    (fun h => h0 ((isFirst_iff t).mp h)) ((isLast_iff t).mpr h1) (tile V c 0 t) (tile V c 1 t) (tile V c 2 t) xs

/-- Each run's pieces for the scratch tile it, and the last run's pieces for the output tile it. -/
theorem scover_first (c : Dev nD) (t : Fin cfg2.N) (h0 : t.val % 16 = 0) (h1 : ¬t.val % 16 = 15) (y : S1024x1024.Idx) :
    ∃ pc ∈ (firstAt V c t h0 h1).2.1, y ∈ pc.1.set :=
  View.cover_of_tiledL (firstAt V c t h0 h1).2.1 S1024x1024.size (by sl_kernel_rfl) y
theorem scover_mid (c : Dev nD) (t : Fin cfg2.N) (h0 : ¬t.val % 16 = 0) (h1 : ¬t.val % 16 = 15) (xs : Vec F S1024x1024 .f32) (y : S1024x1024.Idx) :
    ∃ pc ∈ (midAt V c t h0 h1 xs).2.1, y ∈ pc.1.set :=
  View.cover_of_tiledL (midAt V c t h0 h1 xs).2.1 S1024x1024.size (by sl_kernel_rfl) y
theorem scover_last (c : Dev nD) (t : Fin cfg2.N) (h0 : ¬t.val % 16 = 0) (h1 : t.val % 16 = 15) (xs : Vec F S1024x1024 .f32) (y : S1024x1024.Idx) :
    ∃ pc ∈ (lastAt V c t h0 h1 xs).2.1, y ∈ pc.1.set :=
  View.cover_of_tiledL (lastAt V c t h0 h1 xs).2.1 S1024x1024.size (by sl_kernel_rfl) y
theorem ocover_last (c : Dev nD) (t : Fin cfg2.N) (h0 : ¬t.val % 16 = 0) (h1 : t.val % 16 = 15) (xs : Vec F S1024x1024 .f32) (y : S1x1024x1024.Idx) :
    ∃ pc ∈ (lastAt V c t h0 h1 xs).1, y ∈ pc.1.set :=
  View.cover_of_tiledL (lastAt V c t h0 h1 xs).1 S1x1024x1024.size (by sl_kernel_rfl) y

/-- What each run leaves in the scratch, and the last in the output tile: its pieces read back. -/
def scrFirst (c : Dev nD) (t : Fin cfg2.N) (h0 : t.val % 16 = 0) (h1 : ¬t.val % 16 = 15) : Vec F S1024x1024 .f32 :=
  VS.read (Elt F) (VS.writes (Elt F) VS.junk (firstAt V c t h0 h1).2.1)
def scrMid (c : Dev nD) (t : Fin cfg2.N) (h0 : ¬t.val % 16 = 0) (h1 : ¬t.val % 16 = 15) (xs : Vec F S1024x1024 .f32) : Vec F S1024x1024 .f32 :=
  VS.read (Elt F) (VS.writes (Elt F) VS.junk (midAt V c t h0 h1 xs).2.1)
def scrLast (c : Dev nD) (t : Fin cfg2.N) (h0 : ¬t.val % 16 = 0) (h1 : t.val % 16 = 15) (xs : Vec F S1024x1024 .f32) : Vec F S1024x1024 .f32 :=
  VS.read (Elt F) (VS.writes (Elt F) VS.junk (lastAt V c t h0 h1 xs).2.1)
def outLast (c : Dev nD) (t : Fin cfg2.N) (h0 : ¬t.val % 16 = 0) (h1 : t.val % 16 = 15) (xs : Vec F S1024x1024 .f32) : Vec F S1x1024x1024 .f32 :=
  VO.read (Elt F) (VO.writes (Elt F) VO.junk (lastAt V c t h0 h1 xs).1)
/-- A stand-in for the output tile where nothing states it (nothing reads it there). -/
def outIdle : Vec F S1x1024x1024 .f32 := VO.read (Elt F) VO.junk

/-! ## The running sum, point by point -/

/-- What the output tile and the scratch hold after the body at position `n`. -/
def accAt (c : Dev nD) : (n : ℕ) → n < cfg2.N → Vec F S1x1024x1024 .f32 × Vec F S1024x1024 .f32
  | 0, hn => (outIdle, scrFirst V c ⟨0, hn⟩ (Nat.zero_mod _) (fun h => absurd (show (0 : ℕ) % 16 = 15 from h) (by decide)))
  | n + 1, hn =>
    if h0 : (n + 1) % 16 = 0 then
      if h1 : (n + 1) % 16 = 15 then False.elim (by omega)
      else (outIdle, scrFirst V c ⟨n + 1, hn⟩ h0 h1)
    else
      if h1 : (n + 1) % 16 = 15 then
        (outLast V c ⟨n + 1, hn⟩ h0 h1 (accAt c n (Nat.lt_of_succ_lt hn)).2, scrLast V c ⟨n + 1, hn⟩ h0 h1 (accAt c n (Nat.lt_of_succ_lt hn)).2)
      else
        (outIdle, scrMid V c ⟨n + 1, hn⟩ h0 h1 (accAt c n (Nat.lt_of_succ_lt hn)).2)

theorem accAt_first (c : Dev nD) (t : Fin cfg2.N) (h0 : t.val % 16 = 0) (h1 : ¬t.val % 16 = 15) :
    accAt V c t.val t.isLt = (outIdle, scrFirst V c t h0 h1) := by
  obtain ⟨n, hn⟩ := t
  cases n with
  | zero => exact rfl
  | succ n => exact (dif_pos h0).trans ((dif_neg h1).trans rfl)

theorem accAt_mid (c : Dev nD) (t : Fin cfg2.N) (h0 : ¬t.val % 16 = 0) (h1 : ¬t.val % 16 = 15) :
    accAt V c t.val t.isLt = (outIdle, scrMid V c t h0 h1 (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg2.N) (h0 : ¬t.val % 16 = 0) (h1 : t.val % 16 = 15) :
    accAt V c t.val t.isLt = (outLast V c t h0 h1 (accAt V c (t.val - 1) (Nat.lt_of_le_of_lt (Nat.sub_le _ _) t.isLt)).2,
      scrLast V c t h0 h1 (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- The core's scoped buffers other than this pipeline's staging buffers and the scratch, each at something. -/
def restScoped (c : Dev nD) : sProp 𝕄 :=
  bigSep ((((Finset.univ.filter fun b : Ref sig .tc => b.isScoped) \ Finset.univ.image (Pipeline.stageRef spec2))).erase cc2_scratch0)
    fun b => iprop(∃ f : Buf (Elt F) ((c : Thread nD τ).loc b), ((c : Thread nD τ).loc b) ↦{fullShare} f)

/-- The class's invariant with the scratch split off. -/
theorem PhiA_eq (c : Dev nD) :
    (Pipeline.ΦA spec2 c : sProp 𝕄)
      = iprop(iprop((∃ d, owns (c : Thread nD τ) scM fullShare d) ∗ restScoped c) ∗ (∃ r, prngReg c r)) := by
  unfold Pipeline.ΦA Pipeline.scopedRest restScoped
  rw [BI.bigSep_erase (i := cc2_scratch0) (by decide)]
  simp only [scM, owns_whole]
  rfl

/-- Before position `n`: before the first point the class's invariant; afterwards the scratch at what the point before
    left, the other scoped buffers at something, the generator register at some state. -/
def PhiS (c : Dev nD) : (n : ℕ) → n ≤ cfg2.N → sProp 𝕄
  | 0, _ => Pipeline.ΦA spec2 c
  | n + 1, hn => iprop(iprop(owns (c : Thread nD τ) scM fullShare ((accAt V c n hn).2) ∗ restScoped c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare ((accAt V c n hn).2) ∗ restScoped c) ∗ (∃ r, prngReg c r)) := rfl

theorem PhiS_pos (c : Dev nD) (n : ℕ) (h : n ≤ cfg2.N) (hz : n ≠ 0) :
    PhiS V c n h = iprop(iprop(owns (c : Thread nD τ) scM fullShare ((accAt V c (n - 1) (by omega)).2) ∗ restScoped c) ∗ (∃ r, prngReg c r)) := by
  cases n with
  | zero => exact absurd rfl hz
  | succ n => rfl

/-! ## The proof data -/

def dat (c : Dev nD) : Dat τ (Elt F) Unit ℕ (UR sig nD τ) ℕ cfg2 c where
  A w := V c (Pipeline.arrRef spec2 w)
  after w t := match w with
    | ⟨0, _⟩ => tile V c 0 t
    | ⟨1, _⟩ => tile V c 1 t
    | ⟨2, _⟩ => tile V c 2 t
    | ⟨3, _⟩ => (accAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_a (c : Dev nD) (t : Fin cfg2.N) : (dat V c).after 0 t = tile V c 0 t := by dsimp only [dat]
theorem after_w (c : Dev nD) (t : Fin cfg2.N) : (dat V c).after 1 t = tile V c 1 t := by dsimp only [dat]
theorem after_b (c : Dev nD) (t : Fin cfg2.N) : (dat V c).after 2 t = tile V c 2 t := by dsimp only [dat]
theorem after_o (c : Dev nD) (t : Fin cfg2.N) : (dat V c).after 3 t = (accAt V c t.val t.isLt).1 := by dsimp only [dat]

theorem before_a (c : Dev nD) (t : Fin cfg2.N) (d) : (dat V c).before 0 t d = tile V c 0 t :=
  before_a_of V (dat V c) (A_eq V c 0) (after_a V c) t d
theorem before_w (c : Dev nD) (t : Fin cfg2.N) (d) : (dat V c).before 1 t d = tile V c 1 t :=
  before_w_of V (dat V c) (A_eq V c 1) (after_w V c) t d
theorem before_b (c : Dev nD) (t : Fin cfg2.N) (d) : (dat V c).before 2 t d = tile V c 2 t :=
  before_b_of V (dat V c) (A_eq V c 2) (after_b V c) t d

/-! ## The body obligation at a generic point -/

def bodyPre (c : Dev nD) (t : Fin cfg2.N) : sProp 𝕄 :=
  iprop((dat V c).Φ t.castSucc ∗ (dat V c).owesAt () t.castSucc
    ∗ (∃ d, owns (c : Thread nD τ) (ms_a t) fullShare ((dat V c).before 0 t d))
    ∗ (∃ d, owns (c : Thread nD τ) (ms_w t) fullShare ((dat V c).before 1 t d))
    ∗ (∃ d, owns (c : Thread nD τ) (ms_b t) fullShare ((dat V c).before 2 t d))
    ∗ (∃ d, owns (c : Thread nD τ) (ms_o t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' buffers hold their tiles; the head decides which run applies; the invariant hands
    the body the scratch at what the point before left (at anything before the first point and at a head 0) and takes it
    back at this point's contents; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_a, before_w, before_b]
  rw [show (dat V c).owesAt () t.succ = (dat V c).owesAt () t.castSucc from rfl]
  rw [show (dat V c).Φ t.succ = PhiS V c (t.val + 1) t.isLt from rfl, PhiS_succ]
  by_cases h0 : t.val % 16 = 0
  · by_cases h1 : t.val % 16 = 15
    · exfalso; omega
    ·
      rw [show (dat V c).leavesExact 0 t = owns (c : Thread nD τ) (ms_a t) fullShare ((dat V c).after 0 t) from by
        unfold Dat.leavesExact; rw [live_a t], after_a]
      rw [show (dat V c).leavesExact 1 t = owns (c : Thread nD τ) (ms_w t) fullShare ((dat V c).after 1 t) from by
        unfold Dat.leavesExact; rw [live_w t], after_w]
      rw [show (dat V c).leavesExact 2 t = owns (c : Thread nD τ) (ms_b t) fullShare ((dat V c).after 2 t) from by
        unfold Dat.leavesExact; rw [live_b t], after_b]
      rw [Dat.leavesExact_idle (dat V c) 3 t (idle_o t (fun h => h1 ((isLast_iff t).mp h))) (noFlush_o t (fun h => h1 ((isLast_iff t).mp h)))]
      rw [accAt_first V c t h0 h1]
      unfold scrFirst; (try dsimp only)
      by_cases hz : t.val = 0
      · rw [PhiS_castSucc V c t, PhiS_zero V c _ _ hz, PhiA_eq]
        iintro ⟨⟨⟨HS, Hrest⟩, Hg⟩, Ho, ⟨%d0, H0⟩, ⟨%d1, H1⟩, ⟨%d2, H2⟩, ⟨%d3, H3⟩⟩
        iapply ((firstAt V c t h0 h1).2.2 _ _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hrest Hg]
        · isplitl [HS Hrest]
          · isplitl [HS]
            · unfold owns; iexists _; isplitr
              swap; · iexact HS
              ipureintro; exact View.read_writes_of_cover _ _ _ _ _ (scover_first V c t h0 h1)
            iexact Hrest
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS, Hrest⟩, Hg⟩, Ho, ⟨%d0, H0⟩, ⟨%d1, H1⟩, ⟨%d2, H2⟩, ⟨%d3, H3⟩⟩
        iapply ((firstAt V c t h0 h1).2.2 _ _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hrest Hg]
        · isplitl [HS Hrest]
          · isplitl [HS]
            · unfold owns; iexists _; isplitr
              swap; · iexact HS
              ipureintro; exact View.read_writes_of_cover _ _ _ _ _ (scover_first V c t h0 h1)
            iexact Hrest
          iexact Hg
        isplitl [Ho]; · iexact Ho
        isplitl [H0]; · iexact H0
        isplitl [H1]; · iexact H1
        isplitl [H2]; · iexact H2
        iexists _; iexact H3
  · by_cases h1 : t.val % 16 = 15
    ·
      rw [show (dat V c).leavesExact 0 t = owns (c : Thread nD τ) (ms_a t) fullShare ((dat V c).after 0 t) from by
        unfold Dat.leavesExact; rw [live_a t], after_a]
      rw [show (dat V c).leavesExact 1 t = owns (c : Thread nD τ) (ms_w t) fullShare ((dat V c).after 1 t) from by
        unfold Dat.leavesExact; rw [live_w t], after_w]
      rw [show (dat V c).leavesExact 2 t = owns (c : Thread nD τ) (ms_b t) fullShare ((dat V c).after 2 t) from by
        unfold Dat.leavesExact; rw [live_b t], after_b]
      rw [show (dat V c).leavesExact 3 t = owns (c : Thread nD τ) (ms_o t) fullShare ((dat V c).after 3 t) from by
        unfold Dat.leavesExact; rw [live_o t ((isLast_iff t).mpr h1)], after_o]
      rw [accAt_last V c t h0 h1]
      unfold outLast scrLast; (try dsimp only)
      have hz : t.val ≠ 0 := fun hz => h0 (by rw [hz])
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩⟩
      iapply ((lastAt V c t h0 h1 _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover_last V c t h0 h1 _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover_last V c t h0 h1 _)
    ·
      rw [show (dat V c).leavesExact 0 t = owns (c : Thread nD τ) (ms_a t) fullShare ((dat V c).after 0 t) from by
        unfold Dat.leavesExact; rw [live_a t], after_a]
      rw [show (dat V c).leavesExact 1 t = owns (c : Thread nD τ) (ms_w t) fullShare ((dat V c).after 1 t) from by
        unfold Dat.leavesExact; rw [live_w t], after_w]
      rw [show (dat V c).leavesExact 2 t = owns (c : Thread nD τ) (ms_b t) fullShare ((dat V c).after 2 t) from by
        unfold Dat.leavesExact; rw [live_b t], after_b]
      rw [Dat.leavesExact_idle (dat V c) 3 t (idle_o t (fun h => h1 ((isLast_iff t).mp h))) (noFlush_o t (fun h => h1 ((isLast_iff t).mp h)))]
      rw [accAt_mid V c t h0 h1]
      unfold scrMid; (try dsimp only)
      have hz : t.val ≠ 0 := fun hz => h0 (by rw [hz])
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩⟩
      iapply ((midAt V c t h0 h1 _).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover_mid V c t h0 h1 _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.OutProj

end
-- ==== Proof.WordKernelRun.lean ====
import proofs.«146399_j69234872812274_2_alg».proof.Proof.WordQkvArrays
import proofs.«146399_j69234872812274_2_alg».proof.Proof.WordAttnRegion
import proofs.«146399_j69234872812274_2_alg».proof.Proof.WordOutProjRegion
import proofs.«146399_j69234872812274_2_alg».proof.Proof.Gen.Kernel.Regions
import Idealize.ShloMosaic.Lib.Pipeline.Regions

/-!
# (The program as printed, at the word level.) The whole program's run

The program is: host operations (casts and reshapes of the arguments), the projection onto queries, keys and values, three
reshapes, the attention, a reshape, the output projection. Between two items every unscoped buffer of a core holds
definite contents: the launch memory, then each host stretch applied, then each region's output arrays replaced by what
its write-backs leave. The run ends with every unscoped buffer read off the last of these.
-/

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- At launch. -/
abbrev W0 : Dev nD → Valuation τ sig (Elt F) := fun c b => m (c, b)
/-- After the first host stretch: the projection region's entry. -/
abbrev W1 : Dev nD → Valuation τ sig (Elt F) := fun c => StableHlo.after hostOps0 (W0 m c)
abbrev B1 : (c : Dev nD) → (b : Ref sig .tc) → Buf (Elt F) ((c : Thread nD τ).loc b) := fun c b => W1 m c b
/-- After the projection region: its three outputs at what its write-backs leave. -/
def W2 (c : Dev nD) : Valuation τ sig (Elt F) :=
  Function.update (Function.update (Function.update (W1 m c) main_v7_0 ((Qkv.dat (B1 m) c).arrAt 4 cfg0.N))
    main_v7_1 ((Qkv.dat (B1 m) c).arrAt 5 cfg0.N)) main_v7_2 ((Qkv.dat (B1 m) c).arrAt 6 cfg0.N)
abbrev B2 : (c : Dev nD) → (b : Ref sig .tc) → Buf (Elt F) ((c : Thread nD τ).loc b) := fun c b => W2 m c b
/-- After the three reshapes: the attention region's entry. -/
abbrev W3 : Dev nD → Valuation τ sig (Elt F) := fun c => StableHlo.after hostOps1 (W2 m c)
abbrev B3 : (c : Dev nD) → (b : Ref sig .tc) → Buf (Elt F) ((c : Thread nD τ).loc b) := fun c b => W3 m c b
/-- After the attention region. -/
def W4 (c : Dev nD) : Valuation τ sig (Elt F) :=
  Pipeline.withArrays spec1 c (W3 m c) fun w => (Attn.dat (B3 m) c).arrAt w cfg1.N
abbrev B4 : (c : Dev nD) → (b : Ref sig .tc) → Buf (Elt F) ((c : Thread nD τ).loc b) := fun c b => W4 m c b
/-- After the reshape: the output projection's entry. -/
abbrev W5 : Dev nD → Valuation τ sig (Elt F) := fun c => StableHlo.after hostOps2 (W4 m c)
abbrev B5 : (c : Dev nD) → (b : Ref sig .tc) → Buf (Elt F) ((c : Thread nD τ).loc b) := fun c b => W5 m c b
/-- After the output projection: the end. -/
def W6 (c : Dev nD) : Valuation τ sig (Elt F) :=
  Pipeline.withArrays spec2 c (W5 m c) fun w => (OutProj.dat (B5 m) c).arrAt w cfg2.N
abbrev B6 : (c : Dev nD) → (b : Ref sig .tc) → Buf (Elt F) ((c : Thread nD τ).loc b) := fun c b => W6 m c b

/-! ### What each region leaves of them -/

theorem W2_q (c : Dev nD) : W2 m c main_v7_0 = (Qkv.dat (B1 m) c).arrAt 4 cfg0.N := by
  unfold W2
  rw [Function.update_of_ne (StableHlo.devRef_ne_of_ne (by decide) : (Proc.devRef .tc main_v7_0 : DevRef τ sig) ≠ Proc.devRef .tc main_v7_2),
    Function.update_of_ne (StableHlo.devRef_ne_of_ne (by decide) : (Proc.devRef .tc main_v7_0 : DevRef τ sig) ≠ Proc.devRef .tc main_v7_1),
    Function.update_self]
theorem W2_k (c : Dev nD) : W2 m c main_v7_1 = (Qkv.dat (B1 m) c).arrAt 5 cfg0.N := by
  unfold W2
  rw [Function.update_of_ne (StableHlo.devRef_ne_of_ne (by decide) : (Proc.devRef .tc main_v7_1 : DevRef τ sig) ≠ Proc.devRef .tc main_v7_2),
    Function.update_self]
theorem W2_v (c : Dev nD) : W2 m c main_v7_2 = (Qkv.dat (B1 m) c).arrAt 6 cfg0.N := by
  unfold W2; rw [Function.update_self]
theorem W2_of_ne (c : Dev nD) (b : Ref sig .tc) (h0 : b ≠ main_v7_0) (h1 : b ≠ main_v7_1) (h2 : b ≠ main_v7_2) :
    W2 m c b = W1 m c b := by
  unfold W2
  rw [Function.update_of_ne (StableHlo.devRef_ne_of_ne h2), Function.update_of_ne (StableHlo.devRef_ne_of_ne h1),
    Function.update_of_ne (StableHlo.devRef_ne_of_ne h0)]

theorem W4_arr (c : Dev nD) (w : Fin cfg1.W) :
    W4 m c (Proc.devRef .tc (Pipeline.arrRef spec1 w)) = (Attn.dat (B3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (Attn.dat (B3 m) c).arrAt w cfg1.N = B4 m c (Pipeline.arrRef spec1 w) :=
  (W4_arr m c w).symm
theorem hrest1 (c : Dev nD) : ∀ b, b ∉ Finset.univ.image (Pipeline.arrRef spec1) → B4 m c b = B3 m c b :=
  fun b hb => W4_of_ne m c b fun w e => hb (Finset.mem_image.mpr ⟨w, Finset.mem_univ _, e⟩)

theorem W6_arr (c : Dev nD) (w : Fin cfg2.W) :
    W6 m c (Proc.devRef .tc (Pipeline.arrRef spec2 w)) = (OutProj.dat (B5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (OutProj.dat (B5 m) c).arrAt w cfg2.N = B6 m c (Pipeline.arrRef spec2 w) :=
  (W6_arr m c w).symm
theorem hrest2 (c : Dev nD) : ∀ b, b ∉ Finset.univ.image (Pipeline.arrRef spec2) → B6 m c b = B5 m c b :=
  fun b hb => W6_of_ne m c b fun w e => hb (Finset.mem_image.mpr ⟨w, Finset.mem_univ _, e⟩)

/-! ### The host stretches write their own results only -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- An argument reaches the end as launched: no host stretch writes it and no region's output array is it. -/
theorem W6_arg (c : Dev nD) (r : Ref sig .tc) (h0 : r ∉ hostOps0_W) (h1 : r ∉ hostOps1_W) (h2 : r ∉ hostOps2_W)
    (hq : r ≠ main_v7_0) (hk : r ≠ main_v7_1) (hv : r ≠ main_v7_2)
    (ha : ∀ w, Pipeline.arrRef spec1 w ≠ r) (hp : ∀ w, Pipeline.arrRef spec2 w ≠ r) :
    W6 m c r = m ((c : Thread nD τ).loc r) :=
  (W6_of_ne m c r hp).trans <| (W5_of m c r h2).trans <| (W4_of_ne m c r ha).trans <| (W3_of m c r h1).trans <|
    (W2_of_ne m c r hq hk hv).trans <| (W1_of m c r h0).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Qkv.dat (B1 m) c
  | ⟨1, _⟩ => fun c => Attn.dat (B3 m) c
  | ⟨2, _⟩ => fun c => OutProj.dat (B5 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The projection region: entered from every unscoped buffer at `W1`, left at `W2`. Its five buffers are split out of
    the unscoped buffers and dealt to its seven windows, and joined and put back at the exit contents. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Qkv.body_obligation (B1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit : (unscopedBufs c (fun b => W1 m c b) : sProp 𝕄)
        ⊢ iprop((pdats m 0 c).arrays ((pdats m 0 c).arrAt · 0) ∗ Pipeline.unscopedRest spec0 c (B1 m c)) := by
      show _ ⊢ iprop((Qkv.dat (B1 m) c).arrays ((Qkv.dat (B1 m) c).arrAt · 0) ∗ Pipeline.unscopedRest spec0 c (B1 m c))
      rw [Pipeline.unscopedBufs_split₀ cfgs 0 winFacts₀0.arr_unscoped c (B1 m c)]
      exact sep_mono (Qkv.arrays_of_bufs (B1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hrest : (Pipeline.unscopedRest (Ix := Unit) (Name := ℕ) (U := UR sig nD τ) (Lvl := ℕ) spec0 c (B1 m c) : sProp 𝕄)
        = Pipeline.unscopedRest spec0 c (B2 m c) := by
      unfold Pipeline.unscopedRest
      exact bigSep_congr fun b hb => by
        have hn := (Finset.mem_sdiff.mp hb).2
        rw [show B2 m c b = B1 m c b from W2_of_ne m c b
          (fun e => hn (e ▸ Finset.mem_image.mpr ⟨4, Finset.mem_univ _, rfl⟩))
          (fun e => hn (e ▸ Finset.mem_image.mpr ⟨5, Finset.mem_univ _, rfl⟩))
          (fun e => hn (e ▸ Finset.mem_image.mpr ⟨6, Finset.mem_univ _, rfl⟩))]
    have hjoin : iprop((pdats m 0 c).arrays ((pdats m 0 c).arrAt · cfg0.N) ∗ Pipeline.unscopedRest spec0 c (B1 m c))
        ⊢ (unscopedBufs c (fun b => W2 m c b) : sProp 𝕄) := by
      show iprop((Qkv.dat (B1 m) c).arrays ((Qkv.dat (B1 m) c).arrAt · cfg0.N) ∗ Pipeline.unscopedRest spec0 c (B1 m c)) ⊢ _
      rw [Pipeline.unscopedBufs_split₀ cfgs 0 winFacts₀0.arr_unscoped c (B2 m c), hrest]
      exact sep_mono (Qkv.bufs_of_arrays (B1 m) c (B2 m c)
        (W2_of_ne m c main_v0 (by decide) (by decide) (by decide)) (W2_of_ne m c main_v2 (by decide) (by decide) (by decide))
        (W2_q m c) (W2_k m c) (W2_v m c)) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the invariant
    and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (B3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (B3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B3 m c) (B4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the invariant
    and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (OutProj.body_obligation (B5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (B5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h1 : (pdats m 2 c).Φ (Fin.last _) ⊢ (Pipeline.ΦA spec2 c : sProp 𝕄) := by
      rw [show (pdats m 2 c).Φ (Fin.last _) = OutProj.PhiS (B5 m) c cfg2.N (Nat.le_refl _) from rfl,
        OutProj.PhiS_pos (B5 m) c _ _ (by decide), OutProj.PhiA_eq]
      iintro ⟨⟨HS, Hr⟩, Hg⟩
      isplitl [HS Hr]
      · isplitl [HS]; · iexists _; iexact HS
        iexact Hr
      iexact Hg
    refine h1.trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B5 m c) (B6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev items : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (items m) := (main_chain c).trans (by chain_rfl)

set_option backward.isDefEq.respectTransparency.types false in
/-- From any memory with zero counters every weakly fair execution of the program terminates, nothing faulting, and
    every final memory holds each unscoped buffer of each core at the last contents `W6`. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Run

end
-- ==== Proof.QkvRegion.lean ====
import proofs.«146399_j69234872812274_2_alg».proof.Proof.Gen.KernelIdeal.Launch
import proofs.«146399_j69234872812274_2_alg».proof.Proof.Gen.KernelIdeal.Skeleton
import proofs.«146399_j69234872812274_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection onto queries, keys and values (the first pallas_call), at the contents `V` it is entered from

Its grid is 4 × 2 × 16: point (b, n, h) reads rows 1024·n … 1024·n + 1023 of batch b's activations and head h's three
64 × 1024 weight tiles (the query, key and value rows of the one weight array, which three windows read), and writes the
1024 × 64 tile of each of the three outputs: the activations against each weight tile, contracted over the 1024 features.
Nothing is kept between points.
-/

set_option maxRecDepth 16384

noncomputable section

namespace Cert.KernelIdeal.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation window's buffer holds its tile at every point, fetched there or kept from the point before. -/
theorem before_x_of {c : Dev nD} (dat : Dat τ (Elt F) Unit ℕ (UR sig nD τ) ℕ cfg0 c) (hA : dat.A 0 = V c (Pipeline.arrRef spec0 0))
    (hafter : ∀ t, dat.after 0 t = tile V c 0 t) (t : Fin cfg0.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The query-weight window's buffer holds head h's tile. -/
theorem before_wq_of {c : Dev nD} (dat : Dat τ (Elt F) Unit ℕ (UR sig nD τ) ℕ cfg0 c) (hA : dat.A 1 = V c (Pipeline.arrRef spec0 1))
    (hafter : ∀ t, dat.after 1 t = tile V c 1 t) (t : Fin cfg0.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- The key-weight window's buffer holds head h's tile. -/
theorem before_wk_of {c : Dev nD} (dat : Dat τ (Elt F) Unit ℕ (UR sig nD τ) ℕ cfg0 c) (hA : dat.A 2 = V c (Pipeline.arrRef spec0 2))
    (hafter : ∀ t, dat.after 2 t = tile V c 2 t) (t : Fin cfg0.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- The value-weight window's buffer holds head h's tile. -/
theorem before_wv_of {c : Dev nD} (dat : Dat τ (Elt F) Unit ℕ (UR sig nD τ) ℕ cfg0 c) (hA : dat.A 3 = V c (Pipeline.arrRef spec0 3))
    (hafter : ∀ t, dat.after 3 t = tile V c 3 t) (t : Fin cfg0.N) (d) : dat.before 3 t d = tile V c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)

/-- The whole tiles of the three shapes the body touches. -/
abbrev rX : Rect S1x1024x1024 := Rect.unit (s := S1x1024x1024) ![0, 0, 0] S1x1024x1024.size inb_S1x1024x1024_S1x1024x1024_0_0_0
abbrev rW : Rect S1x1x64x1024 := Rect.unit (s := S1x1x64x1024) ![0, 0, 0, 0] S1x1x64x1024.size inb_S1x1x64x1024_S1x1x64x1024_0_0_0_0
abbrev rO : Rect S1x1x1024x64 := Rect.unit (s := S1x1x1024x64) ![0, 0, 0, 0] S1x1x1024x64.size inb_S1x1x1024x64_S1x1x1024x64_0_0_0_0

/-- What a point leaves in each output tile: the one store into it, of the activations against that weight tile. -/
def outQ (x : Vec F S1x1024x1024 .bf16) (w : Vec F S1x1x64x1024 .bf16) : Vec F S1x1x1024x64 .bf16 :=
  View.canon [⟨rO, k0_pay2 (View.ld x rX) (View.ld w rW)⟩]
def outK (x : Vec F S1x1024x1024 .bf16) (w : Vec F S1x1x64x1024 .bf16) : Vec F S1x1x1024x64 .bf16 :=
  View.canon [⟨rO, k0_pay3 (View.ld x rX) (View.ld w rW)⟩]
def outV (x : Vec F S1x1024x1024 .bf16) (w : Vec F S1x1x64x1024 .bf16) : Vec F S1x1x1024x64 .bf16 :=
  View.canon [⟨rO, k0_pay4 (View.ld x rX) (View.ld w rW)⟩]

/-- One store of the whole tile covers it. -/
theorem cover_out (p0 : Vec F S1x1x1024x64 .bf16) (y : S1x1x1024x64.Idx) :
    ∃ pc ∈ ([⟨rO, p0⟩] : List (View.Piece (Elt F) S1x1x1024x64 .bf16)), y ∈ pc.1.set :=
  View.cover_of_tiled [⟨rO, p0⟩] S1x1x1024x64.size (by rfl) y

set_option maxHeartbeats 2000000 in
/-- The body on whole staging buffers, the inputs at `x`, `wq`, `wk`, `wv` and the outputs at anything, runs to the end
    with the inputs as they were and the three outputs at `outQ x wq`, `outK x wk`, `outV x wv`. -/
theorem sound_kernel (c : Dev nD) (E : Set ℕ) (i : grid0.Coords)
    (arg3 : Memref sig .tc .vmem S1x1024x1024 .bf16) (harg3 : arg3.IsWhole)
    (arg4 : Memref sig .tc .vmem S1x1x64x1024 .bf16) (harg4 : arg4.IsWhole) (arg5 : Memref sig .tc .vmem S1x1x64x1024 .bf16) (harg5 : arg5.IsWhole)
    (arg6 : Memref sig .tc .vmem S1x1x64x1024 .bf16) (harg6 : arg6.IsWhole)
    (arg7 : Memref sig .tc .vmem S1x1x1024x64 .bf16) (harg7 : arg7.IsWhole) (arg8 : Memref sig .tc .vmem S1x1x1024x64 .bf16) (harg8 : arg8.IsWhole)
    (arg9 : Memref sig .tc .vmem S1x1x1024x64 .bf16) (harg9 : arg9.IsWhole)
    (x : Vec F S1x1024x1024 .bf16) (wq wk wv : Vec F S1x1x64x1024 .bf16) (K : PUnit → sProp 𝕄) :
    iprop(owns (c : Thread nD τ) arg3 fullShare x ∗ owns (c : Thread nD τ) arg4 fullShare wq ∗ owns (c : Thread nD τ) arg5 fullShare wk
        ∗ owns (c : Thread nD τ) arg6 fullShare wv
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x ∗ owns (c : Thread nD τ) arg4 fullShare wq ∗ owns (c : Thread nD τ) arg5 fullShare wk
            ∗ owns (c : Thread nD τ) arg6 fullShare wv
            ∗ owns (c : Thread nD τ) arg7 fullShare (outQ x wq) ∗ owns (c : Thread nD τ) arg8 fullShare (outK x wk)
            ∗ owns (c : Thread nD τ) arg9 fullShare (outV x wv)) -∗ K ⟨⟩))
      ⊢ wp frame (wpE (defs₀ (F := F)) Variants.none c none) E
          (cc0__qkv_fused_kernel i arg3 harg3 arg4 harg4 arg5 harg5 arg6 harg6 arg7 harg7 arg8 harg8 arg9 harg9) K := by
  simp only [cc0__qkv_fused_kernel_eq_skeleton]; unfold cc0__qkv_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_out _)
  isplitl [H5]
  · iexists _; isplitr
    swap; · iexact H5
    ipureintro
    exact View.read_writes_eq_canon _ _ _ (cover_out _)
  iexists _; isplitr
  swap; · iexact H6
  ipureintro
  exact View.read_writes_eq_canon _ _ _ (cover_out _)

/-! ## The proof data -/

/-- The projection pipeline's proof data on core `c`: the arrays as the region finds them; after the body at point `t`
    each input's buffer still at its tile, each output's at the activations against its weight tile; the invariant is the
    scoped rest and the generator register, untouched; nothing owed. The weight array is read by three windows: its full
    share is dealt as the left half, and the two halves of the right half. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => tile V c 3 t
    | ⟨4, _⟩ => outQ (tile V c 0 t) (tile V c 1 t)
    | ⟨5, _⟩ => outK (tile V c 0 t) (tile V c 2 t)
    | ⟨6, _⟩ => outV (tile V c 0 t) (tile V c 3 t)
  Φ _ := Pipeline.ΦA spec0 c
  q w := match w with
    | ⟨1, _⟩ => fullShare.left
    | ⟨2, _⟩ => fullShare.right.left
    | ⟨3, _⟩ => fullShare.right.right
    | _ => fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = tile V c 0 t := by dsimp only [dat]
theorem after_wq (c : Dev nD) (t : Fin cfg0.N) : (dat V c).after 1 t = tile V c 1 t := by dsimp only [dat]
theorem after_wk (c : Dev nD) (t : Fin cfg0.N) : (dat V c).after 2 t = tile V c 2 t := by dsimp only [dat]
theorem after_wv (c : Dev nD) (t : Fin cfg0.N) : (dat V c).after 3 t = tile V c 3 t := by dsimp only [dat]
theorem after_q (c : Dev nD) (t : Fin cfg0.N) : (dat V c).after 4 t = outQ (tile V c 0 t) (tile V c 1 t) := by dsimp only [dat]
theorem after_k (c : Dev nD) (t : Fin cfg0.N) : (dat V c).after 5 t = outK (tile V c 0 t) (tile V c 2 t) := by dsimp only [dat]
theorem after_v (c : Dev nD) (t : Fin cfg0.N) : (dat V c).after 6 t = outV (tile V c 0 t) (tile V c 3 t) := by dsimp only [dat]

theorem before_x (c : Dev nD) (t : Fin cfg0.N) (d) : (dat V c).before 0 t d = tile V c 0 t :=
  before_x_of V (dat V c) (A_eq V c 0) (after_x V c) t d
theorem before_wq (c : Dev nD) (t : Fin cfg0.N) (d) : (dat V c).before 1 t d = tile V c 1 t :=
  before_wq_of V (dat V c) (A_eq V c 1) (after_wq V c) t d
theorem before_wk (c : Dev nD) (t : Fin cfg0.N) (d) : (dat V c).before 2 t d = tile V c 2 t :=
  before_wk_of V (dat V c) (A_eq V c 2) (after_wk V c) t d
theorem before_wv (c : Dev nD) (t : Fin cfg0.N) (d) : (dat V c).before 3 t d = tile V c 3 t :=
  before_wv_of V (dat V c) (A_eq V c 3) (after_wv V c) t d

/-! ## The body obligation at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' buffers hold their tiles, so the triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_wq, before_wk, before_wv]
  rw [show (dat V c).Φ t.succ = (dat V c).Φ t.castSucc from rfl,
    show (dat V c).owesAt () t.succ = (dat V c).owesAt () t.castSucc from rfl,
    after_x, after_wq, after_wk, after_wv, after_q, after_k, after_v]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (tile V c 0 t) (tile V c 1 t) (tile V c 2 t) (tile V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Qkv

end
-- ==== Proof.QkvArrays.lean ====
import proofs.«146399_j69234872812274_2_alg».proof.Proof.QkvRegion

/-!
# The projection region's arrays at entry and exit

Its seven windows stand on five buffers: the activations, the weights (read by three windows), and the three outputs.
At entry the weight buffer, held whole, is dealt to the three windows as the left half of its share and the two halves
of the right half; at exit the three parts, still at the entry contents (no window writes the weights), are joined again.
-/

set_option maxRecDepth 16384

noncomputable section

namespace Cert.KernelIdeal.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the seven windows. -/
theorem image_arr : Finset.univ.image (Pipeline.arrRef spec0) = {main_v0, main_v2, main_v7_0, main_v7_1, main_v7_2} := by decide

/-- Those buffers, each whole at the full share at contents `W`, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v2) ↦{fullShare} W main_v2)
          ∗ (((c : Thread nD τ).loc main_v7_0) ↦{fullShare} W main_v7_0) ∗ (((c : Thread nD τ).loc main_v7_1) ↦{fullShare} W main_v7_1)
          ∗ (((c : Thread nD τ).loc main_v7_2) ↦{fullShare} W main_v7_2)) := by
  unfold Pipeline.arrBufs; rw [image_arr]
  rw [BI.bigSep_insert (by decide), BI.bigSep_insert (by decide), BI.bigSep_insert (by decide), BI.bigSep_insert (by decide), BI.bigSep_singleton]
  rfl

/-- Each window's share of its array. -/
theorem share_0 (c : Dev nD) : (dat V c).share 0 = fullShare := by unfold Dat.share; rfl
theorem share_1 (c : Dev nD) : (dat V c).share 1 = fullShare.left := by unfold Dat.share; rfl
theorem share_2 (c : Dev nD) : (dat V c).share 2 = fullShare.right.left := by unfold Dat.share; rfl
theorem share_3 (c : Dev nD) : (dat V c).share 3 = fullShare.right.right := by unfold Dat.share; rfl
theorem share_4 (c : Dev nD) : (dat V c).share 4 = fullShare := by unfold Dat.share; rfl
theorem share_5 (c : Dev nD) : (dat V c).share 5 = fullShare := by unfold Dat.share; rfl
theorem share_6 (c : Dev nD) : (dat V c).share 6 = fullShare := by unfold Dat.share; rfl

/-- The pipeline's arrays at contents `G`, window by window, each whole at its share. -/
theorem arrays_eq (c : Dev nD) (G : (w : Fin cfg0.W) → Buf (Elt F) ((cfg0.win w).arr.view.loc (c : Thread nD τ))) :
    ((dat V c).arrays G : sProp 𝕄)
      = iprop((((c : Thread nD τ).loc main_v0) ↦{fullShare} G 0) ∗ (((c : Thread nD τ).loc main_v2) ↦{fullShare.left} G 1)
          ∗ (((c : Thread nD τ).loc main_v2) ↦{fullShare.right.left} G 2) ∗ (((c : Thread nD τ).loc main_v2) ↦{fullShare.right.right} G 3)
          ∗ (((c : Thread nD τ).loc main_v7_0) ↦{fullShare} G 4) ∗ (((c : Thread nD τ).loc main_v7_1) ↦{fullShare} G 5)
          ∗ (((c : Thread nD τ).loc main_v7_2) ↦{fullShare} G 6)) := by
  have h : ((dat V c).arrays G : sProp 𝕄)
      = bigSep Finset.univ fun w => (((c : Thread nD τ).loc (Pipeline.arrRef spec0 w)) ↦{(dat V c).share w} G w : sProp 𝕄) := by
    unfold Dat.arrays
    exact bigSep_congr fun w _ => by rw [(arr_whole0 w).set_eq_univ]
  rw [h, bigSep_W0, share_0, share_1, share_2, share_3, share_4, share_5, share_6]

/-- ENTRY: the five buffers whole at `V` make the arrays at their entry contents, the weights dealt in three. -/
theorem arrays_of_bufs (c : Dev nD) :
    (Pipeline.arrBufs (Ix := Unit) (Name := ℕ) (U := UR sig nD τ) (Lvl := ℕ) spec0 c (V c) : sProp 𝕄)
      ⊢ (dat V c).arrays ((dat V c).arrAt · 0) := by
  rw [arrBufs_eq, arrays_eq]
  iintro ⟨Hx, Hw, Hq, Hk, Hv⟩
  ihave Hw' := (pointsTo_share (PosShare.mem_left_op_right fullShare)).1 $$ Hw
  icases Hw' with ⟨Hw1, Hwr⟩
  ihave Hwr' := (pointsTo_share (PosShare.mem_left_op_right fullShare.right)).1 $$ Hwr
  icases Hwr' with ⟨Hw2, Hw3⟩
  isplitl [Hx]; · iexact Hx
  isplitl [Hw1]; · iexact Hw1
  isplitl [Hw2]; · iexact Hw2
  isplitl [Hw3]; · iexact Hw3
  isplitl [Hq]; · iexact Hq
  isplitl [Hk]; · iexact Hk
  iexact Hv

/-- No window writes an input's array: after every write-back it holds its entry contents. -/
theorem arrAt_x (c : Dev nD) : (dat V c).arrAt 0 cfg0.N = V c main_v0 := ((dat V c).arrAt_in 0 rfl _).trans (A_eq V c 0)
theorem arrAt_wq (c : Dev nD) : (dat V c).arrAt 1 cfg0.N = V c main_v2 := ((dat V c).arrAt_in 1 rfl _).trans (A_eq V c 1)
theorem arrAt_wk (c : Dev nD) : (dat V c).arrAt 2 cfg0.N = V c main_v2 := ((dat V c).arrAt_in 2 rfl _).trans (A_eq V c 2)
theorem arrAt_wv (c : Dev nD) : (dat V c).arrAt 3 cfg0.N = V c main_v2 := ((dat V c).arrAt_in 3 rfl _).trans (A_eq V c 3)

/-- EXIT: the arrays at their final contents make the five buffers whole at any contents `W` that agree with `V` on the
    two inputs and hold the three outputs' final contents: the weights' three parts are joined. -/
theorem bufs_of_arrays (c : Dev nD) (W : (b : Ref sig .tc) → Buf (Elt F) ((c : Thread nD τ).loc b))
    (hx : W main_v0 = V c main_v0) (hw : W main_v2 = V c main_v2)
    (hq : W main_v7_0 = (dat V c).arrAt 4 cfg0.N) (hk : W main_v7_1 = (dat V c).arrAt 5 cfg0.N) (hv : W main_v7_2 = (dat V c).arrAt 6 cfg0.N) :
    ((dat V c).arrays ((dat V c).arrAt · cfg0.N) : sProp 𝕄)
      ⊢ Pipeline.arrBufs (Ix := Unit) (Name := ℕ) (U := UR sig nD τ) (Lvl := ℕ) spec0 c W := by
  rw [arrBufs_eq, arrays_eq, hx, hw, hq, hk, hv]
  rw [arrAt_x, arrAt_wq, arrAt_wk, arrAt_wv]
  iintro ⟨Hx, Hw1, Hw2, Hw3, Hq, Hk, Hv⟩
  ihave Hwr := (pointsTo_share (PosShare.mem_left_op_right fullShare.right)).2 $$ [Hw2 Hw3]
  · isplitl [Hw2] <;> iassumption
  ihave Hw := (pointsTo_share (PosShare.mem_left_op_right fullShare)).2 $$ [Hw1 Hwr]
  · isplitl [Hw1] <;> iassumption
  isplitl [Hx]; · iexact Hx
  isplitl [Hw]; · iexact Hw
  isplitl [Hq]; · iexact Hq
  isplitl [Hk]; · iexact Hk
  iexact Hv

end Cert.KernelIdeal.Qkv

end
-- ==== Proof.AttnRegion.lean ====
import proofs.«146399_j69234872812274_2_alg».proof.Proof.Gen.KernelIdeal.Launch
import proofs.«146399_j69234872812274_2_alg».proof.Proof.Gen.KernelIdeal.Skeleton
import proofs.«146399_j69234872812274_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The attention region (the second pallas_call), at the contents `V` it is entered from

Its grid is 64 × 4: point (bh, qi) reads rows 512·qi … 512·qi + 511 of head bh's queries, all 2048 rows of that
head's keys and values, and writes the same 512 rows of the head's output: the softmax of the scaled scores
against the keys, summed against the values and divided by the row's total weight. Nothing is kept from one
point to the next, so what a point leaves in the output tile is one function of the three input tiles.
-/

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def tile (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's buffer holds its tile at every point. -/
theorem before_q_of {c : Dev nD} (dat : Dat τ (Elt F) Unit ℕ (UR sig nD τ) ℕ cfg1 c) (hA : dat.A 0 = V c (Pipeline.arrRef spec1 0))
    (hafter : ∀ t, dat.after 0 t = tile V c 0 t) (t : Fin cfg1.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The key window's buffer holds the head's keys at every point, fetched there or kept from the point before. -/
theorem before_k_of {c : Dev nD} (dat : Dat τ (Elt F) Unit ℕ (UR sig nD τ) ℕ cfg1 c) (hA : dat.A 1 = V c (Pipeline.arrRef spec1 1))
    (hafter : ∀ t, dat.after 1 t = tile V c 1 t) (t : Fin cfg1.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- The value window's buffer holds the head's values at every point, likewise. -/
theorem before_v_of {c : Dev nD} (dat : Dat τ (Elt F) Unit ℕ (UR sig nD τ) ℕ cfg1 c) (hA : dat.A 2 = V c (Pipeline.arrRef spec1 2))
    (hafter : ∀ t, dat.after 2 t = tile V c 2 t) (t : Fin cfg1.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-- The whole 1 × 512 × 64 tile, and the whole 1 × 2048 × 64 tile. -/
abbrev rQ : Rect S1x512x64 := Rect.unit (s := S1x512x64) ![0, 0, 0] S1x512x64.size inb_S1x512x64_S1x512x64_0_0_0
abbrev rKV : Rect S1x2048x64 := Rect.unit (s := S1x2048x64) ![0, 0, 0] S1x2048x64.size inb_S1x2048x64_S1x2048x64_0_0_0

/-- What a point leaves in the output tile: the one store of the body, of the attention of the three input tiles. -/
def outTile (q : Vec F S1x512x64 .bf16) (k v : Vec F S1x2048x64 .bf16) : Vec F S1x512x64 .bf16 :=
  View.canon [⟨rQ, k1_pay1 (View.ld q rQ) (View.ld k rKV) (View.ld v rKV)⟩]

/-- The one store covers the tile. -/
theorem cover_out (p0 : Vec F S1x512x64 .bf16) (y : S1x512x64.Idx) :
    ∃ pc ∈ ([⟨rQ, p0⟩] : List (View.Piece (Elt F) S1x512x64 .bf16)), y ∈ pc.1.set :=
  View.cover_of_tiled [⟨rQ, p0⟩] S1x512x64.size (by rfl) y

set_option maxHeartbeats 1000000 in
/-- The body on whole staging buffers, the inputs at `q`, `k`, `v` and the output at anything, runs to the end with the
    inputs as they were and the output at `outTile q k v`. -/
theorem sound_kernel (c : Dev nD) (E : Set ℕ) (i : grid1.Coords)
    (arg2 : Memref sig .tc .vmem S1x512x64 .bf16) (harg2 : arg2.IsWhole) (arg3 : Memref sig .tc .vmem S1x2048x64 .bf16) (harg3 : arg3.IsWhole)
    (arg4 : Memref sig .tc .vmem S1x2048x64 .bf16) (harg4 : arg4.IsWhole) (arg5 : Memref sig .tc .vmem S1x512x64 .bf16) (harg5 : arg5.IsWhole)
    (q : Vec F S1x512x64 .bf16) (k v : Vec F S1x2048x64 .bf16) (K : PUnit → sProp 𝕄) :
    iprop(owns (c : Thread nD τ) arg2 fullShare q ∗ owns (c : Thread nD τ) arg3 fullShare k ∗ owns (c : Thread nD τ) arg4 fullShare v
        ∗ (∃ d, owns (c : Thread nD τ) arg5 fullShare d)
        ∗ (iprop(owns (c : Thread nD τ) arg2 fullShare q ∗ owns (c : Thread nD τ) arg3 fullShare k ∗ owns (c : Thread nD τ) arg4 fullShare v
            ∗ owns (c : Thread nD τ) arg5 fullShare (outTile q k v)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The proof data -/

/-- The attention pipeline's proof data on core `c`: the arrays as the region finds them; after the body at point `t`
    each input's buffer still at its tile, the output's at the attention of the three tiles; the invariant is the scoped
    rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => outTile (tile V c 0 t) (tile V c 1 t) (tile V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_q (c : Dev nD) (t : Fin cfg1.N) : (dat V c).after 0 t = tile V c 0 t := by dsimp only [dat]
theorem after_k (c : Dev nD) (t : Fin cfg1.N) : (dat V c).after 1 t = tile V c 1 t := by dsimp only [dat]
theorem after_v (c : Dev nD) (t : Fin cfg1.N) : (dat V c).after 2 t = tile V c 2 t := by dsimp only [dat]
theorem after_o (c : Dev nD) (t : Fin cfg1.N) :
    (dat V c).after 3 t = outTile (tile V c 0 t) (tile V c 1 t) (tile V c 2 t) := by dsimp only [dat]

theorem before_q (c : Dev nD) (t : Fin cfg1.N) (d) : (dat V c).before 0 t d = tile V c 0 t :=
  before_q_of V (dat V c) (A_eq V c 0) (after_q V c) t d
theorem before_k (c : Dev nD) (t : Fin cfg1.N) (d) : (dat V c).before 1 t d = tile V c 1 t :=
  before_k_of V (dat V c) (A_eq V c 1) (after_k V c) t d
theorem before_v (c : Dev nD) (t : Fin cfg1.N) (d) : (dat V c).before 2 t d = tile V c 2 t :=
  before_v_of V (dat V c) (A_eq V c 2) (after_v V c) t d

/-! ## The body obligation at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their tiles, so the triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k, before_v]
  rw [show (dat V c).Φ t.succ = (dat V c).Φ t.castSucc from rfl,
    show (dat V c).owesAt () t.succ = (dat V c).owesAt () t.castSucc from rfl,
    after_q, after_k, after_v, after_o]
  iintro ⟨HΦ, Ho, ⟨%d0, H0⟩, ⟨%d1, H1⟩, ⟨%d2, H2⟩, ⟨%d3, H3⟩⟩
  iapply (sound_kernel c Set.univ _ _ _ _ _ _ _ _ _ (tile V c 0 t) (tile V c 1 t) (tile V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Attn

end
-- ==== Proof.OutProjRuns.lean ====
import proofs.«146399_j69234872812274_2_alg».proof.Proof.Gen.KernelIdeal.Launch
import proofs.«146399_j69234872812274_2_alg».proof.Proof.Gen.KernelIdeal.Skeleton
import proofs.«146399_j69234872812274_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The output projection (the third pallas_call): conditions, schedule facts and the body's runs

Its grid is 4 × 2 × 16: point (b, n, h) reads the 1024 × 64 tile of head h's attention output at rows 1024·n … of batch b,
head h's 1024 × 64 tile of the output weights, and the bias row. A 1024 × 1024 scratch carries the running sum over the
heads: it is reset to zero at head 0, the product of the two tiles (contracted over the 64 lanes) is added to it at every
head, and at head 15 the bias is added and the sum is stored into the output tile, which is written back only there.
The body therefore runs in one of three ways according to the head, and each way is run once here.
-/

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s tile at point `t`, read off its array as the region finds it. -/
def tile (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The attention-output window's buffer holds its tile at every point. -/
theorem before_a_of {c : Dev nD} (dat : Dat τ (Elt F) Unit ℕ (UR sig nD τ) ℕ cfg2 c) (hA : dat.A 0 = V c (Pipeline.arrRef spec2 0))
    (hafter : ∀ t, dat.after 0 t = tile V c 0 t) (t : Fin cfg2.N) (d) : dat.before 0 t d = tile V c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)

/-- The weight window's buffer holds head h's tile. -/
theorem before_w_of {c : Dev nD} (dat : Dat τ (Elt F) Unit ℕ (UR sig nD τ) ℕ cfg2 c) (hA : dat.A 1 = V c (Pipeline.arrRef spec2 1))
    (hafter : ∀ t, dat.after 1 t = tile V c 1 t) (t : Fin cfg2.N) (d) : dat.before 1 t d = tile V c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)

/-- The bias window's buffer holds the bias row at every point (fetched once, at the first). -/
theorem before_b_of {c : Dev nD} (dat : Dat τ (Elt F) Unit ℕ (UR sig nD τ) ℕ cfg2 c) (hA : dat.A 2 = V c (Pipeline.arrRef spec2 2))
    (hafter : ∀ t, dat.after 2 t = tile V c 2 t) (t : Fin cfg2.N) (d) : dat.before 2 t d = tile V c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)

/-! ## The two conditions on the head coordinate -/

/-- The body resets the running sum: the head is 0. -/
abbrev isFirst (i : grid2.Coords) : Prop := (Scalar.cmpi .ne (Scalar.extui (Scalar.cmpi .eq (BitVec.ofNat 32 (i 2).val) 0#32)) 0#32) = 1#1
theorem isFirst_iff : ∀ t : Fin cfg2.N, isFirst (grid2.coords t) ↔ t.val % 16 = 0 :=
  (by decide +kernel : ∀ t : Fin grid2.N, isFirst (grid2.coords t) ↔ t.val % 16 = 0)

/-- The body adds the bias and stores the output: the head is 15. -/
abbrev isLast (i : grid2.Coords) : Prop := k2_cond2 i = 1#1
theorem isLast_iff : ∀ t : Fin cfg2.N, isLast (grid2.coords t) ↔ t.val % 16 = 15 :=
  (by decide +kernel : ∀ t : Fin grid2.N, isLast (grid2.coords t) ↔ t.val % 16 = 15)

/-! ## Where the windows are idle -/

theorem live_a : ∀ t : Fin cfg2.N, cfg2.idle 0 (grid2.coords t) = false := by decide +kernel
theorem live_w : ∀ t : Fin cfg2.N, cfg2.idle 1 (grid2.coords t) = false := by decide +kernel
theorem live_b : ∀ t : Fin cfg2.N, cfg2.idle 2 (grid2.coords t) = false := by decide +kernel
/-- Away from head 15 nothing is stored into the output tile, and it is not written back. -/
theorem idle_o : ∀ t : Fin cfg2.N, ¬isLast (grid2.coords t) → cfg2.idle 3 (grid2.coords t) = true := by decide +kernel
theorem noFlush_o : ∀ t : Fin cfg2.N, ¬isLast (grid2.coords t) → (cfg2.win 3).flush t = false := by decide +kernel
theorem live_o : ∀ t : Fin cfg2.N, isLast (grid2.coords t) → cfg2.idle 3 (grid2.coords t) = false := by decide +kernel

/-! ## The buffers the body is called with -/

abbrev VO : View sig .tc .vmem S1x1024x1024 .f32 := (Memref.whole cc2_stg3_0 : Memref sig .tc .vmem S1x1024x1024 .f32).view
abbrev ms_a (t : Fin cfg2.N) : Memref sig .tc .vmem S1x1x1024x64 .bf16 := win2_0.stage (cfg2.slots t 0)
abbrev hs_a (t : Fin cfg2.N) : (ms_a t).IsWhole := hstage2_0 ((cfg2.slots t 0).cast nbuf2_0)
abbrev ms_w (t : Fin cfg2.N) : Memref sig .tc .vmem S1x1024x64 .bf16 := win2_1.stage (cfg2.slots t 1)
abbrev hs_w (t : Fin cfg2.N) : (ms_w t).IsWhole := hstage2_1 ((cfg2.slots t 1).cast nbuf2_1)
abbrev ms_b (t : Fin cfg2.N) : Memref sig .tc .vmem S1x1024 .f32 := win2_2.stage (cfg2.slots t 2)
abbrev hs_b (t : Fin cfg2.N) : (ms_b t).IsWhole := hstage2_2 ((cfg2.slots t 2).cast nbuf2_2)
abbrev ms_o (t : Fin cfg2.N) : Memref sig .tc .vmem S1x1024x1024 .f32 := win2_3.stage (cfg2.slots t 3)
abbrev hs_o (t : Fin cfg2.N) : (ms_o t).IsWhole := hstage2_3 ((cfg2.slots t 3).cast nbuf2_3)
/-- The scratch that carries the running sum. -/
abbrev scM : Memref sig .tc .vmem S1024x1024 .f32 := Memref.whole cc2_scratch0
abbrev VS : View sig .tc .vmem S1024x1024 .f32 := scM.view

/-! ## The body's three runs -/

set_option maxHeartbeats 2000000 in
/-- Head 0: the scratch, at anything, is reset and the product added; the bias and the output tile are not touched. The
    pieces the scratch ends with are found by the run. -/
noncomputable def runFirst (c : Dev nD) (i : grid2.Coords) (arg3 : Memref sig .tc .vmem S1x1x1024x64 .bf16) (harg3 : arg3.IsWhole) (arg4 : Memref sig .tc .vmem S1x1024x64 .bf16) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : isFirst i) (hc1 : ¬isLast i)
    (xa : Vec F S1x1x1024x64 .bf16) (xw : Vec F S1x1024x64 .bf16) :
    Σ' (LO : List (View.Piece (Elt F) S1x1024x1024 .f32)), { LS : List (View.Piece (Elt F) S1024x1024 .f32) //
      ∀ (xb : Vec F S1x1024 .f32) (xo : Vec F S1x1024x1024 .f32) (E : Set ℕ) (K : PUnit → sProp 𝕄),
        iprop(owns (c : Thread nD τ) arg3 fullShare xa ∗ owns (c : Thread nD τ) arg4 fullShare xw ∗ owns (c : Thread nD τ) arg5 fullShare xb
            ∗ owns (c : Thread nD τ) arg6 fullShare xo ∗ (∃ d, owns (c : Thread nD τ) arg7 fullShare d)
            ∗ (iprop(owns (c : Thread nD τ) arg3 fullShare xa ∗ owns (c : Thread nD τ) arg4 fullShare xw ∗ owns (c : Thread nD τ) arg5 fullShare xb
                ∗ owns (c : Thread nD τ) arg6 fullShare xo
                ∗ (∃ f, arg7.view.loc (c : Thread nD τ) ↦[arg7.view.set]{fullShare} arg7.view.writes (Elt F) f LS)) -∗ K ⟨⟩))
          ⊢ wp frame (wpE (defs₀ (F := F)) Variants.none c none) E (cc2__proj_fused_kernel i arg3 harg3 arg4 harg4 arg5 harg5 arg6 harg6 arg7 harg7) K } := by
  refine ⟨[], ?_, fun xb xo E K => ?run⟩
  case run =>
    simp only [cc2__proj_fused_kernel_eq_skeleton]; unfold cc2__proj_fused_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- Heads 1 to 14: the product is added to the scratch as the head before left it (`xs`). -/
noncomputable def runMid (c : Dev nD) (i : grid2.Coords) (arg3 : Memref sig .tc .vmem S1x1x1024x64 .bf16) (harg3 : arg3.IsWhole) (arg4 : Memref sig .tc .vmem S1x1024x64 .bf16) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬isFirst i) (hc1 : ¬isLast i)
    (xa : Vec F S1x1x1024x64 .bf16) (xw : Vec F S1x1024x64 .bf16) (xs : Vec F S1024x1024 .f32) :
    Σ' (LO : List (View.Piece (Elt F) S1x1024x1024 .f32)), { LS : List (View.Piece (Elt F) S1024x1024 .f32) //
      ∀ (xb : Vec F S1x1024 .f32) (xo : Vec F S1x1024x1024 .f32) (E : Set ℕ) (K : PUnit → sProp 𝕄),
        iprop(owns (c : Thread nD τ) arg3 fullShare xa ∗ owns (c : Thread nD τ) arg4 fullShare xw ∗ owns (c : Thread nD τ) arg5 fullShare xb
            ∗ owns (c : Thread nD τ) arg6 fullShare xo ∗ owns (c : Thread nD τ) arg7 fullShare xs
            ∗ (iprop(owns (c : Thread nD τ) arg3 fullShare xa ∗ owns (c : Thread nD τ) arg4 fullShare xw ∗ owns (c : Thread nD τ) arg5 fullShare xb
                ∗ owns (c : Thread nD τ) arg6 fullShare xo
                ∗ (∃ f, arg7.view.loc (c : Thread nD τ) ↦[arg7.view.set]{fullShare} arg7.view.writes (Elt F) f LS)) -∗ K ⟨⟩))
          ⊢ wp frame (wpE (defs₀ (F := F)) Variants.none c none) E (cc2__proj_fused_kernel i arg3 harg3 arg4 harg4 arg5 harg5 arg6 harg6 arg7 harg7) K } := by
  refine ⟨[], ?_, fun xb xo E K => ?run⟩
  case run =>
    simp only [cc2__proj_fused_kernel_eq_skeleton]; unfold cc2__proj_fused_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 2000000 in
/-- Head 15: the product is added to the scratch as head 14 left it, and the sum plus the bias row is stored into the
    output tile, which the body finds at anything. -/
noncomputable def runLast (c : Dev nD) (i : grid2.Coords) (arg3 : Memref sig .tc .vmem S1x1x1024x64 .bf16) (harg3 : arg3.IsWhole) (arg4 : Memref sig .tc .vmem S1x1024x64 .bf16) (harg4 : arg4.IsWhole) (arg5 : Memref sig .tc .vmem S1x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬isFirst i) (hc1 : isLast i)
    (xa : Vec F S1x1x1024x64 .bf16) (xw : Vec F S1x1024x64 .bf16) (xb : Vec F S1x1024 .f32) (xs : Vec F S1024x1024 .f32) :
    Σ' (LO : List (View.Piece (Elt F) S1x1024x1024 .f32)), { LS : List (View.Piece (Elt F) S1024x1024 .f32) //
      ∀ (E : Set ℕ) (K : PUnit → sProp 𝕄),
        iprop(owns (c : Thread nD τ) arg3 fullShare xa ∗ owns (c : Thread nD τ) arg4 fullShare xw ∗ owns (c : Thread nD τ) arg5 fullShare xb
            ∗ (∃ d, owns (c : Thread nD τ) arg6 fullShare d) ∗ owns (c : Thread nD τ) arg7 fullShare xs
            ∗ (iprop(owns (c : Thread nD τ) arg3 fullShare xa ∗ owns (c : Thread nD τ) arg4 fullShare xw ∗ owns (c : Thread nD τ) arg5 fullShare xb
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc2__proj_fused_kernel i arg3 harg3 arg4 harg4 arg5 harg5 arg6 harg6 arg7 harg7) K } := by
  refine ⟨?_, ?_, fun E K => ?run⟩
  case run =>
    simp only [cc2__proj_fused_kernel_eq_skeleton]; unfold cc2__proj_fused_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.OutProj

end
-- ==== Proof.OutProjRegion.lean ====
import proofs.«146399_j69234872812274_2_alg».proof.Proof.OutProjRuns

/-!
# The output projection region: what the running sum holds point by point, and the body obligation

After the body at point t the scratch holds the sum of the products of the heads 0 … (t mod 16) of the point's batch
and row tile, by recursion on the point: reset at a head 0, otherwise what the point before left plus this head's
product. The output tile holds that sum plus the bias row after a head 15, and is not stated elsewhere (it is neither
stored into nor written back there). The region's invariant hands the scratch from one point to the next at exactly
these contents; before the very first point it is at anything.
-/

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The runs at a point -/

/-- The run of a head-0 point `t`, on the buffers the pipeline passes there and the point's tiles. -/
abbrev firstAt (c : Dev nD) (t : Fin cfg2.N) (h0 : t.val % 16 = 0) (h1 : ¬t.val % 16 = 15) :=
  runFirst (F := F) c (grid2.coords t) (ms_a t) (hs_a t) (ms_w t) (hs_w t) (ms_b t) (hs_b t) (ms_o t) (hs_o t) scM (Memref.isWhole_whole _)
    ((isFirst_iff t).mpr h0) (fun h => h1 ((isLast_iff t).mp h)) (tile V c 0 t) (tile V c 1 t)

/-- The run of a point `t` of heads 1 to 14, the scratch found at `xs`. -/
abbrev midAt (c : Dev nD) (t : Fin cfg2.N) (h0 : ¬t.val % 16 = 0) (h1 : ¬t.val % 16 = 15) (xs : Vec F S1024x1024 .f32) :=
  runMid (F := F) c (grid2.coords t) (ms_a t) (hs_a t) (ms_w t) (hs_w t) (ms_b t) (hs_b t) (ms_o t) (hs_o t) scM (Memref.isWhole_whole _)
    (fun h => h0 ((isFirst_iff t).mp h)) (fun h => h1 ((isLast_iff t).mp h)) (tile V c 0 t) (tile V c 1 t) xs

/-- The run of a head-15 point `t`, the scratch found at `xs`. -/
abbrev lastAt (c : Dev nD) (t : Fin cfg2.N) (h0 : ¬t.val % 16 = 0) (h1 : t.val % 16 = 15) (xs : Vec F S1024x1024 .f32) :=
  runLast (F := F) c (grid2.coords t) (ms_a t) (hs_a t) (ms_w t) (hs_w t) (ms_b t) (hs_b t) (ms_o t) (hs_o t) scM (Memref.isWhole_whole _)
    (fun h => h0 ((isFirst_iff t).mp h)) ((isLast_iff t).mpr h1) (tile V c 0 t) (tile V c 1 t) (tile V c 2 t) xs

/-- Each run's pieces for the scratch tile it, and the last run's pieces for the output tile it. -/
theorem scover_first (c : Dev nD) (t : Fin cfg2.N) (h0 : t.val % 16 = 0) (h1 : ¬t.val % 16 = 15) (y : S1024x1024.Idx) :
    ∃ pc ∈ (firstAt V c t h0 h1).2.1, y ∈ pc.1.set :=
  View.cover_of_tiledL (firstAt V c t h0 h1).2.1 S1024x1024.size (by sl_kernel_rfl) y
theorem scover_mid (c : Dev nD) (t : Fin cfg2.N) (h0 : ¬t.val % 16 = 0) (h1 : ¬t.val % 16 = 15) (xs : Vec F S1024x1024 .f32) (y : S1024x1024.Idx) :
    ∃ pc ∈ (midAt V c t h0 h1 xs).2.1, y ∈ pc.1.set :=
  View.cover_of_tiledL (midAt V c t h0 h1 xs).2.1 S1024x1024.size (by sl_kernel_rfl) y
theorem scover_last (c : Dev nD) (t : Fin cfg2.N) (h0 : ¬t.val % 16 = 0) (h1 : t.val % 16 = 15) (xs : Vec F S1024x1024 .f32) (y : S1024x1024.Idx) :
    ∃ pc ∈ (lastAt V c t h0 h1 xs).2.1, y ∈ pc.1.set :=
  View.cover_of_tiledL (lastAt V c t h0 h1 xs).2.1 S1024x1024.size (by sl_kernel_rfl) y
theorem ocover_last (c : Dev nD) (t : Fin cfg2.N) (h0 : ¬t.val % 16 = 0) (h1 : t.val % 16 = 15) (xs : Vec F S1024x1024 .f32) (y : S1x1024x1024.Idx) :
    ∃ pc ∈ (lastAt V c t h0 h1 xs).1, y ∈ pc.1.set :=
  View.cover_of_tiledL (lastAt V c t h0 h1 xs).1 S1x1024x1024.size (by sl_kernel_rfl) y

/-- What each run leaves in the scratch, and the last in the output tile: its pieces read back. -/
def scrFirst (c : Dev nD) (t : Fin cfg2.N) (h0 : t.val % 16 = 0) (h1 : ¬t.val % 16 = 15) : Vec F S1024x1024 .f32 :=
  VS.read (Elt F) (VS.writes (Elt F) VS.junk (firstAt V c t h0 h1).2.1)
def scrMid (c : Dev nD) (t : Fin cfg2.N) (h0 : ¬t.val % 16 = 0) (h1 : ¬t.val % 16 = 15) (xs : Vec F S1024x1024 .f32) : Vec F S1024x1024 .f32 :=
  VS.read (Elt F) (VS.writes (Elt F) VS.junk (midAt V c t h0 h1 xs).2.1)
def scrLast (c : Dev nD) (t : Fin cfg2.N) (h0 : ¬t.val % 16 = 0) (h1 : t.val % 16 = 15) (xs : Vec F S1024x1024 .f32) : Vec F S1024x1024 .f32 :=
  VS.read (Elt F) (VS.writes (Elt F) VS.junk (lastAt V c t h0 h1 xs).2.1)
def outLast (c : Dev nD) (t : Fin cfg2.N) (h0 : ¬t.val % 16 = 0) (h1 : t.val % 16 = 15) (xs : Vec F S1024x1024 .f32) : Vec F S1x1024x1024 .f32 :=
  VO.read (Elt F) (VO.writes (Elt F) VO.junk (lastAt V c t h0 h1 xs).1)
/-- A stand-in for the output tile where nothing states it (nothing reads it there). -/
def outIdle : Vec F S1x1024x1024 .f32 := VO.read (Elt F) VO.junk

/-! ## The running sum, point by point -/

/-- What the output tile and the scratch hold after the body at position `n`. -/
def accAt (c : Dev nD) : (n : ℕ) → n < cfg2.N → Vec F S1x1024x1024 .f32 × Vec F S1024x1024 .f32
  | 0, hn => (outIdle, scrFirst V c ⟨0, hn⟩ (Nat.zero_mod _) (fun h => absurd (show (0 : ℕ) % 16 = 15 from h) (by decide)))
  | n + 1, hn =>
    if h0 : (n + 1) % 16 = 0 then
      if h1 : (n + 1) % 16 = 15 then False.elim (by omega)
      else (outIdle, scrFirst V c ⟨n + 1, hn⟩ h0 h1)
    else
      if h1 : (n + 1) % 16 = 15 then
        (outLast V c ⟨n + 1, hn⟩ h0 h1 (accAt c n (Nat.lt_of_succ_lt hn)).2, scrLast V c ⟨n + 1, hn⟩ h0 h1 (accAt c n (Nat.lt_of_succ_lt hn)).2)
      else
        (outIdle, scrMid V c ⟨n + 1, hn⟩ h0 h1 (accAt c n (Nat.lt_of_succ_lt hn)).2)

theorem accAt_first (c : Dev nD) (t : Fin cfg2.N) (h0 : t.val % 16 = 0) (h1 : ¬t.val % 16 = 15) :
    accAt V c t.val t.isLt = (outIdle, scrFirst V c t h0 h1) := by
  obtain ⟨n, hn⟩ := t
  cases n with
  | zero => exact rfl
  | succ n => exact (dif_pos h0).trans ((dif_neg h1).trans rfl)

theorem accAt_mid (c : Dev nD) (t : Fin cfg2.N) (h0 : ¬t.val % 16 = 0) (h1 : ¬t.val % 16 = 15) :
    accAt V c t.val t.isLt = (outIdle, scrMid V c t h0 h1 (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg2.N) (h0 : ¬t.val % 16 = 0) (h1 : t.val % 16 = 15) :
    accAt V c t.val t.isLt = (outLast V c t h0 h1 (accAt V c (t.val - 1) (Nat.lt_of_le_of_lt (Nat.sub_le _ _) t.isLt)).2,
      scrLast V c t h0 h1 (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- The core's scoped buffers other than this pipeline's staging buffers and the scratch, each at something. -/
def restScoped (c : Dev nD) : sProp 𝕄 :=
  bigSep ((((Finset.univ.filter fun b : Ref sig .tc => b.isScoped) \ Finset.univ.image (Pipeline.stageRef spec2))).erase cc2_scratch0)
    fun b => iprop(∃ f : Buf (Elt F) ((c : Thread nD τ).loc b), ((c : Thread nD τ).loc b) ↦{fullShare} f)

/-- The class's invariant with the scratch split off. -/
theorem PhiA_eq (c : Dev nD) :
    (Pipeline.ΦA spec2 c : sProp 𝕄)
      = iprop(iprop((∃ d, owns (c : Thread nD τ) scM fullShare d) ∗ restScoped c) ∗ (∃ r, prngReg c r)) := by
  unfold Pipeline.ΦA Pipeline.scopedRest restScoped
  rw [BI.bigSep_erase (i := cc2_scratch0) (by decide)]
  simp only [scM, owns_whole]
  rfl

/-- Before position `n`: before the first point the class's invariant; afterwards the scratch at what the point before
    left, the other scoped buffers at something, the generator register at some state. -/
def PhiS (c : Dev nD) : (n : ℕ) → n ≤ cfg2.N → sProp 𝕄
  | 0, _ => Pipeline.ΦA spec2 c
  | n + 1, hn => iprop(iprop(owns (c : Thread nD τ) scM fullShare ((accAt V c n hn).2) ∗ restScoped c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare ((accAt V c n hn).2) ∗ restScoped c) ∗ (∃ r, prngReg c r)) := rfl

theorem PhiS_pos (c : Dev nD) (n : ℕ) (h : n ≤ cfg2.N) (hz : n ≠ 0) :
    PhiS V c n h = iprop(iprop(owns (c : Thread nD τ) scM fullShare ((accAt V c (n - 1) (by omega)).2) ∗ restScoped c) ∗ (∃ r, prngReg c r)) := by
  cases n with
  | zero => exact absurd rfl hz
  | succ n => rfl

/-! ## The proof data -/

def dat (c : Dev nD) : Dat τ (Elt F) Unit ℕ (UR sig nD τ) ℕ cfg2 c where
  A w := V c (Pipeline.arrRef spec2 w)
  after w t := match w with
    | ⟨0, _⟩ => tile V c 0 t
    | ⟨1, _⟩ => tile V c 1 t
    | ⟨2, _⟩ => tile V c 2 t
    | ⟨3, _⟩ => (accAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_a (c : Dev nD) (t : Fin cfg2.N) : (dat V c).after 0 t = tile V c 0 t := by dsimp only [dat]
theorem after_w (c : Dev nD) (t : Fin cfg2.N) : (dat V c).after 1 t = tile V c 1 t := by dsimp only [dat]
theorem after_b (c : Dev nD) (t : Fin cfg2.N) : (dat V c).after 2 t = tile V c 2 t := by dsimp only [dat]
theorem after_o (c : Dev nD) (t : Fin cfg2.N) : (dat V c).after 3 t = (accAt V c t.val t.isLt).1 := by dsimp only [dat]

theorem before_a (c : Dev nD) (t : Fin cfg2.N) (d) : (dat V c).before 0 t d = tile V c 0 t :=
  before_a_of V (dat V c) (A_eq V c 0) (after_a V c) t d
theorem before_w (c : Dev nD) (t : Fin cfg2.N) (d) : (dat V c).before 1 t d = tile V c 1 t :=
  before_w_of V (dat V c) (A_eq V c 1) (after_w V c) t d
theorem before_b (c : Dev nD) (t : Fin cfg2.N) (d) : (dat V c).before 2 t d = tile V c 2 t :=
  before_b_of V (dat V c) (A_eq V c 2) (after_b V c) t d

/-! ## The body obligation at a generic point -/

def bodyPre (c : Dev nD) (t : Fin cfg2.N) : sProp 𝕄 :=
  iprop((dat V c).Φ t.castSucc ∗ (dat V c).owesAt () t.castSucc
    ∗ (∃ d, owns (c : Thread nD τ) (ms_a t) fullShare ((dat V c).before 0 t d))
    ∗ (∃ d, owns (c : Thread nD τ) (ms_w t) fullShare ((dat V c).before 1 t d))
    ∗ (∃ d, owns (c : Thread nD τ) (ms_b t) fullShare ((dat V c).before 2 t d))
    ∗ (∃ d, owns (c : Thread nD τ) (ms_o t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' buffers hold their tiles; the head decides which run applies; the invariant hands
    the body the scratch at what the point before left (at anything before the first point and at a head 0) and takes it
    back at this point's contents; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_a, before_w, before_b]
  rw [show (dat V c).owesAt () t.succ = (dat V c).owesAt () t.castSucc from rfl]
  rw [show (dat V c).Φ t.succ = PhiS V c (t.val + 1) t.isLt from rfl, PhiS_succ]
  by_cases h0 : t.val % 16 = 0
  · by_cases h1 : t.val % 16 = 15
    · exfalso; omega
    ·
      rw [show (dat V c).leavesExact 0 t = owns (c : Thread nD τ) (ms_a t) fullShare ((dat V c).after 0 t) from by
        unfold Dat.leavesExact; rw [live_a t], after_a]
      rw [show (dat V c).leavesExact 1 t = owns (c : Thread nD τ) (ms_w t) fullShare ((dat V c).after 1 t) from by
        unfold Dat.leavesExact; rw [live_w t], after_w]
      rw [show (dat V c).leavesExact 2 t = owns (c : Thread nD τ) (ms_b t) fullShare ((dat V c).after 2 t) from by
        unfold Dat.leavesExact; rw [live_b t], after_b]
      rw [Dat.leavesExact_idle (dat V c) 3 t (idle_o t (fun h => h1 ((isLast_iff t).mp h))) (noFlush_o t (fun h => h1 ((isLast_iff t).mp h)))]
      rw [accAt_first V c t h0 h1]
      unfold scrFirst; (try dsimp only)
      by_cases hz : t.val = 0
      · rw [PhiS_castSucc V c t, PhiS_zero V c _ _ hz, PhiA_eq]
        iintro ⟨⟨⟨HS, Hrest⟩, Hg⟩, Ho, ⟨%d0, H0⟩, ⟨%d1, H1⟩, ⟨%d2, H2⟩, ⟨%d3, H3⟩⟩
        iapply ((firstAt V c t h0 h1).2.2 _ _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hrest Hg]
        · isplitl [HS Hrest]
          · isplitl [HS]
            · unfold owns; iexists _; isplitr
              swap; · iexact HS
              ipureintro; exact View.read_writes_of_cover _ _ _ _ _ (scover_first V c t h0 h1)
            iexact Hrest
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS, Hrest⟩, Hg⟩, Ho, ⟨%d0, H0⟩, ⟨%d1, H1⟩, ⟨%d2, H2⟩, ⟨%d3, H3⟩⟩
        iapply ((firstAt V c t h0 h1).2.2 _ _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hrest Hg]
        · isplitl [HS Hrest]
          · isplitl [HS]
            · unfold owns; iexists _; isplitr
              swap; · iexact HS
              ipureintro; exact View.read_writes_of_cover _ _ _ _ _ (scover_first V c t h0 h1)
            iexact Hrest
          iexact Hg
        isplitl [Ho]; · iexact Ho
        isplitl [H0]; · iexact H0
        isplitl [H1]; · iexact H1
        isplitl [H2]; · iexact H2
        iexists _; iexact H3
  · by_cases h1 : t.val % 16 = 15
    ·
      rw [show (dat V c).leavesExact 0 t = owns (c : Thread nD τ) (ms_a t) fullShare ((dat V c).after 0 t) from by
        unfold Dat.leavesExact; rw [live_a t], after_a]
      rw [show (dat V c).leavesExact 1 t = owns (c : Thread nD τ) (ms_w t) fullShare ((dat V c).after 1 t) from by
        unfold Dat.leavesExact; rw [live_w t], after_w]
      rw [show (dat V c).leavesExact 2 t = owns (c : Thread nD τ) (ms_b t) fullShare ((dat V c).after 2 t) from by
        unfold Dat.leavesExact; rw [live_b t], after_b]
      rw [show (dat V c).leavesExact 3 t = owns (c : Thread nD τ) (ms_o t) fullShare ((dat V c).after 3 t) from by
        unfold Dat.leavesExact; rw [live_o t ((isLast_iff t).mpr h1)], after_o]
      rw [accAt_last V c t h0 h1]
      unfold outLast scrLast; (try dsimp only)
      have hz : t.val ≠ 0 := fun hz => h0 (by rw [hz])
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩⟩
      iapply ((lastAt V c t h0 h1 _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover_last V c t h0 h1 _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover_last V c t h0 h1 _)
    ·
      rw [show (dat V c).leavesExact 0 t = owns (c : Thread nD τ) (ms_a t) fullShare ((dat V c).after 0 t) from by
        unfold Dat.leavesExact; rw [live_a t], after_a]
      rw [show (dat V c).leavesExact 1 t = owns (c : Thread nD τ) (ms_w t) fullShare ((dat V c).after 1 t) from by
        unfold Dat.leavesExact; rw [live_w t], after_w]
      rw [show (dat V c).leavesExact 2 t = owns (c : Thread nD τ) (ms_b t) fullShare ((dat V c).after 2 t) from by
        unfold Dat.leavesExact; rw [live_b t], after_b]
      rw [Dat.leavesExact_idle (dat V c) 3 t (idle_o t (fun h => h1 ((isLast_iff t).mp h))) (noFlush_o t (fun h => h1 ((isLast_iff t).mp h)))]
      rw [accAt_mid V c t h0 h1]
      unfold scrMid; (try dsimp only)
      have hz : t.val ≠ 0 := fun hz => h0 (by rw [hz])
      rw [PhiS_castSucc V c t, PhiS_pos V c _ _ hz]
      iintro ⟨⟨⟨HS, Hrest⟩, Hg⟩, Ho, ⟨%d0, H0⟩, ⟨%d1, H1⟩, ⟨%d2, H2⟩, ⟨%d3, H3⟩⟩
      iapply ((midAt V c t h0 h1 _).2.2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover_mid V c t h0 h1 _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.OutProj

end
-- ==== Proof.KernelRun.lean ====
import proofs.«146399_j69234872812274_2_alg».proof.Proof.QkvArrays
import proofs.«146399_j69234872812274_2_alg».proof.Proof.AttnRegion
import proofs.«146399_j69234872812274_2_alg».proof.Proof.OutProjRegion
import proofs.«146399_j69234872812274_2_alg».proof.Proof.Gen.KernelIdeal.Regions
import Idealize.ShloMosaic.Lib.Pipeline.Regions

/-!
# The whole program's run

The program is: host operations (casts and reshapes of the arguments), the projection onto queries, keys and values, three
reshapes, the attention, a reshape, the output projection. Between two items every unscoped buffer of a core holds
definite contents: the launch memory, then each host stretch applied, then each region's output arrays replaced by what
its write-backs leave. The run ends with every unscoped buffer read off the last of these.
-/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- At launch. -/
abbrev W0 : Dev nD → Valuation τ sig (Elt F) := fun c b => m (c, b)
/-- After the first host stretch: the projection region's entry. -/
abbrev W1 : Dev nD → Valuation τ sig (Elt F) := fun c => StableHlo.after hostOps0 (W0 m c)
abbrev B1 : (c : Dev nD) → (b : Ref sig .tc) → Buf (Elt F) ((c : Thread nD τ).loc b) := fun c b => W1 m c b
/-- After the projection region: its three outputs at what its write-backs leave. -/
def W2 (c : Dev nD) : Valuation τ sig (Elt F) :=
  Function.update (Function.update (Function.update (W1 m c) main_v7_0 ((Qkv.dat (B1 m) c).arrAt 4 cfg0.N))
    main_v7_1 ((Qkv.dat (B1 m) c).arrAt 5 cfg0.N)) main_v7_2 ((Qkv.dat (B1 m) c).arrAt 6 cfg0.N)
abbrev B2 : (c : Dev nD) → (b : Ref sig .tc) → Buf (Elt F) ((c : Thread nD τ).loc b) := fun c b => W2 m c b
/-- After the three reshapes: the attention region's entry. -/
abbrev W3 : Dev nD → Valuation τ sig (Elt F) := fun c => StableHlo.after hostOps1 (W2 m c)
abbrev B3 : (c : Dev nD) → (b : Ref sig .tc) → Buf (Elt F) ((c : Thread nD τ).loc b) := fun c b => W3 m c b
/-- After the attention region. -/
def W4 (c : Dev nD) : Valuation τ sig (Elt F) :=
  Pipeline.withArrays spec1 c (W3 m c) fun w => (Attn.dat (B3 m) c).arrAt w cfg1.N
abbrev B4 : (c : Dev nD) → (b : Ref sig .tc) → Buf (Elt F) ((c : Thread nD τ).loc b) := fun c b => W4 m c b
/-- After the reshape: the output projection's entry. -/
abbrev W5 : Dev nD → Valuation τ sig (Elt F) := fun c => StableHlo.after hostOps2 (W4 m c)
abbrev B5 : (c : Dev nD) → (b : Ref sig .tc) → Buf (Elt F) ((c : Thread nD τ).loc b) := fun c b => W5 m c b
/-- After the output projection: the end. -/
def W6 (c : Dev nD) : Valuation τ sig (Elt F) :=
  Pipeline.withArrays spec2 c (W5 m c) fun w => (OutProj.dat (B5 m) c).arrAt w cfg2.N
abbrev B6 : (c : Dev nD) → (b : Ref sig .tc) → Buf (Elt F) ((c : Thread nD τ).loc b) := fun c b => W6 m c b

/-! ### What each region leaves of them -/

theorem W2_q (c : Dev nD) : W2 m c main_v7_0 = (Qkv.dat (B1 m) c).arrAt 4 cfg0.N := by
  unfold W2
  rw [Function.update_of_ne (StableHlo.devRef_ne_of_ne (by decide) : (Proc.devRef .tc main_v7_0 : DevRef τ sig) ≠ Proc.devRef .tc main_v7_2),
    Function.update_of_ne (StableHlo.devRef_ne_of_ne (by decide) : (Proc.devRef .tc main_v7_0 : DevRef τ sig) ≠ Proc.devRef .tc main_v7_1),
    Function.update_self]
theorem W2_k (c : Dev nD) : W2 m c main_v7_1 = (Qkv.dat (B1 m) c).arrAt 5 cfg0.N := by
  unfold W2
  rw [Function.update_of_ne (StableHlo.devRef_ne_of_ne (by decide) : (Proc.devRef .tc main_v7_1 : DevRef τ sig) ≠ Proc.devRef .tc main_v7_2),
    Function.update_self]
theorem W2_v (c : Dev nD) : W2 m c main_v7_2 = (Qkv.dat (B1 m) c).arrAt 6 cfg0.N := by
  unfold W2; rw [Function.update_self]
theorem W2_of_ne (c : Dev nD) (b : Ref sig .tc) (h0 : b ≠ main_v7_0) (h1 : b ≠ main_v7_1) (h2 : b ≠ main_v7_2) :
    W2 m c b = W1 m c b := by
  unfold W2
  rw [Function.update_of_ne (StableHlo.devRef_ne_of_ne h2), Function.update_of_ne (StableHlo.devRef_ne_of_ne h1),
    Function.update_of_ne (StableHlo.devRef_ne_of_ne h0)]

theorem W4_arr (c : Dev nD) (w : Fin cfg1.W) :
    W4 m c (Proc.devRef .tc (Pipeline.arrRef spec1 w)) = (Attn.dat (B3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (Attn.dat (B3 m) c).arrAt w cfg1.N = B4 m c (Pipeline.arrRef spec1 w) :=
  (W4_arr m c w).symm
theorem hrest1 (c : Dev nD) : ∀ b, b ∉ Finset.univ.image (Pipeline.arrRef spec1) → B4 m c b = B3 m c b :=
  fun b hb => W4_of_ne m c b fun w e => hb (Finset.mem_image.mpr ⟨w, Finset.mem_univ _, e⟩)

theorem W6_arr (c : Dev nD) (w : Fin cfg2.W) :
    W6 m c (Proc.devRef .tc (Pipeline.arrRef spec2 w)) = (OutProj.dat (B5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (OutProj.dat (B5 m) c).arrAt w cfg2.N = B6 m c (Pipeline.arrRef spec2 w) :=
  (W6_arr m c w).symm
theorem hrest2 (c : Dev nD) : ∀ b, b ∉ Finset.univ.image (Pipeline.arrRef spec2) → B6 m c b = B5 m c b :=
  fun b hb => W6_of_ne m c b fun w e => hb (Finset.mem_image.mpr ⟨w, Finset.mem_univ _, e⟩)

/-! ### The host stretches write their own results only -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- An argument reaches the end as launched: no host stretch writes it and no region's output array is it. -/
theorem W6_arg (c : Dev nD) (r : Ref sig .tc) (h0 : r ∉ hostOps0_W) (h1 : r ∉ hostOps1_W) (h2 : r ∉ hostOps2_W)
    (hq : r ≠ main_v7_0) (hk : r ≠ main_v7_1) (hv : r ≠ main_v7_2)
    (ha : ∀ w, Pipeline.arrRef spec1 w ≠ r) (hp : ∀ w, Pipeline.arrRef spec2 w ≠ r) :
    W6 m c r = m ((c : Thread nD τ).loc r) :=
  (W6_of_ne m c r hp).trans <| (W5_of m c r h2).trans <| (W4_of_ne m c r ha).trans <| (W3_of m c r h1).trans <|
    (W2_of_ne m c r hq hk hv).trans <| (W1_of m c r h0).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Qkv.dat (B1 m) c
  | ⟨1, _⟩ => fun c => Attn.dat (B3 m) c
  | ⟨2, _⟩ => fun c => OutProj.dat (B5 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The projection region: entered from every unscoped buffer at `W1`, left at `W2`. Its five buffers are split out of
    the unscoped buffers and dealt to its seven windows, and joined and put back at the exit contents. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Qkv.body_obligation (B1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit : (unscopedBufs c (fun b => W1 m c b) : sProp 𝕄)
        ⊢ iprop((pdats m 0 c).arrays ((pdats m 0 c).arrAt · 0) ∗ Pipeline.unscopedRest spec0 c (B1 m c)) := by
      show _ ⊢ iprop((Qkv.dat (B1 m) c).arrays ((Qkv.dat (B1 m) c).arrAt · 0) ∗ Pipeline.unscopedRest spec0 c (B1 m c))
      rw [Pipeline.unscopedBufs_split₀ cfgs 0 winFacts₀0.arr_unscoped c (B1 m c)]
      exact sep_mono (Qkv.arrays_of_bufs (B1 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hrest : (Pipeline.unscopedRest (Ix := Unit) (Name := ℕ) (U := UR sig nD τ) (Lvl := ℕ) spec0 c (B1 m c) : sProp 𝕄)
        = Pipeline.unscopedRest spec0 c (B2 m c) := by
      unfold Pipeline.unscopedRest
      exact bigSep_congr fun b hb => by
        have hn := (Finset.mem_sdiff.mp hb).2
        rw [show B2 m c b = B1 m c b from W2_of_ne m c b
          (fun e => hn (e ▸ Finset.mem_image.mpr ⟨4, Finset.mem_univ _, rfl⟩))
          (fun e => hn (e ▸ Finset.mem_image.mpr ⟨5, Finset.mem_univ _, rfl⟩))
          (fun e => hn (e ▸ Finset.mem_image.mpr ⟨6, Finset.mem_univ _, rfl⟩))]
    have hjoin : iprop((pdats m 0 c).arrays ((pdats m 0 c).arrAt · cfg0.N) ∗ Pipeline.unscopedRest spec0 c (B1 m c))
        ⊢ (unscopedBufs c (fun b => W2 m c b) : sProp 𝕄) := by
      show iprop((Qkv.dat (B1 m) c).arrays ((Qkv.dat (B1 m) c).arrAt · cfg0.N) ∗ Pipeline.unscopedRest spec0 c (B1 m c)) ⊢ _
      rw [Pipeline.unscopedBufs_split₀ cfgs 0 winFacts₀0.arr_unscoped c (B2 m c), hrest]
      exact sep_mono (Qkv.bufs_of_arrays (B1 m) c (B2 m c)
        (W2_of_ne m c main_v0 (by decide) (by decide) (by decide)) (W2_of_ne m c main_v2 (by decide) (by decide) (by decide))
        (W2_q m c) (W2_k m c) (W2_v m c)) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the invariant
    and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (B3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (B3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B3 m c) (B4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the invariant
    and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (OutProj.body_obligation (B5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (B5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h1 : (pdats m 2 c).Φ (Fin.last _) ⊢ (Pipeline.ΦA spec2 c : sProp 𝕄) := by
      rw [show (pdats m 2 c).Φ (Fin.last _) = OutProj.PhiS (B5 m) c cfg2.N (Nat.le_refl _) from rfl,
        OutProj.PhiS_pos (B5 m) c _ _ (by decide), OutProj.PhiA_eq]
      iintro ⟨⟨HS, Hr⟩, Hg⟩
      isplitl [HS Hr]
      · isplitl [HS]; · iexists _; iexact HS
        iexact Hr
      iexact Hg
    refine h1.trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B5 m c) (B6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev items : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (items m) := (main_chain c).trans (by chain_rfl)

set_option backward.isDefEq.respectTransparency.types false in
/-- From any memory with zero counters every weakly fair execution of the program terminates, nothing faulting, and
    every final memory holds each unscoped buffer of each core at the last contents `W6`. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Run

end
-- ==== Proof.Spec.lean ====
import Idealize.ShloMosaic.PureOps.Ideal
import Idealize.ShloMosaic.Lib.ValueIdx

/-!
# Multi-head attention over the extended reals: the two arrangements

Four batches, 2048 positions, 1024 features, sixteen heads of width 64. From the activations `x`, the stacked
projection weights `w` (3072 rows: for role r ∈ {query, key, value}, head h and lane d the row 1024·r + 64·h + d),
the output weights `wp` and the bias `bp`:

* `proj r b h n d = ∑ c, x b n c · w (row r h d) c`;
* `score b h n m = (∑ d, query n d · key m d) · 1/8`, `rowMax` its largest value over m, `weight = exp (score − rowMax)`,
  `total` the sum of the weights over m;
* a head's output at (n, d) is the values averaged with the normalised weights.

The two programs arrange the last step differently. One divides every weight by the total and then sums against
the values (`headRef`), and contracts all 1024 features of the heads' outputs against `wp` at once (`outRef`). The other
sums the raw weights against the values and divides the sum by the total (`headKer`), and adds the sixteen heads'
contributions to the output one head after the other from zero (`accKer`, `outKer`). On real inputs the two agree.
-/

noncomputable section

namespace Cert.Attention

open Idealize.ShloMosaic

/-- The row of the stacked projection weights for role `r`, head `h`, lane `d`. -/
def row (r : Fin 3) (h : Fin 16) (d : Fin 64) : Fin 3072 := ⟨1024 * r.val + 64 * h.val + d.val, by omega⟩

/-- The feature of the concatenated heads for head `h`, lane `d`. -/
def col (h : Fin 16) (d : Fin 64) : Fin 1024 := ⟨64 * h.val + d.val, by omega⟩

/-- The word 0x3E000000 of an f32: one eighth, the scale 64^(-1/2). -/
abbrev eighth : EReal := Ideal.ofBits .f32 0x3E000000#32

variable (x : Fin 4 → Fin 2048 → Fin 1024 → EReal) (w : Fin 3072 → Fin 1024 → EReal)
  (wp : Fin 1024 → Fin 1024 → EReal) (bp : Fin 1024 → EReal)

/-- Queries (r = 0), keys (r = 1), values (r = 2) per batch, head, position and lane. -/
def proj (r : Fin 3) (b : Fin 4) (h : Fin 16) (n : Fin 2048) (d : Fin 64) : EReal :=
  ∑ c : Fin 1024, x b n c * w (row r h d) c

/-- The scaled score of query position `n` against key position `m`. -/
def score (b : Fin 4) (h : Fin 16) (n m : Fin 2048) : EReal :=
  (∑ d : Fin 64, proj x w 0 b h n d * proj x w 1 b h m d) * eighth

/-- The largest score of a query position (the supremum over the key positions; `⊥` is its unit). -/
def rowMax (b : Fin 4) (h : Fin 16) (n : Fin 2048) : EReal :=
  Finset.univ.sup fun m : Fin 2048 => score x w b h n m

/-- The unnormalised softmax weight. -/
def weight (b : Fin 4) (h : Fin 16) (n m : Fin 2048) : EReal :=
  Ideal.exp (score x w b h n m - rowMax x w b h n)

/-- The sum of a query position's weights. -/
def total (b : Fin 4) (h : Fin 16) (n : Fin 2048) : EReal :=
  ∑ m : Fin 2048, weight x w b h n m

/-- A head's output, each weight divided by the total before the sum against the values. -/
def headRef (b : Fin 4) (h : Fin 16) (n : Fin 2048) (d : Fin 64) : EReal :=
  ∑ m : Fin 2048, Ideal.div (weight x w b h n m) (total x w b h n) * proj x w 2 b h m d

/-- A head's output, the sum of the raw weights against the values divided by the total. -/
def headKer (b : Fin 4) (h : Fin 16) (n : Fin 2048) (d : Fin 64) : EReal :=
  Ideal.div (∑ m : Fin 2048, weight x w b h n m * proj x w 2 b h m d) (total x w b h n)

/-- The result with all 1024 features of the heads' outputs contracted at once, plus the bias. -/
def outRef (b : Fin 4) (n : Fin 2048) (o : Fin 1024) : EReal :=
  (∑ c : Fin 1024, headRef x w b ⟨c.val / 64, by omega⟩ n ⟨c.val % 64, by omega⟩ * wp o c) + bp o

/-- One head's contribution to output feature `o`. -/
def headTerm (b : Fin 4) (n : Fin 2048) (o : Fin 1024) (h : Fin 16) : EReal :=
  ∑ d : Fin 64, headKer x w b h n d * wp o (col h d)

/-- The running sum of the first `k` heads' contributions, from zero, one head after the other. -/
def accKer (b : Fin 4) (n : Fin 2048) (o : Fin 1024) : ℕ → EReal
  | 0 => 0
  | k + 1 => accKer b n o k + (if hk : k < 16 then headTerm x w wp b n o ⟨k, hk⟩ else 0)

/-- The result accumulated head by head, plus the bias. -/
def outKer (b : Fin 4) (n : Fin 2048) (o : Fin 1024) : EReal :=
  accKer x w wp b n o 16 + bp o

end Cert.Attention

end
-- ==== Proof.HostReads.lean ====
import proofs.«146399_j69234872812274_2_alg».proof.Proof.KernelRun
import proofs.«146399_j69234872812274_2_alg».proof.Proof.Spec
import Idealize.ShloMosaic.Lib.Pipeline.Value
import Idealize.ShloMosaic.Lib.ValueIdx
import Idealize.ShloMosaic.Lib.StableHlo.Run

/-!
# The host operations between the regions, read index by index at the extended reals

Before the first region the arguments are cast (the identity here) and re-laid: the stacked projection weights
[3072, 1024] as [3, 16, 64, 1024] (row 1024 r + 64 h + d ↦ (r, h, d)); the output weights [1024, 1024] as [1024, 16, 64] and
then with the head axis first, [16, 1024, 64] (entry (h, o, e) is the weight of output o at feature 64 h + e); the bias as a
row. Between the regions the arrays [4, 16, 2048, 64] and [64, 2048, 64] are one another re-laid (batch b and head h ↦ 16 b + h).
-/

set_option maxRecDepth 16384

noncomputable section

namespace Cert.KernelIdeal.Run

open Cert.KernelIdeal Cert.KernelIdeal.Gen
open Idealize.ShloMosaic Idealize.ShloMosaic.TcCoe Idealize.SL.Sem Idealize.ShloMosaic.StableHlo
open Idealize.ShloMosaic.ValueIdx
open Cert.Attention (row col)

variable (m : (ℓ : Loc nD τ sig) → Buf (Elt Ideal) ℓ)

/-- The four arguments as functions of plain coordinates. -/
def xs (c : Dev nD) : Fin 4 → Fin 2048 → Fin 1024 → EReal := fun b n f => (m ((c : Thread nD τ).loc main_arg0) : FVec Ideal S4x2048x1024 .f32) (ix3 b n f)
def ws (c : Dev nD) : Fin 3072 → Fin 1024 → EReal := fun r f => (m ((c : Thread nD τ).loc main_arg1) : FVec Ideal S3072x1024 .f32) (ix2 r f)
def wps (c : Dev nD) : Fin 1024 → Fin 1024 → EReal := fun o f => (m ((c : Thread nD τ).loc main_arg2) : FVec Ideal S1024x1024 .f32) (ix2 o f)
def bps (c : Dev nD) : Fin 1024 → EReal := fun o => (m ((c : Thread nD τ).loc main_arg3) : FVec Ideal S1024 .f32) (ix1 o)

/-! ## Before the first region -/

theorem B1_x (c : Dev nD) (b : Fin 4) (n : Fin 2048) (f : Fin 1024) :
    (B1 m c main_v0 : FVec Ideal S4x2048x1024 .bf16) (ix3 b n f) = xs m c b n f := by
  have e : (W1 m c main_v0 : FVec Ideal S4x2048x1024 .bf16)
      = (truncf .bf16 (m ((c : Thread nD τ).loc main_arg0) : FVec Ideal S4x2048x1024 .f32) bitsLt_bf16_f32 : FVec Ideal S4x2048x1024 .bf16) := by
    show StableHlo.after hostOps0 _ (Proc.devRef .tc main_v0) = _
    after_results <;> rfl
  show (W1 m c main_v0 : FVec Ideal S4x2048x1024 .bf16) (ix3 b n f) = _
  rw [e]; rfl

theorem B1_w (c : Dev nD) (r : Fin 3) (h : Fin 16) (d : Fin 64) (f : Fin 1024) :
    (B1 m c main_v2 : FVec Ideal S3x16x64x1024 .bf16) (ix4 r h d f) = ws m c (row r h d) f := by
  have e : (W1 m c main_v2 : FVec Ideal S3x16x64x1024 .bf16)
      = (shapeCast S3x16x64x1024 (truncf .bf16 (m ((c : Thread nD τ).loc main_arg1) : FVec Ideal S3072x1024 .f32) bitsLt_bf16_f32 : FVec Ideal S3072x1024 .bf16)
          shapeCasts_S3072x1024_S3x16x64x1024 : FVec Ideal S3x16x64x1024 .bf16) := by
    show StableHlo.after hostOps0 _ (Proc.devRef .tc main_v2) = _
    after_results <;> rfl
  show (W1 m c main_v2 : FVec Ideal S3x16x64x1024 .bf16) (ix4 r h d f) = _
  rw [e]
  refine (shapeCast_apply _ _ (ix4 r h d f) (ix2 (row r h d) f) ?_).trans rfl
  rw [Shape.rowMajor_val_two, Shape.rowMajor_val_four]
  show (1024 * r.val + 64 * h.val + d.val) * 1024 + f.val = ((r.val * 16 + h.val) * 64 + d.val) * 1024 + f.val
  omega

theorem B1_wp (c : Dev nD) (h : Fin 16) (o : Fin 1024) (e' : Fin 64) :
    (B1 m c main_v5 : FVec Ideal S16x1024x64 .bf16) (ix3 h o e') = wps m c o (col h e') := by
  have e : (W1 m c main_v5 : FVec Ideal S16x1024x64 .bf16)
      = (transpose S16x1024x64 [1, 0, 2]
          (shapeCast S1024x16x64 (truncf .bf16 (m ((c : Thread nD τ).loc main_arg2) : FVec Ideal S1024x1024 .f32) bitsLt_bf16_f32 : FVec Ideal S1024x1024 .bf16)
            shapeCasts_S1024x1024_S1024x16x64 : FVec Ideal S1024x16x64 .bf16)
          transposes_S1024x16x64_S16x1024x64_1_0_2 : FVec Ideal S16x1024x64 .bf16) := by
    show StableHlo.after hostOps0 _ (Proc.devRef .tc main_v5) = _
    after_results <;> rfl
  show (W1 m c main_v5 : FVec Ideal S16x1024x64 .bf16) (ix3 h o e') = _
  rw [e]
  refine (transpose_apply _ _ _ (ix3 h o e') (ix3 o h e') (fun a => by match a with | ⟨0, _⟩ => rfl | ⟨1, _⟩ => rfl | ⟨2, _⟩ => rfl)).trans ?_
  refine (shapeCast_apply _ _ (ix3 o h e') (ix2 o (col h e')) ?_).trans rfl
  rw [Shape.rowMajor_val_two, Shape.rowMajor_val_three]
  show o.val * 1024 + (64 * h.val + e'.val) = (o.val * 16 + h.val) * 64 + e'.val
  omega

theorem B1_bp (c : Dev nD) (o : Fin 1024) :
    (B1 m c main_v6 : FVec Ideal S1x1024 .f32) (ix2 (0 : Fin 1) o) = bps m c o := by
  have e : (W1 m c main_v6 : FVec Ideal S1x1024 .f32)
      = (shapeCast S1x1024 (m ((c : Thread nD τ).loc main_arg3) : FVec Ideal S1024 .f32) shapeCasts_S1024_S1x1024 : FVec Ideal S1x1024 .f32) := by
    show StableHlo.after hostOps0 _ (Proc.devRef .tc main_v6) = _
    after_results <;> rfl
  show (W1 m c main_v6 : FVec Ideal S1x1024 .f32) (ix2 (0 : Fin 1) o) = _
  rw [e]
  refine (shapeCast_apply _ _ (ix2 (0 : Fin 1) o) (ix1 o) ?_).trans rfl
  rw [Shape.rowMajor_val_one, Shape.rowMajor_val_two]
  show o.val = 0 * 1024 + o.val
  omega

/-! ## Between the regions -/

/-- Batch `b` and head `h` as one leading coordinate. -/
def bh (b : Fin 4) (h : Fin 16) : Fin 64 := ⟨16 * b.val + h.val, by omega⟩

theorem B3_q (c : Dev nD) (b : Fin 4) (h : Fin 16) (n : Fin 2048) (e' : Fin 64) :
    (B3 m c main_v8 : FVec Ideal S64x2048x64 .bf16) (ix3 (bh b h) n e') = (W2 m c main_v7_0 : FVec Ideal S4x16x2048x64 .bf16) (ix4 b h n e') := by
  have e : (W3 m c main_v8 : FVec Ideal S64x2048x64 .bf16)
      = (shapeCast S64x2048x64 (W2 m c main_v7_0 : FVec Ideal S4x16x2048x64 .bf16) shapeCasts_S4x16x2048x64_S64x2048x64 : FVec Ideal S64x2048x64 .bf16) := by
    show StableHlo.after hostOps1 _ (Proc.devRef .tc main_v8) = _
    after_results <;> rfl
  show (W3 m c main_v8 : FVec Ideal S64x2048x64 .bf16) (ix3 (bh b h) n e') = _
  rw [e]
  refine shapeCast_apply _ _ (ix3 (bh b h) n e') (ix4 b h n e') ?_
  rw [Shape.rowMajor_val_three, Shape.rowMajor_val_four]
  show ((b.val * 16 + h.val) * 2048 + n.val) * 64 + e'.val = ((16 * b.val + h.val) * 2048 + n.val) * 64 + e'.val
  omega

theorem B3_k (c : Dev nD) (b : Fin 4) (h : Fin 16) (n : Fin 2048) (e' : Fin 64) :
    (B3 m c main_v9 : FVec Ideal S64x2048x64 .bf16) (ix3 (bh b h) n e') = (W2 m c main_v7_1 : FVec Ideal S4x16x2048x64 .bf16) (ix4 b h n e') := by
  have e : (W3 m c main_v9 : FVec Ideal S64x2048x64 .bf16)
      = (shapeCast S64x2048x64 (W2 m c main_v7_1 : FVec Ideal S4x16x2048x64 .bf16) shapeCasts_S4x16x2048x64_S64x2048x64 : FVec Ideal S64x2048x64 .bf16) := by
    show StableHlo.after hostOps1 _ (Proc.devRef .tc main_v9) = _
    after_results <;> rfl
  show (W3 m c main_v9 : FVec Ideal S64x2048x64 .bf16) (ix3 (bh b h) n e') = _
  rw [e]
  refine shapeCast_apply _ _ (ix3 (bh b h) n e') (ix4 b h n e') ?_
  rw [Shape.rowMajor_val_three, Shape.rowMajor_val_four]
  show ((b.val * 16 + h.val) * 2048 + n.val) * 64 + e'.val = ((16 * b.val + h.val) * 2048 + n.val) * 64 + e'.val
  omega

theorem B3_v (c : Dev nD) (b : Fin 4) (h : Fin 16) (n : Fin 2048) (e' : Fin 64) :
    (B3 m c main_v10 : FVec Ideal S64x2048x64 .bf16) (ix3 (bh b h) n e') = (W2 m c main_v7_2 : FVec Ideal S4x16x2048x64 .bf16) (ix4 b h n e') := by
  have e : (W3 m c main_v10 : FVec Ideal S64x2048x64 .bf16)
      = (shapeCast S64x2048x64 (W2 m c main_v7_2 : FVec Ideal S4x16x2048x64 .bf16) shapeCasts_S4x16x2048x64_S64x2048x64 : FVec Ideal S64x2048x64 .bf16) := by
    show StableHlo.after hostOps1 _ (Proc.devRef .tc main_v10) = _
    after_results <;> rfl
  show (W3 m c main_v10 : FVec Ideal S64x2048x64 .bf16) (ix3 (bh b h) n e') = _
  rw [e]
  refine shapeCast_apply _ _ (ix3 (bh b h) n e') (ix4 b h n e') ?_
  rw [Shape.rowMajor_val_three, Shape.rowMajor_val_four]
  show ((b.val * 16 + h.val) * 2048 + n.val) * 64 + e'.val = ((16 * b.val + h.val) * 2048 + n.val) * 64 + e'.val
  omega

theorem B5_a (c : Dev nD) (b : Fin 4) (h : Fin 16) (n : Fin 2048) (e' : Fin 64) :
    (B5 m c main_v12 : FVec Ideal S4x16x2048x64 .bf16) (ix4 b h n e') = (W4 m c main_v11 : FVec Ideal S64x2048x64 .bf16) (ix3 (bh b h) n e') := by
  have e : (W5 m c main_v12 : FVec Ideal S4x16x2048x64 .bf16)
      = (shapeCast S4x16x2048x64 (W4 m c main_v11 : FVec Ideal S64x2048x64 .bf16) shapeCasts_S64x2048x64_S4x16x2048x64 : FVec Ideal S4x16x2048x64 .bf16) := by
    show StableHlo.after hostOps2 _ (Proc.devRef .tc main_v12) = _
    after_results <;> rfl
  show (W5 m c main_v12 : FVec Ideal S4x16x2048x64 .bf16) (ix4 b h n e') = _
  rw [e]
  refine shapeCast_apply _ _ (ix4 b h n e') (ix3 (bh b h) n e') ?_
  rw [Shape.rowMajor_val_three, Shape.rowMajor_val_four]
  show ((16 * b.val + h.val) * 2048 + n.val) * 64 + e'.val = ((b.val * 16 + h.val) * 2048 + n.val) * 64 + e'.val
  omega

/-! ## What the later regions find of the first stretch's results -/

theorem B3_x (c : Dev nD) : W3 m c main_v0 = W1 m c main_v0 :=
  (W3_of m c main_v0 (by decide)).trans (W2_of_ne m c main_v0 (by decide) (by decide) (by decide))

theorem B5_wp (c : Dev nD) : W5 m c main_v5 = W1 m c main_v5 :=
  (W5_of m c main_v5 (by decide)).trans <| (W4_of_ne m c main_v5 (by decide)).trans <| (W3_of m c main_v5 (by decide)).trans
    (W2_of_ne m c main_v5 (by decide) (by decide) (by decide))

theorem B5_bp (c : Dev nD) : W5 m c main_v6 = W1 m c main_v6 :=
  (W5_of m c main_v6 (by decide)).trans <| (W4_of_ne m c main_v6 (by decide)).trans <| (W3_of m c main_v6 (by decide)).trans
    (W2_of_ne m c main_v6 (by decide) (by decide) (by decide))

end Cert.KernelIdeal.Run

end
-- ==== Proof.QkvValue.lean ====
import proofs.«146399_j69234872812274_2_alg».proof.Proof.QkvRegion
import Idealize.ShloMosaic.Lib.Pipeline.Value
import Idealize.ShloMosaic.Lib.ValueIdx
import Idealize.ShloMosaic.PureOps.Ideal.Laws

/-!
# The projection onto queries, keys and values: what its three output arrays hold

At the extended reals a point's output tile is, entry by entry, the row of its activation tile against the row of its
weight tile over the 1024 features. A point's tiles are rectangles of the arrays the region is entered with, the output
tiles cover their arrays, and so each output array is the activations against the weights of its role, index by index.
-/

noncomputable section

namespace Cert.KernelIdeal.Qkv

open Cert.KernelIdeal Cert.KernelIdeal.Gen
open Idealize.ShloMosaic Idealize.ShloMosaic.TcCoe Idealize.ShloMosaic.ValueIdx
open Idealize.ShloMosaic.Pipeline (Dat)

/-! ## A point's output tile at an entry -/

local notation "D" => dot_S1024x1024_S64x1024_S1024x64_1_1_0_0_n_n

/-- The left operand's row is the output's row. -/
theorem lhs_row (i : S1024x64.Idx) (q : DotDims.contr D |>.Idx) : ((DotDims.lhsIdx D i q) 0).val = (i 0).val := by
  unfold DotDims.lhsIdx
  rw [dif_neg (show ¬(0 : Fin S1024x1024.rank) ∈ DotDims.lhsBatch D by decide),
    dif_pos (show (0 : Fin S1024x1024.rank) ∈ DotDims.lhsNonContracting D by decide)]
  rfl

/-- The right operand's row is the output's column. -/
theorem rhs_row (i : S1024x64.Idx) (q : DotDims.contr D |>.Idx) : ((DotDims.rhsIdx D i q) 0).val = (i 1).val := by
  unfold DotDims.rhsIdx
  rw [dif_neg (show ¬(0 : Fin S64x1024.rank) ∈ DotDims.rhsBatch D by decide),
    dif_pos (show (0 : Fin S64x1024.rank) ∈ DotDims.rhsNonContracting D by decide)]
  rfl

/-- The product contracting the last axis of both operands, into zero, at (p, j): row p against row j. -/
theorem rows_dot (l : FVec Ideal S1024x1024 .bf16) (r : FVec Ideal S64x1024 .bf16) (p : Fin 1024) (j : Fin 64) :
    matmul D none l r (constant (F := Ideal) S1024x64 .f32 0x00000000#32) (ix2 p j)
      = ∑ k : Fin 1024, l (ix2 p k) * r (ix2 j k) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : DotDims.lhsIdx D (ix2 p j) ((contrEquiv1 D 1024 rfl rfl).symm k) = ix2 p k := funext fun a => Fin.ext (by
    match a with
    | ⟨0, _⟩ => exact lhs_row _ _
    | ⟨1, _⟩ => exact (DotDims.lhsIdx_val_of_single D rfl _ _).trans hk)
  have er : DotDims.rhsIdx D (ix2 p j) ((contrEquiv1 D 1024 rfl rfl).symm k) = ix2 j k := funext fun a => Fin.ext (by
    match a with
    | ⟨0, _⟩ => exact rhs_row _ _
    | ⟨1, _⟩ => exact (DotDims.rhsIdx_val_of_single D rfl _ _).trans hk)
  rw [el, er]

/-- A point's output tile at (p, j): row p of its activation tile against row j of its weight tile. -/
theorem pay_apply (x : Vec Ideal S1x1024x1024 .bf16) (w : Vec Ideal S1x1x64x1024 .bf16) (p : Fin 1024) (j : Fin 64) :
    k0_pay2 (F := Ideal) x w (ix4 (0 : Fin 1) (0 : Fin 1) p j)
      = ∑ k : Fin 1024, x (ix3 (0 : Fin 1) p k) * w (ix4 (0 : Fin 1) (0 : Fin 1) j k) := by
  have hp := p.isLt; have hj := j.isLt
  unfold k0_pay2 k0_pay1
  dsimp only
  refine (shapeCast_apply _ shapeCasts_S1024x64_S1x1x1024x64 (ix4 (0 : Fin 1) (0 : Fin 1) p j) (ix2 p j) ?_).trans ?_
  · rewrite [Shape.rowMajor_val_two, Shape.rowMajor_val_four]
    show p.val * 64 + j.val = (((0 : Fin 1).val * 1 + (0 : Fin 1).val) * 1024 + p.val) * 64 + j.val
    simp
  refine (truncf_apply (ψ := .bf16) _ bitsLt_bf16_f32 (ix2 p j)).trans ?_
  refine (rows_dot _ _ p j).trans ?_
  refine Finset.sum_congr rfl fun k _ => ?_
  have hk := k.isLt
  have e1 : shapeCast S1024x1024 x shapeCasts_S1x1024x1024_S1024x1024 (ix2 p k) = x (ix3 (0 : Fin 1) p k) :=
    shapeCast_apply x shapeCasts_S1x1024x1024_S1024x1024 (ix2 p k) (ix3 (0 : Fin 1) p k) (by
      rewrite [Shape.rowMajor_val_three, Shape.rowMajor_val_two]
      show ((0 : Fin 1).val * 1024 + p.val) * 1024 + k.val = p.val * 1024 + k.val
      simp)
  have e2 : shapeCast S64x1024 w shapeCasts_S1x1x64x1024_S64x1024 (ix2 j k) = w (ix4 (0 : Fin 1) (0 : Fin 1) j k) :=
    shapeCast_apply w shapeCasts_S1x1x64x1024_S64x1024 (ix2 j k) (ix4 (0 : Fin 1) (0 : Fin 1) j k) (by
      rewrite [Shape.rowMajor_val_four, Shape.rowMajor_val_two]
      show (((0 : Fin 1).val * 1 + (0 : Fin 1).val) * 64 + j.val) * 1024 + k.val = j.val * 1024 + k.val
      simp)
  rw [e1, e2]

/-- The three output tiles are one expression of the activation tile and of their own weight tile. -/
theorem pay_k_eq (x : Vec Ideal S1x1024x1024 .bf16) (w : Vec Ideal S1x1x64x1024 .bf16) :
    k0_pay3 (F := Ideal) x w = k0_pay2 (F := Ideal) x w := rfl
theorem pay_v_eq (x : Vec Ideal S1x1024x1024 .bf16) (w : Vec Ideal S1x1x64x1024 .bf16) :
    k0_pay4 (F := Ideal) x w = k0_pay2 (F := Ideal) x w := rfl

/-! ## The output arrays' contents, and a point's tiles as rectangles of the arrays -/

variable (V : (c : Dev nD) → (b : Ref sig .tc) → Buf (Elt Ideal) ((c : Thread nD τ).loc b))

/-- Role r of the projection at (b, h, n, d): the activations' row (b, n) against the weights' row (r, h, d). -/
def rowsAgainst (X : S4x2048x1024.Idx → EReal) (W : S3x16x64x1024.Idx → EReal)
    (r : Fin 3) (b : Fin 4) (h : Fin 16) (n : Fin 2048) (d : Fin 64) : EReal :=
  ∑ f : Fin 1024, X (ix3 b n f) * W (ix4 r h d f)

/-- The same as an array over [4, 16, 2048, 64], of the arrays the region is entered with. -/
def roleArray (c : Dev nD) (r : Fin 3) : S4x16x2048x64.Idx → Elt Ideal .bf16 := fun i =>
  rowsAgainst (V c main_v0) (V c main_v2) r
    ⟨(i 0).val, (i 0).isLt⟩ ⟨(i 1).val, (i 1).isLt⟩ ⟨(i 2).val, (i 2).isLt⟩ ⟨(i 3).val, (i 3).isLt⟩

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the grid: the activation window follows the output's batch and row block, each
    weight window sits at its role and the output's head, and the three outputs move together. -/
theorem idx_facts : ∀ t : Fin cfg0.N,
    (win0_0.index t 0 = win0_4.index t 0 ∧ win0_0.index t 1 = win0_4.index t 2 ∧ win0_0.index t 2 = 0)
    ∧ (win0_1.index t 0 = 0 ∧ win0_1.index t 1 = win0_4.index t 1 ∧ win0_1.index t 2 = 0 ∧ win0_1.index t 3 = 0)
    ∧ (win0_2.index t 0 = 1 ∧ win0_2.index t 1 = win0_4.index t 1 ∧ win0_2.index t 2 = 0 ∧ win0_2.index t 3 = 0)
    ∧ (win0_3.index t 0 = 2 ∧ win0_3.index t 1 = win0_4.index t 1 ∧ win0_3.index t 2 = 0 ∧ win0_3.index t 3 = 0)
    ∧ (win0_4.index t 0 < 4 ∧ win0_4.index t 1 < 16 ∧ win0_4.index t 2 < 2 ∧ win0_4.index t 3 = 0)
    ∧ (∀ a : Fin 4, win0_5.index t a = win0_4.index t a) ∧ (∀ a : Fin 4, win0_6.index t a = win0_4.index t a) :=
  (by decide +kernel : ∀ t : Fin grid0.N, _)

/-- The activation tile at (0, p, k) is the array at the tile's batch and its row block's row p. -/
theorem tile_x_apply (c : Dev nD) (t : Fin cfg0.N) (p k : Fin 1024) (i : S4x2048x1024.Idx)
    (h0 : (i 0).val = win0_0.index t 0) (h1 : (i 1).val = win0_0.index t 1 * 1024 + p.val) (h2 : (i 2).val = k.val) :
    tile (F := Ideal) V c 0 t (ix3 (0 : Fin 1) p k) = V c main_v0 i := by
  have hf := (idx_facts t).1
  unfold tile
  rw [View.read_apply]
  show V c main_v0 _ = V c main_v0 i
  congr 1
  funext a; apply Fin.ext
  match a with
  | ⟨0, _⟩ => show win0_0.index t 0 * 1 + 1 * (0 : Fin 1).val = (i 0).val; rw [h0]; simp
  | ⟨1, _⟩ => show win0_0.index t 1 * 1024 + 1 * p.val = (i 1).val; rw [h1]; omega
  | ⟨2, _⟩ => show win0_0.index t 2 * 1024 + 1 * k.val = (i 2).val; rw [h2, hf.2.2]; omega

/-- The query-weight tile at (0, 0, j, k) is the weight array at role 0, the tile's head, row j. -/
theorem tile_wq_apply (c : Dev nD) (t : Fin cfg0.N) (j : Fin 64) (k : Fin 1024) (i : S3x16x64x1024.Idx)
    (h0 : (i 0).val = 0) (h1 : (i 1).val = win0_1.index t 1) (h2 : (i 2).val = j.val) (h3 : (i 3).val = k.val) :
    tile (F := Ideal) V c 1 t (ix4 (0 : Fin 1) (0 : Fin 1) j k) = V c main_v2 i := by
  have hf := (idx_facts t).2.1
  unfold tile
  rw [View.read_apply]
  show V c main_v2 _ = V c main_v2 i
  congr 1
  funext a; apply Fin.ext
  match a with
  | ⟨0, _⟩ => show win0_1.index t 0 * 1 + 1 * (0 : Fin 1).val = (i 0).val; rw [h0, hf.1]; simp
  | ⟨1, _⟩ => show win0_1.index t 1 * 1 + 1 * (0 : Fin 1).val = (i 1).val; rw [h1]; simp
  | ⟨2, _⟩ => show win0_1.index t 2 * 64 + 1 * j.val = (i 2).val; rw [h2, hf.2.2.1]; omega
  | ⟨3, _⟩ => show win0_1.index t 3 * 1024 + 1 * k.val = (i 3).val; rw [h3, hf.2.2.2]; omega

/-- The key-weight tile at (0, 0, j, k) is the weight array at role 1, the tile's head, row j. -/
theorem tile_wk_apply (c : Dev nD) (t : Fin cfg0.N) (j : Fin 64) (k : Fin 1024) (i : S3x16x64x1024.Idx)
    (h0 : (i 0).val = 1) (h1 : (i 1).val = win0_2.index t 1) (h2 : (i 2).val = j.val) (h3 : (i 3).val = k.val) :
    tile (F := Ideal) V c 2 t (ix4 (0 : Fin 1) (0 : Fin 1) j k) = V c main_v2 i := by
  have hf := (idx_facts t).2.2.1
  unfold tile
  rw [View.read_apply]
  show V c main_v2 _ = V c main_v2 i
  congr 1
  funext a; apply Fin.ext
  match a with
  | ⟨0, _⟩ => show win0_2.index t 0 * 1 + 1 * (0 : Fin 1).val = (i 0).val; rw [h0, hf.1]; simp
  | ⟨1, _⟩ => show win0_2.index t 1 * 1 + 1 * (0 : Fin 1).val = (i 1).val; rw [h1]; simp
  | ⟨2, _⟩ => show win0_2.index t 2 * 64 + 1 * j.val = (i 2).val; rw [h2, hf.2.2.1]; omega
  | ⟨3, _⟩ => show win0_2.index t 3 * 1024 + 1 * k.val = (i 3).val; rw [h3, hf.2.2.2]; omega

/-- The value-weight tile at (0, 0, j, k) is the weight array at role 2, the tile's head, row j. -/
theorem tile_wv_apply (c : Dev nD) (t : Fin cfg0.N) (j : Fin 64) (k : Fin 1024) (i : S3x16x64x1024.Idx)
    (h0 : (i 0).val = 2) (h1 : (i 1).val = win0_3.index t 1) (h2 : (i 2).val = j.val) (h3 : (i 3).val = k.val) :
    tile (F := Ideal) V c 3 t (ix4 (0 : Fin 1) (0 : Fin 1) j k) = V c main_v2 i := by
  have hf := (idx_facts t).2.2.2.1
  unfold tile
  rw [View.read_apply]
  show V c main_v2 _ = V c main_v2 i
  congr 1
  funext a; apply Fin.ext
  match a with
  | ⟨0, _⟩ => show win0_3.index t 0 * 1 + 1 * (0 : Fin 1).val = (i 0).val; rw [h0, hf.1]; simp
  | ⟨1, _⟩ => show win0_3.index t 1 * 1 + 1 * (0 : Fin 1).val = (i 1).val; rw [h1]; simp
  | ⟨2, _⟩ => show win0_3.index t 2 * 64 + 1 * j.val = (i 2).val; rw [h2, hf.2.2.1]; omega
  | ⟨3, _⟩ => show win0_3.index t 3 * 1024 + 1 * k.val = (i 3).val; rw [h3, hf.2.2.2]; omega

/-- What a point writes back to the query array is its block of the query role's array. -/
theorem flushed_q (c : Dev nD) (t : Fin cfg0.N) :
    (dat (F := Ideal) V c).flushed 4 t = ((cfg0.win 4).blk t).view.read (Elt Ideal) (roleArray V c 0) := by
  show (cfg0.win 4).cut (grid0.coords t) ((dat (F := Ideal) V c).after 4 t) = _
  rw [after_q]
  unfold outQ
  rw [View.canon_unit_zero hz4]
  simp only [View.ld_unit_zero (S := S1x1024x1024) hz3, View.ld_unit_zero (S := S1x1x64x1024) hz4]
  funext y
  obtain ⟨p, d, rfl⟩ : ∃ (p : Fin 1024) (d : Fin 64), y = ix4 (0 : Fin 1) (0 : Fin 1) p d :=
    ⟨⟨(y 2).val, (y 2).isLt⟩, ⟨(y 3).val, (y 3).isLt⟩, funext fun a => Fin.ext (by
      match a with
      | ⟨0, _⟩ => have h : (y 0).val < 1 := (y 0).isLt; show (y 0).val = 0; omega
      | ⟨1, _⟩ => have h : (y 1).val < 1 := (y 1).isLt; show (y 1).val = 0; omega
      | ⟨2, _⟩ => rfl
      | ⟨3, _⟩ => rfl)⟩
  show k0_pay2 (tile (F := Ideal) V c 0 t) (tile (F := Ideal) V c 1 t) (ix4 (0 : Fin 1) (0 : Fin 1) p d)
    = roleArray V c 0 (((cfg0.win 4).blk t).view.emb (ix4 (0 : Fin 1) (0 : Fin 1) p d))
  refine (pay_apply _ _ p d).trans ?_
  unfold roleArray rowsAgainst
  obtain ⟨f0, f1, f2, f3, f4, f5, f6⟩ := idx_facts t
  refine Finset.sum_congr rfl fun k _ => ?_
  congr 1
  · refine tile_x_apply V c t p k _ ?_ ?_ rfl
    · show win0_4.index t 0 * 1 + 1 * (0 : Fin 1).val = win0_0.index t 0
      rw [f0.1]; simp
    · show win0_4.index t 2 * 1024 + 1 * p.val = win0_0.index t 1 * 1024 + p.val
      rw [f0.2.1]; omega
  · refine tile_wq_apply V c t d k _ rfl ?_ ?_ rfl
    · show win0_4.index t 1 * 1 + 1 * (0 : Fin 1).val = win0_1.index t 1
      rw [f1.2.1]; simp
    · show win0_4.index t 3 * 64 + 1 * d.val = d.val
      rw [f4.2.2.2]; omega

/-- What a point writes back to the key array is its block of the key role's array. -/
theorem flushed_k (c : Dev nD) (t : Fin cfg0.N) :
    (dat (F := Ideal) V c).flushed 5 t = ((cfg0.win 5).blk t).view.read (Elt Ideal) (roleArray V c 1) := by
  show (cfg0.win 5).cut (grid0.coords t) ((dat (F := Ideal) V c).after 5 t) = _
  rw [after_k]
  unfold outK
  rw [View.canon_unit_zero hz4]
  simp only [View.ld_unit_zero (S := S1x1024x1024) hz3, View.ld_unit_zero (S := S1x1x64x1024) hz4]
  funext y
  obtain ⟨p, d, rfl⟩ : ∃ (p : Fin 1024) (d : Fin 64), y = ix4 (0 : Fin 1) (0 : Fin 1) p d :=
    ⟨⟨(y 2).val, (y 2).isLt⟩, ⟨(y 3).val, (y 3).isLt⟩, funext fun a => Fin.ext (by
      match a with
      | ⟨0, _⟩ => have h : (y 0).val < 1 := (y 0).isLt; show (y 0).val = 0; omega
      | ⟨1, _⟩ => have h : (y 1).val < 1 := (y 1).isLt; show (y 1).val = 0; omega
      | ⟨2, _⟩ => rfl
      | ⟨3, _⟩ => rfl)⟩
  show k0_pay3 (tile (F := Ideal) V c 0 t) (tile (F := Ideal) V c 2 t) (ix4 (0 : Fin 1) (0 : Fin 1) p d)
    = roleArray V c 1 (((cfg0.win 5).blk t).view.emb (ix4 (0 : Fin 1) (0 : Fin 1) p d))
  rw [pay_k_eq]
  refine (pay_apply _ _ p d).trans ?_
  unfold roleArray rowsAgainst
  obtain ⟨f0, f1, f2, f3, f4, f5, f6⟩ := idx_facts t
  refine Finset.sum_congr rfl fun k _ => ?_
  congr 1
  · refine tile_x_apply V c t p k _ ?_ ?_ rfl
    · show win0_5.index t 0 * 1 + 1 * (0 : Fin 1).val = win0_0.index t 0
      rw [f5 0, f0.1]; simp
    · show win0_5.index t 2 * 1024 + 1 * p.val = win0_0.index t 1 * 1024 + p.val
      rw [f5 2, f0.2.1]; omega
  · refine tile_wk_apply V c t d k _ rfl ?_ ?_ rfl
    · show win0_5.index t 1 * 1 + 1 * (0 : Fin 1).val = win0_2.index t 1
      rw [f5 1, f2.2.1]; simp
    · show win0_5.index t 3 * 64 + 1 * d.val = d.val
      rw [f5 3, f4.2.2.2]; omega

/-- What a point writes back to the value array is its block of the value role's array. -/
theorem flushed_v (c : Dev nD) (t : Fin cfg0.N) :
    (dat (F := Ideal) V c).flushed 6 t = ((cfg0.win 6).blk t).view.read (Elt Ideal) (roleArray V c 2) := by
  show (cfg0.win 6).cut (grid0.coords t) ((dat (F := Ideal) V c).after 6 t) = _
  rw [after_v]
  unfold outV
  rw [View.canon_unit_zero hz4]
  simp only [View.ld_unit_zero (S := S1x1024x1024) hz3, View.ld_unit_zero (S := S1x1x64x1024) hz4]
  funext y
  obtain ⟨p, d, rfl⟩ : ∃ (p : Fin 1024) (d : Fin 64), y = ix4 (0 : Fin 1) (0 : Fin 1) p d :=
    ⟨⟨(y 2).val, (y 2).isLt⟩, ⟨(y 3).val, (y 3).isLt⟩, funext fun a => Fin.ext (by
      match a with
      | ⟨0, _⟩ => have h : (y 0).val < 1 := (y 0).isLt; show (y 0).val = 0; omega
      | ⟨1, _⟩ => have h : (y 1).val < 1 := (y 1).isLt; show (y 1).val = 0; omega
      | ⟨2, _⟩ => rfl
      | ⟨3, _⟩ => rfl)⟩
  show k0_pay4 (tile (F := Ideal) V c 0 t) (tile (F := Ideal) V c 3 t) (ix4 (0 : Fin 1) (0 : Fin 1) p d)
    = roleArray V c 2 (((cfg0.win 6).blk t).view.emb (ix4 (0 : Fin 1) (0 : Fin 1) p d))
  rw [pay_v_eq]
  refine (pay_apply _ _ p d).trans ?_
  unfold roleArray rowsAgainst
  obtain ⟨f0, f1, f2, f3, f4, f5, f6⟩ := idx_facts t
  refine Finset.sum_congr rfl fun k _ => ?_
  congr 1
  · refine tile_x_apply V c t p k _ ?_ ?_ rfl
    · show win0_6.index t 0 * 1 + 1 * (0 : Fin 1).val = win0_0.index t 0
      rw [f6 0, f0.1]; simp
    · show win0_6.index t 2 * 1024 + 1 * p.val = win0_0.index t 1 * 1024 + p.val
      rw [f6 2, f0.2.1]; omega
  · refine tile_wv_apply V c t d k _ rfl ?_ ?_ rfl
    · show win0_6.index t 1 * 1 + 1 * (0 : Fin 1).val = win0_3.index t 1
      rw [f6 1, f3.2.1]; simp
    · show win0_6.index t 3 * 64 + 1 * d.val = d.val
      rw [f6 3, f4.2.2.2]; omega

/-- Every batch, head and row block is some point's. -/
theorem idx_onto : ∀ (q0 : Fin 4) (q1 : Fin 16) (q2 : Fin 2), ∃ t : Fin cfg0.N, win0_4.index t = ![q0.val, q1.val, q2.val, 0] :=
  (by decide +kernel : ∀ (q0 : Fin 4) (q1 : Fin 16) (q2 : Fin 2), ∃ t : Fin grid0.N, win0_4.index t = ![q0.val, q1.val, q2.val, 0])

/-- An index of the query array is in a point's block iff each coordinate is in the block's range on its axis. -/
theorem mem_blk_q (t : Fin cfg0.N) (i : S4x16x2048x64.Idx) :
    i ∈ ((cfg0.win 4).blk t).view.set ↔ ∀ a : Fin 4, win0_4.index t a * S1x1x1024x64.size a ≤ (i a).val
      ∧ (i a).val < win0_4.index t a * S1x1x1024x64.size a + S1x1x1024x64.size a := by
  show i ∈ ((View.whole main_v7_0).slice (win0_4.rect t)).set ↔ _
  rw [View.set_slice_whole, Rect.mem_set_unit]
  exact Iff.rfl

/-- Every index of the query array is in the block of the point at its batch, head and row block. -/
theorem cover_q (i : S4x16x2048x64.Idx) :
    ∃ t : Fin cfg0.N, (cfg0.win 4).flush t = true ∧ i ∈ ((cfg0.win 4).blk t).view.set := by
  have h0 : (i 0).val < 4 := (i 0).isLt
  have h1 : (i 1).val < 16 := (i 1).isLt
  have h2 : (i 2).val < 2048 := (i 2).isLt
  have h3 : (i 3).val < 64 := (i 3).isLt
  obtain ⟨t, ht⟩ := idx_onto ⟨(i 0).val, h0⟩ ⟨(i 1).val, h1⟩ ⟨(i 2).val / 1024, by omega⟩
  have q0 : win0_4.index t 0 = (i 0).val := congrFun ht 0
  have q1 : win0_4.index t 1 = (i 1).val := congrFun ht 1
  have q2 : win0_4.index t 2 = (i 2).val / 1024 := congrFun ht 2
  have q3 : win0_4.index t 3 = 0 := congrFun ht 3
  obtain ⟨f0, f1, f2, f3, f4, f5, f6⟩ := idx_facts t
  refine ⟨t, flush0_4 t, ?_⟩
  rw [mem_blk_q]
  intro a
  match a with
  | ⟨0, _⟩ => show win0_4.index t 0 * 1 ≤ (i 0).val ∧ (i 0).val < win0_4.index t 0 * 1 + 1; rw [q0]; omega
  | ⟨1, _⟩ => show win0_4.index t 1 * 1 ≤ (i 1).val ∧ (i 1).val < win0_4.index t 1 * 1 + 1; rw [q1]; omega
  | ⟨2, _⟩ => show win0_4.index t 2 * 1024 ≤ (i 2).val ∧ (i 2).val < win0_4.index t 2 * 1024 + 1024; rw [q2]; omega
  | ⟨3, _⟩ => show win0_4.index t 3 * 64 ≤ (i 3).val ∧ (i 3).val < win0_4.index t 3 * 64 + 64; rw [q3]; omega

/-- The query array after the region: the activations against the weights of role 0, index by index. -/
theorem final_q (c : Dev nD) (b : Fin 4) (h : Fin 16) (n : Fin 2048) (d : Fin 64) :
    (dat (F := Ideal) V c).arrAt 4 cfg0.N (ix4 b h n d) = rowsAgainst (V c main_v0) (V c main_v2) (0 : Fin 3) b h n d :=
  congrFun ((dat (F := Ideal) V c).arrAt_eq_of_cover 4 (roleArray V c 0) (fun t _ => flushed_q V c t) cover_q)
    (ix4 b h n d)

/-- An index of the key array is in a point's block iff each coordinate is in the block's range on its axis. -/
theorem mem_blk_k (t : Fin cfg0.N) (i : S4x16x2048x64.Idx) :
    i ∈ ((cfg0.win 5).blk t).view.set ↔ ∀ a : Fin 4, win0_5.index t a * S1x1x1024x64.size a ≤ (i a).val
      ∧ (i a).val < win0_5.index t a * S1x1x1024x64.size a + S1x1x1024x64.size a := by
  show i ∈ ((View.whole main_v7_1).slice (win0_5.rect t)).set ↔ _
  rw [View.set_slice_whole, Rect.mem_set_unit]
  exact Iff.rfl

/-- Every index of the key array is in the block of the point at its batch, head and row block. -/
theorem cover_k (i : S4x16x2048x64.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 2048 := (i 2).isLt
  have h3 : (i 3).val < 64 := (i 3).isLt
  obtain ⟨t, ht⟩ := idx_onto ⟨(i 0).val, h0⟩ ⟨(i 1).val, h1⟩ ⟨(i 2).val / 1024, by omega⟩
  have q0 : win0_4.index t 0 = (i 0).val := congrFun ht 0
  have q1 : win0_4.index t 1 = (i 1).val := congrFun ht 1
  have q2 : win0_4.index t 2 = (i 2).val / 1024 := congrFun ht 2
  have q3 : win0_4.index t 3 = 0 := congrFun ht 3
  obtain ⟨f0, f1, f2, f3, f4, f5, f6⟩ := idx_facts t
  refine ⟨t, flush0_5 t, ?_⟩
  rw [mem_blk_k]
  intro a
  match a with
  | ⟨0, _⟩ => show win0_5.index t 0 * 1 ≤ (i 0).val ∧ (i 0).val < win0_5.index t 0 * 1 + 1; rw [((f5 0).trans q0)]; omega
  | ⟨1, _⟩ => show win0_5.index t 1 * 1 ≤ (i 1).val ∧ (i 1).val < win0_5.index t 1 * 1 + 1; rw [((f5 1).trans q1)]; omega
  | ⟨2, _⟩ => show win0_5.index t 2 * 1024 ≤ (i 2).val ∧ (i 2).val < win0_5.index t 2 * 1024 + 1024; rw [((f5 2).trans q2)]; omega
  | ⟨3, _⟩ => show win0_5.index t 3 * 64 ≤ (i 3).val ∧ (i 3).val < win0_5.index t 3 * 64 + 64; rw [((f5 3).trans q3)]; omega

/-- The key array after the region: the activations against the weights of role 1, index by index. -/
theorem final_k (c : Dev nD) (b : Fin 4) (h : Fin 16) (n : Fin 2048) (d : Fin 64) :
    (dat (F := Ideal) V c).arrAt 5 cfg0.N (ix4 b h n d) = rowsAgainst (V c main_v0) (V c main_v2) (1 : Fin 3) b h n d :=
  congrFun ((dat (F := Ideal) V c).arrAt_eq_of_cover 5 (roleArray V c 1) (fun t _ => flushed_k V c t) cover_k)
    (ix4 b h n d)

/-- An index of the value array is in a point's block iff each coordinate is in the block's range on its axis. -/
theorem mem_blk_v (t : Fin cfg0.N) (i : S4x16x2048x64.Idx) :
    i ∈ ((cfg0.win 6).blk t).view.set ↔ ∀ a : Fin 4, win0_6.index t a * S1x1x1024x64.size a ≤ (i a).val
      ∧ (i a).val < win0_6.index t a * S1x1x1024x64.size a + S1x1x1024x64.size a := by
  show i ∈ ((View.whole main_v7_2).slice (win0_6.rect t)).set ↔ _
  rw [View.set_slice_whole, Rect.mem_set_unit]
  exact Iff.rfl

/-- Every index of the value array is in the block of the point at its batch, head and row block. -/
theorem cover_v (i : S4x16x2048x64.Idx) :
    ∃ t : Fin cfg0.N, (cfg0.win 6).flush t = true ∧ i ∈ ((cfg0.win 6).blk t).view.set := by
  have h0 : (i 0).val < 4 := (i 0).isLt
  have h1 : (i 1).val < 16 := (i 1).isLt
  have h2 : (i 2).val < 2048 := (i 2).isLt
  have h3 : (i 3).val < 64 := (i 3).isLt
  obtain ⟨t, ht⟩ := idx_onto ⟨(i 0).val, h0⟩ ⟨(i 1).val, h1⟩ ⟨(i 2).val / 1024, by omega⟩
  have q0 : win0_4.index t 0 = (i 0).val := congrFun ht 0
  have q1 : win0_4.index t 1 = (i 1).val := congrFun ht 1
  have q2 : win0_4.index t 2 = (i 2).val / 1024 := congrFun ht 2
  have q3 : win0_4.index t 3 = 0 := congrFun ht 3
  obtain ⟨f0, f1, f2, f3, f4, f5, f6⟩ := idx_facts t
  refine ⟨t, flush0_6 t, ?_⟩
  rw [mem_blk_v]
  intro a
  match a with
  | ⟨0, _⟩ => show win0_6.index t 0 * 1 ≤ (i 0).val ∧ (i 0).val < win0_6.index t 0 * 1 + 1; rw [((f6 0).trans q0)]; omega
  | ⟨1, _⟩ => show win0_6.index t 1 * 1 ≤ (i 1).val ∧ (i 1).val < win0_6.index t 1 * 1 + 1; rw [((f6 1).trans q1)]; omega
  | ⟨2, _⟩ => show win0_6.index t 2 * 1024 ≤ (i 2).val ∧ (i 2).val < win0_6.index t 2 * 1024 + 1024; rw [((f6 2).trans q2)]; omega
  | ⟨3, _⟩ => show win0_6.index t 3 * 64 ≤ (i 3).val ∧ (i 3).val < win0_6.index t 3 * 64 + 64; rw [((f6 3).trans q3)]; omega

/-- The value array after the region: the activations against the weights of role 2, index by index. -/
theorem final_v (c : Dev nD) (b : Fin 4) (h : Fin 16) (n : Fin 2048) (d : Fin 64) :
    (dat (F := Ideal) V c).arrAt 6 cfg0.N (ix4 b h n d) = rowsAgainst (V c main_v0) (V c main_v2) (2 : Fin 3) b h n d :=
  congrFun ((dat (F := Ideal) V c).arrAt_eq_of_cover 6 (roleArray V c 2) (fun t _ => flushed_v V c t) cover_v)
    (ix4 b h n d)

end Cert.KernelIdeal.Qkv

end
-- ==== Proof.HeadSpec.lean ====
import proofs.«146399_j69234872812274_2_alg».proof.Proof.Spec

/-!
# One head's attention and the head-by-head sum, on their own

`attend q k v` is one head's output from its queries, keys and values, in the arrangement that sums the raw weights
against the values and divides by the total; `accum term` is the running sum of sixteen terms from zero, one after the
other. The specification's `headKer` and `accKer` are these at the projected queries, keys, values and at the heads'
contributions.
-/

noncomputable section

namespace Cert.Attention

open Idealize.ShloMosaic

/-- One head: scores of query position `n` against every key position, scaled by one eighth; the weights are the
    exponentials of the scores less their largest; the output is the sum of the weights against the values, divided by
    the sum of the weights. -/
def attend (q k v : Fin 2048 → Fin 64 → EReal) (n : Fin 2048) (d : Fin 64) : EReal :=
  Ideal.div
    (∑ m : Fin 2048, Ideal.exp ((∑ e : Fin 64, q n e * k m e) * eighth
        - Finset.univ.sup fun m' : Fin 2048 => (∑ e : Fin 64, q n e * k m' e) * eighth) * v m d)
    (∑ m : Fin 2048, Ideal.exp ((∑ e : Fin 64, q n e * k m e) * eighth
        - Finset.univ.sup fun m' : Fin 2048 => (∑ e : Fin 64, q n e * k m' e) * eighth))

/-- The running sum of the first `j` of sixteen terms, from zero. -/
def accum (term : Fin 16 → EReal) : ℕ → EReal
  | 0 => 0
  | j + 1 => accum term j + (if hj : j < 16 then term ⟨j, hj⟩ else 0)

variable (x : Fin 4 → Fin 2048 → Fin 1024 → EReal) (w : Fin 3072 → Fin 1024 → EReal)
  (wp : Fin 1024 → Fin 1024 → EReal)

theorem headKer_eq_attend (b : Fin 4) (h : Fin 16) (n : Fin 2048) (d : Fin 64) :
    headKer x w b h n d = attend (proj x w 0 b h) (proj x w 1 b h) (proj x w 2 b h) n d := rfl

theorem accKer_eq_accum (b : Fin 4) (n : Fin 2048) (o : Fin 1024) (j : ℕ) :
    accKer x w wp b n o j = accum (headTerm x w wp b n o) j := by
  induction j with
  | zero => rfl
  | succ j ih => unfold accKer accum; rw [ih]

end Cert.Attention

end
-- ==== Proof.LibDotNT.lean ====
/-
  The product of an `[M, K]` matrix with the TRANSPOSE of an `[N, K]` matrix — a `tpu.matmul` that contracts the last
  axis of both operands, no batch axis — into the zero accumulator, read at `(p, j)` at the ideal values: the sum over
  the shared axis of the products of row `p` of the left operand with row `j` of the right. (A similarity matrix
  `q kᵀ` of two blocks of row vectors is this product.)
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibDotNT

open Idealize.ShloMosaic Idealize.ShloMosaic.ValueIdx

/-- Rows against rows: `(A Bᵀ)(p, j) = ∑ k, A (p, k) * B (j, k)`. -/
theorem matmulNT_apply {M K N : ℕ} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision)
    (lhs : FVec Ideal ⟨2, ![M, K]⟩ φ₁) (rhs : FVec Ideal ⟨2, ![N, K]⟩ φ₂) (p : Fin M) (j : Fin N) :
    matmul D prec lhs rhs (constant ⟨2, ![M, N]⟩ .f32 0x00000000#32) (ix2 p j)
      = ∑ k : Fin K, lhs (ix2 p k) * rhs (ix2 j k) := by
  obtain ⟨lc, rc, ln, rn, lb, rb, wf⟩ := D
  dsimp only at hlc hrc hln hrn hlb hrb
  subst hlc hrc hln hrn hlb hrb
  set D : DotDims ⟨2, ![M, K]⟩ ⟨2, ![N, K]⟩ ⟨2, ![M, N]⟩ := ⟨[1], [1], [0], [0], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 j k := funext fun a => Fin.ext (by
    match a with
    | ⟨0, _⟩ =>
      show (D.rhsIdx (ix2 p j) _ 0).val = j.val
      unfold DotDims.rhsIdx
      rw [dif_neg (show ¬(0 : Fin (⟨2, ![N, K]⟩ : Shape).rank) ∈ D.rhsBatch from List.not_mem_nil),
        dif_pos (show (0 : Fin (⟨2, ![N, K]⟩ : Shape).rank) ∈ D.rhsNonContracting from List.mem_singleton.mpr rfl)]
      rfl
    | ⟨1, _⟩ => exact (D.rhsIdx_val_of_single rfl (ix2 p j) _).trans hk)
  rw [el, er]

end Cert.LibDotNT

end
-- ==== Proof.LibDense.lean ====
/-
  A matrix product whose one contracted axis is the left operand's columns and the right operand's rows, accumulated
  into the zero matrix and read at an entry: the entry `(p, j)` is the sum over `k` of `lhs (p, k) * rhs (k, j)`, for
  any extents and any dimension record that lists the axes in that way (no batch axis, rows of the left and columns of
  the right kept). Then the same facts about a whole matrix seen BY ITS ROWS — a product, a bias row added to every row, a
  change of float format, a rectifier — each as an equation between functions of the row number, so that a chain of dense
  layers is rewritten from the inside out with no binder in the way. Last, the pointwise transcendentals a gated cell
  uses, read at an index.
-/
import Idealize.ShloMosaic.Lib.Pipeline.Value
import Idealize.ShloMosaic.Lib.ValueIdx
import Idealize.ShloMosaic.Lib.ValueLayout
import Idealize.ShloMosaic.PureOps.Ideal.Laws

namespace Cert.LibDense

open Idealize.ShloMosaic Idealize.ShloMosaic.ValueIdx

/-- The product of an `[M, K]` and a `[K, N]` matrix into the zero accumulator, at `(p, j)`: the sum over the shared
    axis of the products of row `p` of the left with column `j` of the right. -/
theorem matmul2d_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (lhs : FVec Ideal ⟨2, ![M, K]⟩ φ₁) (rhs : FVec Ideal ⟨2, ![K, N]⟩ φ₂) (p : Fin M) (j : Fin N) :
    matmul D prec lhs rhs (constant ⟨2, ![M, N]⟩ .f32 0x00000000#32) (ix2 p j)
      = ∑ k : Fin K, lhs (ix2 p k) * rhs (ix2 k j) := by
  obtain ⟨lc, rc, ln, rn, lb, rb, wf⟩ := D
  dsimp only at hlc hrc hln hrn hlb hrb
  subst hlc hrc hln hrn hlb hrb
  set D : DotDims ⟨2, ![M, K]⟩ ⟨2, ![K, N]⟩ ⟨2, ![M, N]⟩ := ⟨[1], [0], [0], [1], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 k j := funext fun a => Fin.ext (by
    match a with
    | ⟨0, _⟩ => exact (D.rhsIdx_val_of_single rfl (ix2 p j) _).trans hk
    | ⟨1, _⟩ =>
      show (D.rhsIdx (ix2 p j) _ 1).val = j.val
      unfold DotDims.rhsIdx
      rw [dif_neg (show ¬(1 : Fin (⟨2, ![K, N]⟩ : Shape).rank) ∈ D.rhsBatch from List.not_mem_nil),
        dif_pos (show (1 : Fin (⟨2, ![K, N]⟩ : Shape).rank) ∈ D.rhsNonContracting from List.mem_singleton.mpr rfl)]
      rfl)
  rw [el, er]

/-! ## A matrix by its rows -/

/-- Row `p` of a matrix, as a function of the column. -/
def rows {M N : ℕ} {α : Type} (A : (⟨2, ![M, N]⟩ : Shape).Idx → α) (p : Fin M) (j : Fin N) : α := A (ix2 p j)

/-- A `[K, J]` array read as weights from input `k` to output `j`: the array holds the weights transposed. -/
def matT {K J : ℕ} (W : (⟨2, ![K, J]⟩ : Shape).Idx → EReal) (j : Fin J) (k : Fin K) : EReal := W (ix2 k j)

/-- A `[1, J]` array read as the bias of output `j`. -/
def rowv {J : ℕ} (B : (⟨2, ![1, J]⟩ : Shape).Idx → EReal) (j : Fin J) : EReal := B (ix2 (0 : Fin 1) j)

section Rows
variable {M K N : ℕ} {φ φ₁ φ₂ : FTy}

/-- A cast of a matrix to its own shape has the same rows. -/
theorem rows_shapeCast_self {α : Type} (A : (⟨2, ![M, N]⟩ : Shape).Idx → α)
    (h : (⟨2, ![M, N]⟩ : Shape).ShapeCasts ⟨2, ![M, N]⟩) : rows (shapeCast ⟨2, ![M, N]⟩ A h) = rows A := by
  rw [shapeCast_self]

/-- A change of float format keeps every entry. -/
theorem rows_truncf {ψ : FTy} (A : FVec Ideal ⟨2, ![M, N]⟩ φ) (h : ψ.bits < φ.bits) :
    rows (truncf ψ A h : FVec Ideal ⟨2, ![M, N]⟩ ψ) = rows A := rfl

/-- The entrywise maximum with a constant. -/
theorem rows_maximumf_splat (A : FVec Ideal ⟨2, ![M, N]⟩ φ) (z : Ideal φ) :
    rows (maximumf A (broadcast ⟨2, ![M, N]⟩ z)) = fun p j => max (rows A p j) z := rfl

/-- The rows of a product into the zero accumulator: row `p` is the weighted sum of the right operand's rows. -/
theorem rows_matmul (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![M, K]⟩ φ₁) (rhs : FVec Ideal ⟨2, ![K, N]⟩ φ₂) :
    rows (matmul D prec lhs rhs (constant ⟨2, ![M, N]⟩ .f32 0x00000000#32))
      = fun p j => ∑ k : Fin K, rows lhs p k * rows rhs k j :=
  funext fun p => funext fun j => matmul2d_apply D hlc hrc hln hrn hlb hrb prec lhs rhs p j

/-- One row added to every row. -/
theorem rows_addf_rowBias (A : FVec Ideal ⟨2, ![M, N]⟩ φ) (b : FVec Ideal ⟨2, ![1, N]⟩ φ)
    (hb : (⟨2, ![1, N]⟩ : Shape).Broadcasts ⟨2, ![M, N]⟩) :
    rows (addf A (broadcastTo ⟨2, ![M, N]⟩ b hb)) = fun p j => rows A p j + rows b (0 : Fin 1) j := by
  funext p j
  show A (ix2 p j) + broadcastTo ⟨2, ![M, N]⟩ b hb (ix2 p j) = _
  rw [broadcastTo_1b_ab_apply]
  rfl

end Rows

/-! ## Pointwise transcendentals at an index -/

variable {s : Shape} {φ : FTy}

theorem logistic_apply (x : FVec Ideal s φ) (i : s.Idx) : logistic x i = Ideal.logistic (x i) := rfl
theorem tanh_apply (x : FVec Ideal s φ) (i : s.Idx) : tanh x i = Ideal.tanh (x i) := rfl
theorem exp_apply (x : FVec Ideal s φ) (i : s.Idx) : exp x i = Ideal.exp (x i) := rfl
theorem log1p_apply (x : FVec Ideal s φ) (i : s.Idx) : log1p x i = Ideal.log1p (x i) := rfl
theorem absf_apply (x : FVec Ideal s φ) (i : s.Idx) : absf x i = max (x i) (-(x i)) := rfl

end Cert.LibDense
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.AttnValue.lean ====
import proofs.«146399_j69234872812274_2_alg».proof.Proof.AttnRegion
import proofs.«146399_j69234872812274_2_alg».proof.Proof.HeadSpec
import proofs.«146399_j69234872812274_2_alg».proof.Proof.LibDotNT
import proofs.«146399_j69234872812274_2_alg».proof.Proof.LibDense
import proofs.«146399_j69234872812274_2_alg».proof.Proof.LibKeepdims
import proofs.«146399_j69234872812274_2_alg».proof.Proof.LibColumn
import Idealize.ShloMosaic.Lib.ValueLayout
import Idealize.ShloMosaic.Lib.Pipeline.Value
import Idealize.ShloMosaic.Lib.ValueIdx

/-!
# The attention region's output array, index by index

Entry (bh, n, d) of the output is one head's attention: query row n of head bh against all 2048 key rows of that
head, the weights summed against the value rows and divided by their total. The grid point that writes row n of
head bh is 4·bh + n / 512, at row n % 512 of its tile; its query tile is rows 512·(n / 512) … of the head's
queries, its key and value tiles are the head's whole key and value arrays.
-/

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The payload at an index -/

section Payload

/-- The word 0xFF800000 of an f32 is minus infinity. -/
theorem neg_inf_f32 : Ideal.ofBits .f32 0xFF800000#32 = (⊥ : EReal) := by
  simp [Ideal.ofBits, Ideal.ieee]

variable (q2 : FVec Ideal S512x64 .bf16) (k2 v2 : FVec Ideal S2048x64 .bf16)

/-- The scaled scores of a query tile against a key tile: the product of the first with the transpose of the second,
    times one eighth. -/
def scores : FVec Ideal S512x2048 .f32 :=
  mulf (matmul dot_S512x64_S2048x64_S512x2048_1_1_0_0_n_n none q2 k2 (constant (F := Ideal) S512x2048 .f32 0x00000000#32))
    (broadcast S512x2048 (Scalar.ofBits (F := Ideal) .f32 0x3E000000#32))

theorem scores_apply (p : Fin 512) (m : Fin 2048) :
    scores q2 k2 (ix2 p m) = (∑ e : Fin 64, q2 (ix2 p e) * k2 (ix2 m e)) * Cert.Attention.eighth := by
  show matmul dot_S512x64_S2048x64_S512x2048_1_1_0_0_n_n none q2 k2 (constant (F := Ideal) S512x2048 .f32 0x00000000#32) (ix2 p m)
      * Cert.Attention.eighth = _
  exact congrArg (· * Cert.Attention.eighth)
    (Cert.LibDotNT.matmulNT_apply dot_S512x64_S2048x64_S512x2048_1_1_0_0_n_n rfl rfl rfl rfl rfl rfl none q2 k2 p m)

/-- The largest score of each row. -/
def rowMaxV (s : FVec Ideal S512x2048 .f32) : FVec Ideal S512 .f32 :=
  multiReduction .maximumf [1] S512 s 0xFF800000#32 reduces_S512x2048_S512 (.inl rfl) rfl

theorem rowMaxV_apply (s : FVec Ideal S512x2048 .f32) (p : Fin 512) :
    rowMaxV s (ix1 p) = Finset.univ.sup fun m : Fin 2048 => s (ix2 p m) := by
  refine (Cert.LibKeepdims.max_last2_apply s 0xFF800000#32 reduces_S512x2048_S512 (.inl rfl) rfl p).trans ?_
  rw [neg_inf_f32]
  rfl

/-- A row vector put back as a column and spread along the rows reads the vector at the row. -/
theorem column_apply {b : ℕ} (r : FVec Ideal S512 .f32) (hb : S512x1.Broadcasts ⟨2, ![512, b]⟩) (p : Fin 512) (c : Fin b) :
    broadcastTo ⟨2, ![512, b]⟩ (shapeCast S512x1 r shapeCasts_S512_S512x1) hb (ix2 p c) = r (ix1 p) :=
  (Cert.LibColumn.broadcastTo_a1_ab_apply _ hb p c).trans (Cert.LibColumn.shapeCast_a_a1_apply r shapeCasts_S512_S512x1 p 0)

/-- The weights: the exponentials of the scores less their row's largest. -/
def weights (s : FVec Ideal S512x2048 .f32) : FVec Ideal S512x2048 .f32 :=
  exp (subf s (broadcastTo S512x2048 (shapeCast S512x1 (rowMaxV s) shapeCasts_S512_S512x1) broadcasts_S512x1_S512x2048))

theorem weights_apply (s : FVec Ideal S512x2048 .f32) (p : Fin 512) (m : Fin 2048) :
    weights s (ix2 p m) = Ideal.exp (s (ix2 p m) - Finset.univ.sup fun m' : Fin 2048 => s (ix2 p m')) := by
  show Ideal.exp (s (ix2 p m) - broadcastTo S512x2048 (shapeCast S512x1 (rowMaxV s) shapeCasts_S512_S512x1)
    broadcasts_S512x1_S512x2048 (ix2 p m)) = _
  rw [column_apply (rowMaxV s) broadcasts_S512x1_S512x2048 p m, rowMaxV_apply]

/-- The row totals of the weights. -/
def totals (w : FVec Ideal S512x2048 .f32) : FVec Ideal S512 .f32 :=
  multiReduction .add [1] S512 w 0x00000000#32 reduces_S512x2048_S512 (.inl rfl) rfl

theorem totals_apply (w : FVec Ideal S512x2048 .f32) (p : Fin 512) : totals w (ix1 p) = ∑ m : Fin 2048, w (ix2 p m) :=
  Cert.LibKeepdims.sum_last2_apply w 0x00000000#32 reduces_S512x2048_S512 (.inl rfl) rfl p

/-- The weights summed against the value tile. -/
def weighted (w : FVec Ideal S512x2048 .f32) : FVec Ideal S512x64 .f32 :=
  matmul dot_S512x2048_S2048x64_S512x64_1_0_0_1_n_n none (truncf .bf16 w bitsLt_bf16_f32) v2
    (constant (F := Ideal) S512x64 .f32 0x00000000#32)

theorem weighted_apply (w : FVec Ideal S512x2048 .f32) (p : Fin 512) (d : Fin 64) :
    weighted v2 w (ix2 p d) = ∑ m : Fin 2048, w (ix2 p m) * v2 (ix2 m d) :=
  Cert.LibDense.matmul2d_apply dot_S512x2048_S2048x64_S512x64_1_0_0_1_n_n rfl rfl rfl rfl rfl rfl none
    (truncf .bf16 w bitsLt_bf16_f32) v2 p d

/-- The tile's arithmetic is those stages composed. -/
theorem pay_eq (q : FVec Ideal S1x512x64 .bf16) (k v : FVec Ideal S1x2048x64 .bf16) :
    k1_pay1 (F := Ideal) q k v
      = shapeCast S1x512x64 (truncf .bf16 (divf
          (weighted (shapeCast S2048x64 v shapeCasts_S1x2048x64_S2048x64)
            (weights (scores (shapeCast S512x64 q shapeCasts_S1x512x64_S512x64) (shapeCast S2048x64 k shapeCasts_S1x2048x64_S2048x64))))
          (broadcastTo S512x64 (shapeCast S512x1
            (totals (weights (scores (shapeCast S512x64 q shapeCasts_S1x512x64_S512x64) (shapeCast S2048x64 k shapeCasts_S1x2048x64_S2048x64))))
            shapeCasts_S512_S512x1) broadcasts_S512x1_S512x64)) bitsLt_bf16_f32) shapeCasts_S512x64_S1x512x64 := rfl

end Payload

/-- The tile's arithmetic at row p, lane d: the attention of query row p against the key and value tiles. -/
theorem pay_apply (q : FVec Ideal S1x512x64 .bf16) (k v : FVec Ideal S1x2048x64 .bf16) (p : Fin 512) (d : Fin 64)
    (Q K W : Fin 2048 → Fin 64 → EReal) (n : Fin 2048)
    (hq : ∀ e : Fin 64, q (ix3 0 p e) = Q n e) (hk : ∀ (m : Fin 2048) (e : Fin 64), k (ix3 0 m e) = K m e)
    (hv : ∀ (m : Fin 2048) (e : Fin 64), v (ix3 0 m e) = W m e) :
    k1_pay1 (F := Ideal) q k v (ix3 0 p d) = Cert.Attention.attend Q K W n d := by
  have hs : ∀ m : Fin 2048, scores (shapeCast S512x64 q shapeCasts_S1x512x64_S512x64)
      (shapeCast S2048x64 k shapeCasts_S1x2048x64_S2048x64) (ix2 p m) = (∑ e : Fin 64, Q n e * K m e) * Cert.Attention.eighth := by
    intro m
    rw [scores_apply]
    refine congrArg (· * Cert.Attention.eighth) (Finset.sum_congr rfl fun e _ => ?_)
    rw [shapeCast_1ab_ab_apply, shapeCast_1ab_ab_apply, hq, hk]
  rw [pay_eq]
  generalize scores (shapeCast S512x64 q shapeCasts_S1x512x64_S512x64) (shapeCast S2048x64 k shapeCasts_S1x2048x64_S2048x64) = s at hs ⊢
  refine (shapeCast_ab_1ab_apply _ shapeCasts_S512x64_S1x512x64 0 p d).trans ?_
  show Ideal.div (weighted (shapeCast S2048x64 v shapeCasts_S1x2048x64_S2048x64) (weights s) (ix2 p d))
    (broadcastTo S512x64 (shapeCast S512x1 (totals (weights s)) shapeCasts_S512_S512x1) broadcasts_S512x1_S512x64 (ix2 p d)) = _
  rw [column_apply (totals (weights s)) broadcasts_S512x1_S512x64 p d, totals_apply, weighted_apply]
  unfold Cert.Attention.attend
  simp only [weights_apply, hs, shapeCast_1ab_ab_apply, hv]

/-! ## The tiles as rows of the arrays -/

/-- The printed index maps over the grid: the query and output windows are at block (t / 4, t % 4, 0), the key and
    value windows at block (t / 4, 0, 0). -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

theorem t_lt (t : Fin cfg1.N) : t.val < 256 := by
  have h : cfg1.N = 256 := N_1
  have := t.isLt
  omega

/-- The head a grid point works on, and the first row of its query tile. -/
def headOf (t : Fin cfg1.N) : Fin 64 := ⟨t.val / 4, by have := t_lt t; omega⟩
def rowOf (t : Fin cfg1.N) (p : Fin 512) : Fin 2048 := ⟨512 * (t.val % 4) + p.val, by have := p.isLt; omega⟩

/-- The query tile at point t is rows 512·(t % 4) … of head t / 4's queries. -/
theorem tile_q_apply (c : Dev nD) (t : Fin cfg1.N) (p : Fin 512) (e : Fin 64) :
    (tile V c 0 t : S1x512x64.Idx → EReal) (ix3 0 p e) = V c main_v8 (ix3 (headOf t) (rowOf t p) e) := by
  obtain ⟨e0, e1, e2, -⟩ := idx_facts t
  unfold tile
  rw [View.read_apply]
  show V c main_v8 _ = V c main_v8 _
  congr 1
  funext a
  apply Fin.ext
  match a with
  | ⟨0, _⟩ => show win1_0.index t (0 : Fin 3) * 1 + 1 * 0 = t.val / 4; omega
  | ⟨1, _⟩ => show win1_0.index t (1 : Fin 3) * 512 + 1 * p.val = 512 * (t.val % 4) + p.val; omega
  | ⟨2, _⟩ => show win1_0.index t (2 : Fin 3) * 64 + 1 * e.val = e.val; omega

/-- The key tile at point t is head t / 4's keys. -/
theorem tile_k_apply (c : Dev nD) (t : Fin cfg1.N) (m : Fin 2048) (e : Fin 64) :
    (tile V c 1 t : S1x2048x64.Idx → EReal) (ix3 0 m e) = V c main_v9 (ix3 (headOf t) m e) := by
  obtain ⟨-, -, -, e0, e1, e2, -⟩ := idx_facts t
  unfold tile
  rw [View.read_apply]
  show V c main_v9 _ = V c main_v9 _
  congr 1
  funext a
  apply Fin.ext
  match a with
  | ⟨0, _⟩ => show win1_1.index t (0 : Fin 3) * 1 + 1 * 0 = t.val / 4; omega
  | ⟨1, _⟩ => show win1_1.index t (1 : Fin 3) * 2048 + 1 * m.val = m.val; omega
  | ⟨2, _⟩ => show win1_1.index t (2 : Fin 3) * 64 + 1 * e.val = e.val; omega

/-- The value tile at point t is head t / 4's values. -/
theorem tile_v_apply (c : Dev nD) (t : Fin cfg1.N) (m : Fin 2048) (e : Fin 64) :
    (tile V c 2 t : S1x2048x64.Idx → EReal) (ix3 0 m e) = V c main_v10 (ix3 (headOf t) m e) := by
  obtain ⟨-, -, -, -, -, -, e0, e1, e2, -⟩ := idx_facts t
  unfold tile
  rw [View.read_apply]
  show V c main_v10 _ = V c main_v10 _
  congr 1
  funext a
  apply Fin.ext
  match a with
  | ⟨0, _⟩ => show win1_2.index t (0 : Fin 3) * 1 + 1 * 0 = t.val / 4; omega
  | ⟨1, _⟩ => show win1_2.index t (1 : Fin 3) * 2048 + 1 * m.val = m.val; omega
  | ⟨2, _⟩ => show win1_2.index t (2 : Fin 3) * 64 + 1 * e.val = e.val; omega

/-! ## From tiles to the array -/

/-- One head's attention from the three arrays as the region finds them. -/
def attnAt (c : Dev nD) (bh : Fin 64) (n : Fin 2048) (d : Fin 64) : EReal :=
  Cert.Attention.attend (fun n e => V c main_v8 (ix3 bh n e)) (fun m e => V c main_v9 (ix3 bh m e))
    (fun m e => V c main_v10 (ix3 bh m e)) n d

/-- What the output array ends holding, as a function of its index. -/
def attnArr (c : Dev nD) : S64x2048x64.Idx → EReal := fun i =>
  attnAt V c ⟨(i 0).val, (i 0).isLt⟩ ⟨(i 1).val, (i 1).isLt⟩ ⟨(i 2).val, (i 2).isLt⟩

theorem hz3 : (![0, 0, 0] : Fin 3 → Nat) = fun _ => 0 := funext fun a => by fin_cases a <;> rfl

/-- What point t writes back is block t of the attention array. -/
theorem flushed_eq (c : Dev nD) (t : Fin cfg1.N) :
    (dat (F := Ideal) V c).flushed 3 t = ((cfg1.win 3).blk t).view.read (Elt Ideal) (attnArr V c) := by
  show (cfg1.win 3).cut (grid1.coords t) ((dat (F := Ideal) V c).after 3 t) = _
  rw [after_o]
  unfold outTile
  rw [View.canon_unit_zero hz3]
  simp only [View.ld_unit_zero (S := S1x512x64) hz3, View.ld_unit_zero (S := S1x2048x64) hz3]
  obtain ⟨-, -, -, -, -, -, -, -, -, e0, e1, e2⟩ := idx_facts t
  funext y
  obtain ⟨z, p, d, rfl⟩ : ∃ (z : Fin 1) (p : Fin 512) (d : Fin 64), y = ix3 z p d := ⟨y 0, y 1, y 2, eq_ix3 y⟩
  obtain rfl : z = 0 := Subsingleton.elim _ _
  show k1_pay1 (F := Ideal) (tile V c 0 t) (tile V c 1 t) (tile V c 2 t) (ix3 0 p d)
    = attnArr V c (((cfg1.win 3).blk t).view.emb (ix3 0 p d))
  refine (pay_apply (tile V c 0 t) (tile V c 1 t) (tile V c 2 t) p d
    (fun n e => V c main_v8 (ix3 (headOf t) n e)) (fun m e => V c main_v9 (ix3 (headOf t) m e))
    (fun m e => V c main_v10 (ix3 (headOf t) m e)) (rowOf t p)
    (fun e => tile_q_apply V c t p e) (fun m e => tile_k_apply V c t m e) (fun m e => tile_v_apply V c t m e)).trans ?_
  show attnAt V c (headOf t) (rowOf t p) d = attnArr V c (((cfg1.win 3).blk t).view.emb (ix3 0 p d))
  unfold attnArr
  have h0 : ((((cfg1.win 3).blk t).view.emb (ix3 0 p d) : S64x2048x64.Idx) 0).val = t.val / 4 := by
    show win1_3.index t (0 : Fin 3) * 1 + 1 * 0 = t.val / 4; omega
  have h1 : ((((cfg1.win 3).blk t).view.emb (ix3 0 p d) : S64x2048x64.Idx) 1).val = 512 * (t.val % 4) + p.val := by
    show win1_3.index t (1 : Fin 3) * 512 + 1 * p.val = 512 * (t.val % 4) + p.val; omega
  have h2 : ((((cfg1.win 3).blk t).view.emb (ix3 0 p d) : S64x2048x64.Idx) 2).val = d.val := by
    show win1_3.index t (2 : Fin 3) * 64 + 1 * d.val = d.val; omega
  congr 1 <;> apply Fin.ext
  · exact h0.symm
  · exact h1.symm
  · exact h2.symm

/-- An index of the array is in point t's block iff each coordinate is in the block's range on its axis. -/
theorem mem_blk (t : Fin cfg1.N) (i : S64x2048x64.Idx) :
    i ∈ ((cfg1.win 3).blk t).view.set ↔ ∀ a : Fin 3, win1_3.index t a * S1x512x64.size a ≤ (i a).val
      ∧ (i a).val < win1_3.index t a * S1x512x64.size a + S1x512x64.size a := by
  show i ∈ ((View.whole main_v11).slice (win1_3.rect t)).set ↔ _
  rw [View.set_slice_whole, Rect.mem_set_unit]
  exact Iff.rfl

/-- Every index of the array is in the block of the point 4·bh + n / 512, which writes back. -/
theorem cover (i : S64x2048x64.Idx) :
    ∃ t : Fin cfg1.N, (cfg1.win 3).flush t = true ∧ i ∈ ((cfg1.win 3).blk t).view.set := by
  have hi0 : (i 0).val < 64 := (i 0).isLt
  have hi1 : (i 1).val < 2048 := (i 1).isLt
  have hi2 : (i 2).val < 64 := (i 2).isLt
  have hN : cfg1.N = 256 := N_1
  refine ⟨⟨4 * (i 0).val + (i 1).val / 512, by omega⟩, flush1_3 _, ?_⟩
  rw [mem_blk]
  obtain ⟨-, -, -, -, -, -, -, -, -, e0, e1, e2⟩ := idx_facts ⟨4 * (i 0).val + (i 1).val / 512, by omega⟩
  intro a
  match a with
  | ⟨0, _⟩ =>
    show win1_3.index _ (0 : Fin 3) * 1 ≤ (i 0).val ∧ (i 0).val < win1_3.index _ (0 : Fin 3) * 1 + 1
    rw [e0]; show (4 * (i 0).val + (i 1).val / 512) / 4 * 1 ≤ (i 0).val ∧ (i 0).val < (4 * (i 0).val + (i 1).val / 512) / 4 * 1 + 1
    omega
  | ⟨1, _⟩ =>
    show win1_3.index _ (1 : Fin 3) * 512 ≤ (i 1).val ∧ (i 1).val < win1_3.index _ (1 : Fin 3) * 512 + 512
    rw [e1]; show (4 * (i 0).val + (i 1).val / 512) % 4 * 512 ≤ (i 1).val ∧ (i 1).val < (4 * (i 0).val + (i 1).val / 512) % 4 * 512 + 512
    omega
  | ⟨2, _⟩ =>
    show win1_3.index _ (2 : Fin 3) * 64 ≤ (i 2).val ∧ (i 2).val < win1_3.index _ (2 : Fin 3) * 64 + 64
    rw [e2]; omega

/-- The output array after all write-backs, at (bh, n, d): head bh's attention at query row n, lane d. -/
theorem final_out (V : (c : Dev nD) → (b : Ref sig .tc) → Buf (Elt Ideal) ((c : Thread nD τ).loc b)) (c : Dev nD)
    (bh : Fin 64) (n : Fin 2048) (d : Fin 64) :
    (dat (F := Ideal) V c).arrAt 3 cfg1.N (ValueIdx.ix3 bh n d)
      = Cert.Attention.attend (fun n e => V c main_v8 (ValueIdx.ix3 bh n e)) (fun m e => V c main_v9 (ValueIdx.ix3 bh m e))
          (fun m e => V c main_v10 (ValueIdx.ix3 bh m e)) n d := by
  have h := (dat (F := Ideal) V c).arrAt_eq_of_cover 3 (attnArr V c) (fun t _ => flushed_eq V c t) cover
  rw [h]
  rfl

end Cert.KernelIdeal.Attn

end
-- ==== Proof.OutProjValue.lean ====
import proofs.«146399_j69234872812274_2_alg».proof.Proof.OutProjRegion
import proofs.«146399_j69234872812274_2_alg».proof.Proof.HeadSpec
import proofs.«146399_j69234872812274_2_alg».proof.Proof.LibDotNT
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
# The output projection region: what its output array holds after all write-backs

Point t of the 4 × 2 × 16 grid is batch t / 32, row tile t / 16 mod 2 and head t mod 16. Its attention tile is rows
1024·(t / 16 mod 2) … of head (t mod 16) of batch t / 32, its weight tile is that head's 1024 × 64 rows of the output
weights, and the bias tile is the bias row at every point.

Each of the body's three runs leaves in the scratch the running sum it found plus the product of the two tiles over the
64 lanes (from zero at a head 0), and the run of a head 15 leaves in the output tile that sum plus the bias row. By
induction on the point, after the body at point (2·b + nb)·16 + j the scratch holds at (r, o) the products of the heads
0 … j of batch b and row 1024·nb + r added from zero one head after the other. A head-15 point writes back its tile,
the sixteen heads' sum plus the bias, and those sixteen-th points' tiles cover the output array: so the array holds, at
(b, n, o), the sum over the heads h = 0 … 15, in that order from zero, of ∑ₑ attention(b, h, n, e) · weights(h, o, e),
plus bias(o).
-/

set_option maxRecDepth 16384

noncomputable section

namespace Cert.KernelIdeal.OutProj

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window cellOf)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What each run leaves, as the body's arithmetic of the point's tiles -/

section Pieces

variable (V : (c : Dev nD) → (b : Ref sig .tc) → Buf (Elt F) ((c : Thread nD τ).loc b))

/-- Head 0: the zero splat is stored, read back, and the product added to it. -/
theorem scrFirst_eq (c : Dev nD) (t : Fin cfg2.N) (h0 : t.val % 16 = 0) (h1 : ¬t.val % 16 = 15) :
    scrFirst V c t h0 h1 = k2_pay2 (tile V c 0 t) (tile V c 1 t) (k2_pay1 (F := F)) := by
  unfold scrFirst
  rw [View.read_writes_junk_eq_canon]
  unfold firstAt runFirst
  dsimp only
  sl_unfold_words
  rw [View.canon_cons_unit_zero (S := S1024x1024) hz2, View.readCov_unit_zero (S := S1024x1024) _ hz2]
  simp only [View.readAt_eq_ld, (hs_a t).read_unread, (hs_w t).read_unread,
    View.ld_unit_zero (S := S1x1x1024x64) hz4, View.ld_unit_zero (S := S1x1024x64) hz3]

/-- Heads 1 to 14: the product is added to what the scratch held. -/
theorem scrMid_eq (c : Dev nD) (t : Fin cfg2.N) (h0 : ¬t.val % 16 = 0) (h1 : ¬t.val % 16 = 15) (xs : Vec F S1024x1024 .f32) :
    scrMid V c t h0 h1 xs = k2_pay2 (tile V c 0 t) (tile V c 1 t) xs := by
  unfold scrMid
  rw [View.read_writes_junk_eq_canon]
  unfold midAt runMid
  dsimp only
  sl_unfold_words
  rw [View.canon_unit_zero (S := S1024x1024) hz2]
  simp only [View.readAt_eq_ld, (hs_a t).read_unread, (hs_w t).read_unread, (Memref.isWhole_whole cc2_scratch0).read_unread,
    View.ld_unit_zero (S := S1x1x1024x64) hz4, View.ld_unit_zero (S := S1x1024x64) hz3, View.ld_unit_zero (S := S1024x1024) hz2]

/-- Head 15, the scratch: as for the heads before it. -/
theorem scrLast_eq (c : Dev nD) (t : Fin cfg2.N) (h0 : ¬t.val % 16 = 0) (h1 : t.val % 16 = 15) (xs : Vec F S1024x1024 .f32) :
    scrLast V c t h0 h1 xs = k2_pay2 (tile V c 0 t) (tile V c 1 t) xs := by
  unfold scrLast
  rw [View.read_writes_junk_eq_canon]
  unfold lastAt runLast
  dsimp only
  sl_unfold_words
  rw [View.canon_unit_zero (S := S1024x1024) hz2]
  simp only [View.readAt_eq_ld, (hs_a t).read_unread, (hs_w t).read_unread, (Memref.isWhole_whole cc2_scratch0).read_unread,
    View.ld_unit_zero (S := S1x1x1024x64) hz4, View.ld_unit_zero (S := S1x1024x64) hz3, View.ld_unit_zero (S := S1024x1024) hz2]

/-- Head 15, the output tile: the scratch just stored, read back, plus the bias row. -/
theorem outLast_eq (c : Dev nD) (t : Fin cfg2.N) (h0 : ¬t.val % 16 = 0) (h1 : t.val % 16 = 15) (xs : Vec F S1024x1024 .f32) :
    outLast V c t h0 h1 xs = k2_pay3 (k2_pay2 (tile V c 0 t) (tile V c 1 t) xs) (tile V c 2 t) := by
  unfold outLast
  rw [View.read_writes_junk_eq_canon]
  unfold lastAt runLast
  dsimp only
  sl_unfold_words
  rw [View.canon_unit_zero (S := S1x1024x1024) hz3, View.readCov_unit_zero (S := S1024x1024) _ hz2]
  simp only [View.readAt_eq_ld, (hs_a t).read_unread, (hs_w t).read_unread, (hs_b t).read_unread, (Memref.isWhole_whole cc2_scratch0).read_unread,
    View.ld_unit_zero (S := S1x1x1024x64) hz4, View.ld_unit_zero (S := S1x1024x64) hz3, View.ld_unit_zero (S := S1024x1024) hz2,
    View.ld_unit_zero (S := S1x1024) hz2]

end Pieces

section Points

variable (V : (c : Dev nD) → (b : Ref sig .tc) → Buf (Elt F) ((c : Thread nD τ).loc b))

/-- After a head-0 point the scratch holds the product added to zero. -/
theorem acc_first (c : Dev nD) (t : Fin cfg2.N) (h0 : t.val % 16 = 0) (h1 : ¬t.val % 16 = 15) :
    (accAt V c t.val t.isLt).2 = k2_pay2 (tile V c 0 t) (tile V c 1 t) (k2_pay1 (F := F)) := by
  have h := congrArg Prod.snd (accAt_first V c t h0 h1)
  dsimp only at h
  rw [h]
  exact scrFirst_eq V c t h0 h1

/-- After a point of heads 1 to 14 the scratch holds the product added to what the point before left. -/
theorem acc_mid (c : Dev nD) (t : Fin cfg2.N) (h0 : ¬t.val % 16 = 0) (h1 : ¬t.val % 16 = 15) :
    (accAt V c t.val t.isLt).2
      = k2_pay2 (tile V c 0 t) (tile V c 1 t) (accAt V c (t.val - 1) (Nat.lt_of_le_of_lt (Nat.sub_le _ _) t.isLt)).2 := by
  have h := congrArg Prod.snd (accAt_mid V c t h0 h1)
  dsimp only at h
  rw [h]
  exact scrMid_eq V c t h0 h1 _

/-- After a head-15 point likewise, -/
theorem acc_last (c : Dev nD) (t : Fin cfg2.N) (h0 : ¬t.val % 16 = 0) (h1 : t.val % 16 = 15) :
    (accAt V c t.val t.isLt).2
      = k2_pay2 (tile V c 0 t) (tile V c 1 t) (accAt V c (t.val - 1) (Nat.lt_of_le_of_lt (Nat.sub_le _ _) t.isLt)).2 := by
  have h := congrArg Prod.snd (accAt_last V c t h0 h1)
  dsimp only at h
  rw [h]
  exact scrLast_eq V c t h0 h1 _

/-- and the output tile holds what the scratch holds plus the bias row. -/
theorem out_last (c : Dev nD) (t : Fin cfg2.N) (h0 : ¬t.val % 16 = 0) (h1 : t.val % 16 = 15) :
    (accAt V c t.val t.isLt).1 = k2_pay3 (accAt V c t.val t.isLt).2 (tile V c 2 t) := by
  rw [acc_last V c t h0 h1]
  have h := congrArg Prod.fst (accAt_last V c t h0 h1)
  dsimp only at h
  rw [h]
  exact outLast_eq V c t h0 h1 _

end Points

/-! ## The body's arithmetic at an index, over the extended reals -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- The reset stores zero everywhere. -/
theorem pay1_apply (r o : Fin 1024) : k2_pay1 (F := Ideal) (ix2 r o) = 0 := by
  unfold k2_pay1
  refine (congrFun (shapeCast_self _ _) _).trans ?_
  exact Ideal.ofBits_zero_f32

/-- A point adds, to what the running sum held at (r, o), the product of row r of the attention tile with row o of the
    weight tile over the 64 lanes. -/
theorem pay2_apply (xa : Vec Ideal S1x1x1024x64 .bf16) (xw : Vec Ideal S1x1024x64 .bf16) (xs : Vec Ideal S1024x1024 .f32)
    (r o : Fin 1024) :
    k2_pay2 xa xw xs (ix2 r o)
      = xs (ix2 r o) + ∑ e : Fin 64, xa (ix4 (0 : Fin 1) (0 : Fin 1) r e) * xw (ix3 (0 : Fin 1) o e) := by
  unfold k2_pay2
  refine (congrFun (shapeCast_self _ _) _).trans ?_
  refine (addf_apply _ _ _).trans ?_
  refine congrArg (xs (ix2 r o) + ·) ?_
  refine (Cert.LibDotNT.matmulNT_apply dot_S1024x64_S1024x64_S1024x1024_1_1_0_0_n_n rfl rfl rfl rfl rfl rfl none _ _ r o).trans ?_
  refine Finset.sum_congr rfl fun e _ => ?_
  exact congrArg₂ (· * ·) (shapeCast_11ab_ab_apply xa _ r e) (shapeCast_1ab_ab_apply xw _ o e)

/-- The last head stores the running sum plus the bias row. -/
theorem pay3_apply (acc : Vec Ideal S1024x1024 .f32) (bias : Vec Ideal S1x1024 .f32) (u : Fin 1) (r o : Fin 1024) :
    k2_pay3 acc bias (ix3 u r o) = acc (ix2 r o) + bias (ix2 (0 : Fin 1) o) := by
  unfold k2_pay3
  refine (shapeCast_ab_1ab_apply _ _ u r o).trans ?_
  refine (addf_apply _ _ _).trans ?_
  refine congrArg (acc (ix2 r o) + ·) ?_
  refine (broadcastTo_1b_ab_apply _ _ r o).trans ?_
  exact congrFun (shapeCast_self _ _) _

/-! ## Where the tiles sit in their arrays -/

/-- The printed index maps over the grid: point t is batch t / 32, row tile t / 16 mod 2, head t mod 16. -/
theorem idx_facts : ∀ t : Fin cfg2.N,
    win2_0.index t (0 : Fin 4) = t.val / 32 ∧ win2_0.index t (1 : Fin 4) = t.val % 16
    ∧ win2_0.index t (2 : Fin 4) = t.val / 16 % 2 ∧ win2_0.index t (3 : Fin 4) = 0
    ∧ win2_1.index t (0 : Fin 3) = t.val % 16 ∧ win2_1.index t (1 : Fin 3) = 0 ∧ win2_1.index t (2 : Fin 3) = 0
    ∧ win2_2.index t (0 : Fin 2) = 0 ∧ win2_2.index t (1 : Fin 2) = 0
    ∧ win2_3.index t (0 : Fin 3) = t.val / 32 ∧ win2_3.index t (1 : Fin 3) = t.val / 16 % 2 ∧ win2_3.index t (2 : Fin 3) = 0 :=
  (by decide +kernel : ∀ t : Fin grid2.N, _)

section Tiles

variable (V : (c : Dev nD) → (b : Ref sig .tc) → Buf (Elt F) ((c : Thread nD τ).loc b))

/-- The attention tile at point t: batch b, head h, rows 1024·(t / 16 mod 2) …. -/
theorem tile_a_apply (c : Dev nD) (t : Fin cfg2.N) (r : Fin 1024) (e : Fin 64) (b : Fin 4) (h : Fin 16) (n : Fin 2048)
    (hb : b.val = t.val / 32) (hh : h.val = t.val % 16) (hn : n.val = 1024 * (t.val / 16 % 2) + r.val) :
    (tile V c 0 t : Vec F S1x1x1024x64 .bf16) (ix4 (0 : Fin 1) (0 : Fin 1) r e)
      = (V c main_v12 : S4x16x2048x64.Idx → Elt F .bf16) (ix4 b h n e) := by
  obtain ⟨e0, e1, e2, e3, -⟩ := idx_facts t
  unfold tile
  rw [View.read_apply]
  show V c main_v12 _ = V c main_v12 _
  refine congrArg (V c main_v12) ?_
  funext a
  apply Fin.ext
  match a with
  | ⟨0, _⟩ => show win2_0.index t (0 : Fin 4) * 1 + 1 * 0 = b.val; omega
  | ⟨1, _⟩ => show win2_0.index t (1 : Fin 4) * 1 + 1 * 0 = h.val; omega
  | ⟨2, _⟩ => show win2_0.index t (2 : Fin 4) * 1024 + 1 * r.val = n.val; omega
  | ⟨3, _⟩ => show win2_0.index t (3 : Fin 4) * 64 + 1 * e.val = e.val; omega

/-- The weight tile at point t: head h, all rows and lanes. -/
theorem tile_w_apply (c : Dev nD) (t : Fin cfg2.N) (o : Fin 1024) (e : Fin 64) (h : Fin 16) (hh : h.val = t.val % 16) :
    (tile V c 1 t : Vec F S1x1024x64 .bf16) (ix3 (0 : Fin 1) o e)
      = (V c main_v5 : S16x1024x64.Idx → Elt F .bf16) (ix3 h o e) := by
  obtain ⟨-, -, -, -, e4, e5, e6, -⟩ := idx_facts t
  unfold tile
  rw [View.read_apply]
  show V c main_v5 _ = V c main_v5 _
  refine congrArg (V c main_v5) ?_
  funext a
  apply Fin.ext
  match a with
  | ⟨0, _⟩ => show win2_1.index t (0 : Fin 3) * 1 + 1 * 0 = h.val; omega
  | ⟨1, _⟩ => show win2_1.index t (1 : Fin 3) * 1024 + 1 * o.val = o.val; omega
  | ⟨2, _⟩ => show win2_1.index t (2 : Fin 3) * 64 + 1 * e.val = e.val; omega

/-- The bias tile at any point is the bias row. -/
theorem tile_b_apply (c : Dev nD) (t : Fin cfg2.N) (o : Fin 1024) :
    (tile V c 2 t : Vec F S1x1024 .f32) (ix2 (0 : Fin 1) o) = (V c main_v6 : S1x1024.Idx → Elt F .f32) (ix2 (0 : Fin 1) o) := by
  obtain ⟨-, -, -, -, -, -, -, e7, e8, -⟩ := idx_facts t
  unfold tile
  rw [View.read_apply]
  show V c main_v6 _ = V c main_v6 _
  refine congrArg (V c main_v6) ?_
  funext a
  apply Fin.ext
  match a with
  | ⟨0, _⟩ => show win2_2.index t (0 : Fin 2) * 1 + 1 * 0 = 0; omega
  | ⟨1, _⟩ => show win2_2.index t (1 : Fin 2) * 1024 + 1 * o.val = o.val; omega

end Tiles

/-! ## The running sum over the heads -/

open Cert.Attention (accum)

theorem accum_zero (term : Fin 16 → EReal) : accum term 0 = 0 := rfl

theorem accum_succ (term : Fin 16 → EReal) (j : Fin 16) : accum term (j.val + 1) = accum term j.val + term j := by
  show accum term j.val + (if hj : j.val < 16 then term ⟨j.val, hj⟩ else 0) = _
  rw [dif_pos j.isLt]

section Sum

variable (V : (c : Dev nD) → (b : Ref sig .tc) → Buf (Elt Ideal) ((c : Thread nD τ).loc b))

/-- The attention outputs, the output weights and the bias as the region finds them, by coordinates. -/
def attnAt (c : Dev nD) (b : Fin 4) (h : Fin 16) (n : Fin 2048) (e : Fin 64) : EReal := V c main_v12 (ix4 b h n e)
def weightAt (c : Dev nD) (h : Fin 16) (o : Fin 1024) (e : Fin 64) : EReal := V c main_v5 (ix3 h o e)
def biasAt (c : Dev nD) (o : Fin 1024) : EReal := V c main_v6 (ix2 (0 : Fin 1) o)

/-- One head's product at batch b, row n, output feature o: the 64 lanes of the head's attention output at (b, n)
    against row o of the head's weights. -/
def headProd (c : Dev nD) (b : Fin 4) (n : Fin 2048) (o : Fin 1024) (h : Fin 16) : EReal :=
  ∑ e : Fin 64, attnAt V c b h n e * weightAt V c h o e

/-- Row r of row tile nb. -/
def rowOf (nb : Fin 2) (r : Fin 1024) : Fin 2048 := ⟨1024 * nb.val + r.val, by omega⟩

/-- The product of a point's two tiles at (r, o) is its head's product at the point's batch and row. -/
theorem tile_prod (c : Dev nD) (t : Fin cfg2.N) (b : Fin 4) (nb : Fin 2) (j : Fin 16)
    (ht : t.val = (2 * b.val + nb.val) * 16 + j.val) (r o : Fin 1024)
    (xa : Vec Ideal S1x1x1024x64 .bf16) (xw : Vec Ideal S1x1024x64 .bf16) (ha : xa = tile V c 0 t) (hw : xw = tile V c 1 t) :
    ∑ e : Fin 64, xa (ix4 (0 : Fin 1) (0 : Fin 1) r e) * xw (ix3 (0 : Fin 1) o e) = headProd V c b (rowOf nb r) o j := by
  subst ha hw
  unfold headProd
  refine Finset.sum_congr rfl fun e _ => ?_
  exact congrArg₂ (· * ·)
    (tile_a_apply V c t r e b j (rowOf nb r) (by omega) (by omega) (by show 1024 * nb.val + r.val = _; omega))
    (tile_w_apply V c t o e j (by omega))

/-- After the body at point k = (2·b + nb)·16 + j the scratch holds, at (r, o), the sum of the products of the heads
    0 … j of batch b and row 1024·nb + r: by induction on the point, reset at a head 0 and one product added per point. -/
theorem scratch_inv (c : Dev nD) : ∀ (k : ℕ) (t : Fin cfg2.N), t.val = k → ∀ (b : Fin 4) (nb : Fin 2) (j : Fin 16),
    k = (2 * b.val + nb.val) * 16 + j.val → ∀ (r o : Fin 1024),
    ((accAt V c t.val t.isLt).2 : Vec Ideal S1024x1024 .f32) (ix2 r o) = accum (headProd V c b (rowOf nb r) o) (j.val + 1) := by
  intro k
  induction k using Nat.strong_induction_on with
  | _ k ih =>
    intro t htk b nb j hkj r o
    have hp := tile_prod V c t b nb j (htk.trans hkj) r o (tile V c 0 t) (tile V c 1 t) rfl rfl
    by_cases h0 : t.val % 16 = 0
    · have h1 : ¬t.val % 16 = 15 := by omega
      rw [acc_first V c t h0 h1]
      refine (pay2_apply (tile V c 0 t) (tile V c 1 t) (k2_pay1 (F := Ideal)) r o).trans ?_
      rw [pay1_apply, zero_add, hp, accum_succ, show j.val = 0 from by omega, accum_zero, zero_add]
    · have ihp := ih (k - 1) (by omega) ⟨t.val - 1, by have := t.isLt; omega⟩ (by show t.val - 1 = k - 1; omega) b nb
        ⟨j.val - 1, by omega⟩ (by show k - 1 = _ + (j.val - 1); omega) r o
      have hjj : accum (headProd V c b (rowOf nb r) o) (j.val - 1 + 1) = accum (headProd V c b (rowOf nb r) o) j.val :=
        congrArg _ (by omega)
      by_cases h1 : t.val % 16 = 15
      · rw [acc_last V c t h0 h1]
        refine (pay2_apply (tile V c 0 t) (tile V c 1 t) _ r o).trans ?_
        rw [hp, accum_succ]
        exact congrArg (· + _) (ihp.trans hjj)
      · rw [acc_mid V c t h0 h1]
        refine (pay2_apply (tile V c 0 t) (tile V c 1 t) _ r o).trans ?_
        rw [hp, accum_succ]
        exact congrArg (· + _) (ihp.trans hjj)

/-! ## The output array -/

/-- The sixteen heads' products over the 64 lanes, added from zero one head after the other, plus the bias. -/
def headsSum (a w : Fin 16 → Fin 64 → EReal) (bias : EReal) : EReal :=
  accum (fun h : Fin 16 => ∑ e : Fin 64, a h e * w h e) 16 + bias

/-- What the output holds at (b, n, o). -/
def outFn (c : Dev nD) (b : Fin 4) (n : Fin 2048) (o : Fin 1024) : EReal :=
  accum (headProd V c b n o) 16 + biasAt V c o

def outArr (c : Dev nD) : Buf (Elt Ideal) ((c : Thread nD τ).loc main_v13) :=
  fun i : S4x2048x1024.Idx => outFn V c (i 0) (i 1) (i 2)

/-- After the head-15 point of batch b and row tile nb, the output tile at (r, o) is the output at (b, 1024·nb + r, o). -/
theorem out_tile_apply (c : Dev nD) (t : Fin cfg2.N) (h0 : ¬t.val % 16 = 0) (h1 : t.val % 16 = 15) (b : Fin 4) (nb : Fin 2)
    (ht : t.val = (2 * b.val + nb.val) * 16 + 15) (u : Fin 1) (r o : Fin 1024) :
    ((accAt V c t.val t.isLt).1 : Vec Ideal S1x1024x1024 .f32) (ix3 u r o) = outFn V c b (rowOf nb r) o := by
  rw [out_last V c t h0 h1]
  refine (pay3_apply _ (tile V c 2 t) u r o).trans ?_
  exact congrArg₂ (· + ·) (scratch_inv V c t.val t rfl b nb ⟨15, by omega⟩ ht r o) (tile_b_apply V c t o)

/-- What a head-15 point writes back is its tile of the output array. -/
theorem flushed_eq (c : Dev nD) (t : Fin cfg2.N) (hf : (cfg2.win 3).flush t = true) :
    (dat (F := Ideal) V c).flushed 3 t = ((cfg2.win 3).blk t).view.read (Elt Ideal) (outArr V c) := by
  have h1 : t.val % 16 = 15 := (flush2_3 t).mp hf
  have h0 : ¬t.val % 16 = 0 := by omega
  have hN : cfg2.N = 128 := N_2
  have ht := t.isLt
  obtain ⟨b, hb⟩ : ∃ b : Fin 4, b.val = t.val / 32 := ⟨⟨t.val / 32, by omega⟩, rfl⟩
  obtain ⟨nb, hnb⟩ : ∃ nb : Fin 2, nb.val = t.val / 16 % 2 := ⟨⟨t.val / 16 % 2, by omega⟩, rfl⟩
  obtain ⟨-, -, -, -, -, -, -, -, -, e9, e10, e11⟩ := idx_facts t
  show (cfg2.win 3).cut (grid2.coords t) ((dat (F := Ideal) V c).after 3 t) = _
  rw [after_o]
  funext y
  obtain ⟨u, r, o, rfl⟩ : ∃ (u : Fin 1) (r o : Fin 1024), y = ix3 u r o := ⟨y 0, y 1, y 2, eq_ix3 y⟩
  rw [View.read_apply]
  show (accAt V c t.val t.isLt).1 ((cfg2.win 3).xinj (grid2.coords t) (ix3 u r o)) = outArr V c (((cfg2.win 3).blk t).view.emb (ix3 u r o))
  rw [show (cfg2.win 3).xinj (grid2.coords t) (ix3 u r o) = (ix3 u r o : S1x1024x1024.Idx) from rfl]
  have hemb : ((cfg2.win 3).blk t).view.emb (ix3 u r o) = (ix3 b (rowOf nb r) o : S4x2048x1024.Idx) := by
    funext a
    apply Fin.ext
    match a with
    | ⟨0, _⟩ => show win2_3.index t (0 : Fin 3) * 1 + 1 * u.val = b.val; omega
    | ⟨1, _⟩ => show win2_3.index t (1 : Fin 3) * 1024 + 1 * r.val = 1024 * nb.val + r.val; omega
    | ⟨2, _⟩ => show win2_3.index t (2 : Fin 3) * 1024 + 1 * o.val = o.val; omega
  rw [hemb]
  exact out_tile_apply V c t h0 h1 b nb (by omega) u r o

/-- An index of the output array is in point t's tile iff each coordinate is in the tile's range on its axis. -/
theorem mem_blk3 (t : Fin cfg2.N) (i : S4x2048x1024.Idx) :
    i ∈ ((cfg2.win 3).blk t).view.set ↔ ∀ a : Fin 3, win2_3.index t a * S1x1024x1024.size a ≤ (i a).val
      ∧ (i a).val < win2_3.index t a * S1x1024x1024.size a + S1x1024x1024.size a := by
  show i ∈ ((View.whole main_v13).slice (win2_3.rect t)).set ↔ _
  rw [View.set_slice_whole, Rect.mem_set_unit]
  exact Iff.rfl

/-- Every index (b, n, o) is in the tile of the head-15 point of batch b and row tile n / 1024. -/
theorem covered (i : S4x2048x1024.Idx) : ∃ t : Fin cfg2.N, (cfg2.win 3).flush t = true ∧ i ∈ ((cfg2.win 3).blk t).view.set := by
  have hN : cfg2.N = 128 := N_2
  have h0 : (i 0).val < 4 := (i 0).isLt
  have h1 : (i 1).val < 2048 := (i 1).isLt
  have h2 : (i 2).val < 1024 := (i 2).isLt
  obtain ⟨t, ht⟩ : ∃ t : Fin cfg2.N, t.val = (2 * (i 0).val + (i 1).val / 1024) * 16 + 15 := ⟨⟨_, by omega⟩, rfl⟩
  obtain ⟨-, -, -, -, -, -, -, -, -, e9, e10, e11⟩ := idx_facts t
  refine ⟨t, (flush2_3 t).mpr (by omega), ?_⟩
  rw [mem_blk3]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 1024 ≤ (i 1).val ∧ (i 1).val < win2_3.index t (1 : Fin 3) * 1024 + 1024; omega
  | ⟨2, _⟩ => show win2_3.index t (2 : Fin 3) * 1024 ≤ (i 2).val ∧ (i 2).val < win2_3.index t (2 : Fin 3) * 1024 + 1024; omega

/-- The output array after all write-backs. -/
theorem final_arr (c : Dev nD) : (dat (F := Ideal) V c).arrAt 3 cfg2.N = outArr V c :=
  (dat (F := Ideal) V c).arrAt_eq_of_cover 3 (outArr V c) (fun t hf => flushed_eq V c t hf) (fun i => covered i)

/-- Index by index: the sixteen heads' products of the attention outputs with the output weights over the 64 lanes, added
    from zero one head after the other, plus the bias. -/
theorem final_out (c : Dev nD) (b : Fin 4) (n : Fin 2048) (o : Fin 1024) :
    (dat (F := Ideal) V c).arrAt 3 cfg2.N (ValueIdx.ix3 b n o)
      = headsSum (fun h e => V c main_v12 (ValueIdx.ix4 b h n e)) (fun h e => V c main_v5 (ValueIdx.ix3 h o e))
          (V c main_v6 (ValueIdx.ix2 (0 : Fin 1) o)) :=
  (congrFun (final_arr V c) (ix3 b n o)).trans rfl

end Sum

end Cert.KernelIdeal.OutProj

end
-- ==== Proof.KernelValue.lean ====
import proofs.«146399_j69234872812274_2_alg».proof.Proof.HostReads
import proofs.«146399_j69234872812274_2_alg».proof.Proof.QkvValue
import proofs.«146399_j69234872812274_2_alg».proof.Proof.AttnValue
import proofs.«146399_j69234872812274_2_alg».proof.Proof.OutProjValue
import proofs.«146399_j69234872812274_2_alg».proof.Proof.HeadSpec

/-!
# The kernel's result is the head-by-head arrangement of the specification

Reading backwards from the result: the output projection leaves, at (b, n, o), the sixteen heads' contributions summed one
after the other plus the bias; a head's contribution contracts the attention output of that head with its slice of the output
weights; the attention output is `attend` of the head's queries, keys and values; and those are the activations against
the three slices of the stacked projection weights. Put together this is `outKer` of the four arguments.
-/

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.ValueIdx
open Cert.Attention

variable (m : (ℓ : Loc nD τ sig) → Buf (Elt Ideal) ℓ)

/-- The projection region leaves the queries, keys and values. -/
theorem q_eq (c : Dev nD) (b : Fin 4) (h : Fin 16) (n : Fin 2048) (d : Fin 64) :
    (W2 m c main_v7_0 : FVec Ideal S4x16x2048x64 .bf16) (ix4 b h n d) = proj (xs m c) (ws m c) 0 b h n d := by
  rw [W2_q]
  refine (Qkv.final_q (B1 m) c b h n d).trans ?_
  show (Qkv.rowsAgainst (B1 m c main_v0) (B1 m c main_v2) 0 b h n d : EReal) = proj (xs m c) (ws m c) 0 b h n d
  unfold Qkv.rowsAgainst proj
  exact Finset.sum_congr rfl fun f _ => by rw [B1_x m c b n f, B1_w m c 0 h d f]

theorem k_eq (c : Dev nD) (b : Fin 4) (h : Fin 16) (n : Fin 2048) (d : Fin 64) :
    (W2 m c main_v7_1 : FVec Ideal S4x16x2048x64 .bf16) (ix4 b h n d) = proj (xs m c) (ws m c) 1 b h n d := by
  rw [W2_k]
  refine (Qkv.final_k (B1 m) c b h n d).trans ?_
  show (Qkv.rowsAgainst (B1 m c main_v0) (B1 m c main_v2) 1 b h n d : EReal) = proj (xs m c) (ws m c) 1 b h n d
  unfold Qkv.rowsAgainst proj
  exact Finset.sum_congr rfl fun f _ => by rw [B1_x m c b n f, B1_w m c 1 h d f]

theorem v_eq (c : Dev nD) (b : Fin 4) (h : Fin 16) (n : Fin 2048) (d : Fin 64) :
    (W2 m c main_v7_2 : FVec Ideal S4x16x2048x64 .bf16) (ix4 b h n d) = proj (xs m c) (ws m c) 2 b h n d := by
  rw [W2_v]
  refine (Qkv.final_v (B1 m) c b h n d).trans ?_
  show (Qkv.rowsAgainst (B1 m c main_v0) (B1 m c main_v2) 2 b h n d : EReal) = proj (xs m c) (ws m c) 2 b h n d
  unfold Qkv.rowsAgainst proj
  exact Finset.sum_congr rfl fun f _ => by rw [B1_x m c b n f, B1_w m c 2 h d f]

/-- The attention region leaves each head's output in the arrangement that divides the mixed values by the total weight. -/
theorem head_eq (c : Dev nD) (b : Fin 4) (h : Fin 16) (n : Fin 2048) (d : Fin 64) :
    (W4 m c main_v11 : FVec Ideal S64x2048x64 .bf16) (ix3 (bh b h) n d) = headKer (xs m c) (ws m c) b h n d := by
  have e := W4_arr m c 3
  rw [show (W4 m c main_v11 : FVec Ideal S64x2048x64 .bf16) = (Attn.dat (B3 m) c).arrAt 3 cfg1.N from e]
  refine (Attn.final_out (B3 m) c (bh b h) n d).trans ?_
  rw [headKer_eq_attend]
  have key : ∀ (q q' k k' v v' : Fin 2048 → Fin 64 → EReal), q = q' → k = k' → v = v' → attend q k v n d = attend q' k' v' n d := by
    intro q q' k k' v v' hq hk hv; rw [hq, hk, hv]
  exact key _ _ _ _ _ _
    (funext fun n' => funext fun e' => (B3_q m c b h n' e').trans (q_eq m c b h n' e'))
    (funext fun n' => funext fun e' => (B3_k m c b h n' e').trans (k_eq m c b h n' e'))
    (funext fun n' => funext fun e' => (B3_v m c b h n' e').trans (v_eq m c b h n' e'))

/-- The result array at the end. -/
theorem result_eq (c : Dev nD) (b : Fin 4) (n : Fin 2048) (o : Fin 1024) :
    (W6 m c main_v13 : FVec Ideal S4x2048x1024 .f32) (ix3 b n o) = outKer (xs m c) (ws m c) (wps m c) (bps m c) b n o := by
  have e := W6_arr m c 3
  rw [show (W6 m c main_v13 : FVec Ideal S4x2048x1024 .f32) = (OutProj.dat (B5 m) c).arrAt 3 cfg2.N from e]
  refine (OutProj.final_out (B5 m) c b n o).trans ?_
  unfold OutProj.headsSum outKer
  rw [accKer_eq_accum]
  have key : ∀ (t t' : Fin 16 → EReal) (z z' : EReal), t = t' → z = z' → accum t 16 + z = accum t' 16 + z' := by
    intro t t' z z' ht hz; rw [ht, hz]
  refine key _ _ _ _ (funext fun h => ?_) ?_
  · unfold headTerm
    refine Finset.sum_congr rfl fun e' _ => ?_
    have h1 : (B5 m c main_v12 : FVec Ideal S4x16x2048x64 .bf16) (ix4 b h n e') = headKer (xs m c) (ws m c) b h n e' :=
      (B5_a m c b h n e').trans (head_eq m c b h n e')
    have h2 : (B5 m c main_v5 : FVec Ideal S16x1024x64 .bf16) (ix3 h o e') = wps m c o (col h e') := by
      rw [show (B5 m c main_v5 : FVec Ideal S16x1024x64 .bf16) = (B1 m c main_v5 : FVec Ideal S16x1024x64 .bf16) from B5_wp m c]
      exact B1_wp m c h o e'
    exact congrArg₂ (fun a b : EReal => a * b) h1 h2
  · rw [show (B5 m c main_v6 : FVec Ideal S1x1024 .f32) = (B1 m c main_v6 : FVec Ideal S1x1024 .f32) from B5_bp m c]
    exact B1_bp m c o

end Cert.KernelIdeal.Run

end
-- ==== Proof.RefValue.lean ====
import proofs.«146399_j69234872812274_2_alg».proof.Proof.Gen.ReferenceIdeal.Read
import proofs.«146399_j69234872812274_2_alg».proof.Proof.Spec
import Idealize.ShloMosaic.Lib.ValueIdx
import Idealize.ShloMosaic.PureOps.Ideal.Laws

/-! The reference's result, read index by index off its generated run.

Each intermediate array of the reference is read at explicit coordinates and identified with the matching
function of the specification: the stacked projection, the three roles, the scaled score, its row maximum,
the softmax weight and its row total, the normalised weight, a head's output, the concatenated heads, and
the projected result with its bias. -/

noncomputable section

namespace Cert.ReferenceIdeal.RefValue

open Idealize.ShloMosaic Idealize.ShloMosaic.ValueIdx Cert.ReferenceIdeal.Gen Cert.ReferenceIdeal.Read Cert.Attention

variable (x0 : (⟨S4x2048x1024, .f32⟩ : BufTy).Contents (Elt Ideal)) (x1 : (⟨S3072x1024, .f32⟩ : BufTy).Contents (Elt Ideal))
  (x2 : (⟨S1024x1024, .f32⟩ : BufTy).Contents (Elt Ideal)) (x3 : (⟨S1024, .f32⟩ : BufTy).Contents (Elt Ideal))

/-- The activations by coordinates. -/
abbrev xs : Fin 4 → Fin 2048 → Fin 1024 → EReal := fun b n c => x0 (ix3 b n c)
/-- The stacked projection weights by coordinates. -/
abbrev ws : Fin 3072 → Fin 1024 → EReal := fun r c => x1 (ix2 r c)

/-! ## The stacked projection -/

/-- Entry (b, n, e) of the stacked projection is the row of activations against row e of the weights. -/
theorem qkv_eq (b : Fin 4) (n : Fin 2048) (e : Fin 3072) :
    val_main_v0 (F := Ideal) x0 x1 (ix3 b n e) = ∑ c : Fin 1024, xs x0 b n c * ws x1 e c := by
  rw [val_main_v0_apply]
  refine Finset.sum_congr rfl fun k _ => ?_
  have el : lidx_main_v0 (ix3 b n e) k = ix3 b n k :=
    funext fun a => Fin.ext (by match a with | ⟨0, _⟩ => rfl | ⟨1, _⟩ => rfl | ⟨2, _⟩ => rfl)
  have er : ridx_main_v0 (ix3 b n e) k = ix2 e k :=
    funext fun a => Fin.ext (by match a with | ⟨0, _⟩ => rfl | ⟨1, _⟩ => rfl)
  rw [el, er]

/-! ## The three roles: the feature axis 3072 = 3 · 16 · 64 split, the role axis moved to the front and sliced -/

/-- A flat position of [4, 16, 2048, 64] read in [1, 4, 16, 2048, 64] has the same four coordinates. -/
theorem unit_front (b : Fin 4) (h : Fin 16) (n : Fin 2048) (d : Fin 64) :
    idx_main_v4 (ix4 b h n d) = ix5 (0 : Fin 1) b h n d := by
  have hb := b.isLt; have hh := h.isLt; have hn := n.isLt; have hd := d.isLt
  exact funext fun a => Fin.ext (by
    match a with
    | ⟨0, _⟩ => rfl
    | ⟨1, _⟩ => show (((b.val * 16 + h.val) * 2048 + n.val) * 64 + d.val) / 2097152 % 4 = b.val; omega
    | ⟨2, _⟩ => show (((b.val * 16 + h.val) * 2048 + n.val) * 64 + d.val) / 131072 % 16 = h.val; omega
    | ⟨3, _⟩ => show (((b.val * 16 + h.val) * 2048 + n.val) * 64 + d.val) / 64 % 2048 = n.val; omega
    | ⟨4, _⟩ => show (((b.val * 16 + h.val) * 2048 + n.val) * 64 + d.val) % 64 = d.val; omega)

/-- Role r, batch b, head h, position n, lane d of the transposed array is entry (b, n, r, h, d). -/
theorem role_front (r : Fin 3) (b : Fin 4) (h : Fin 16) (n : Fin 2048) (d : Fin 64) :
    idx_main_v2 (ix5 r b h n d) = ix5 b n r h d :=
  funext fun a => Fin.ext (by
    match a with | ⟨0, _⟩ => rfl | ⟨1, _⟩ => rfl | ⟨2, _⟩ => rfl | ⟨3, _⟩ => rfl | ⟨4, _⟩ => rfl)

/-- Entry (b, n, r, h, d) of the split array is feature 1024 r + 64 h + d of the stacked projection. -/
theorem feature_split (b : Fin 4) (n : Fin 2048) (r : Fin 3) (h : Fin 16) (d : Fin 64) :
    idx_main_v1 (ix5 b n r h d) = ix3 b n (row r h d) := by
  have hb := b.isLt; have hn := n.isLt; have hr := r.isLt; have hh := h.isLt; have hd := d.isLt
  exact funext fun a => Fin.ext (by
    match a with
    | ⟨0, _⟩ => show ((((b.val * 2048 + n.val) * 3 + r.val) * 16 + h.val) * 64 + d.val) / 6291456 = b.val; omega
    | ⟨1, _⟩ => show ((((b.val * 2048 + n.val) * 3 + r.val) * 16 + h.val) * 64 + d.val) / 3072 % 2048 = n.val; omega
    | ⟨2, _⟩ => show ((((b.val * 2048 + n.val) * 3 + r.val) * 16 + h.val) * 64 + d.val) % 3072 = 1024 * r.val + 64 * h.val + d.val; omega)

/-- The transposed array at (r, b, h, n, d) is the projection of role r. -/
theorem roles_eq (r : Fin 3) (b : Fin 4) (h : Fin 16) (n : Fin 2048) (d : Fin 64) :
    val_main_v2 (F := Ideal) x0 x1 (ix5 r b h n d) = proj (xs x0) (ws x1) r b h n d := by
  rw [val_main_v2_apply, role_front, val_main_v1_apply, feature_split, qkv_eq]
  rfl

/-- The first slice is the queries. -/
theorem query_eq (b : Fin 4) (h : Fin 16) (n : Fin 2048) (d : Fin 64) :
    val_main_v4 (F := Ideal) x0 x1 (ix4 b h n d) = proj (xs x0) (ws x1) 0 b h n d := by
  have e3 : idx_main_v3 (ix5 (0 : Fin 1) b h n d) = ix5 (0 : Fin 3) b h n d :=
    funext fun a => Fin.ext (by
      match a with | ⟨0, _⟩ => rfl | ⟨1, _⟩ => rfl | ⟨2, _⟩ => rfl | ⟨3, _⟩ => rfl | ⟨4, _⟩ => rfl)
  rw [val_main_v4_apply, unit_front, val_main_v3_apply, e3, roles_eq]

/-- The second slice is the keys. -/
theorem key_eq (b : Fin 4) (h : Fin 16) (n : Fin 2048) (d : Fin 64) :
    val_main_v6 (F := Ideal) x0 x1 (ix4 b h n d) = proj (xs x0) (ws x1) 1 b h n d := by
  have e4 : idx_main_v6 (ix4 b h n d) = ix5 (0 : Fin 1) b h n d := unit_front b h n d
  have e5 : idx_main_v5 (ix5 (0 : Fin 1) b h n d) = ix5 (1 : Fin 3) b h n d :=
    funext fun a => Fin.ext (by
      match a with | ⟨0, _⟩ => rfl | ⟨1, _⟩ => rfl | ⟨2, _⟩ => rfl | ⟨3, _⟩ => rfl | ⟨4, _⟩ => rfl)
  rw [val_main_v6_apply, e4, val_main_v5_apply, e5, roles_eq]

/-- The third slice is the values. -/
theorem value_eq (b : Fin 4) (h : Fin 16) (n : Fin 2048) (d : Fin 64) :
    val_main_v8 (F := Ideal) x0 x1 (ix4 b h n d) = proj (xs x0) (ws x1) 2 b h n d := by
  have e4 : idx_main_v8 (ix4 b h n d) = ix5 (0 : Fin 1) b h n d := unit_front b h n d
  have e7 : idx_main_v7 (ix5 (0 : Fin 1) b h n d) = ix5 (2 : Fin 3) b h n d :=
    funext fun a => Fin.ext (by
      match a with | ⟨0, _⟩ => rfl | ⟨1, _⟩ => rfl | ⟨2, _⟩ => rfl | ⟨3, _⟩ => rfl | ⟨4, _⟩ => rfl)
  rw [val_main_v8_apply, e4, val_main_v7_apply, e7, roles_eq]

/-! ## The scaled score -/

/-- The scaled score at (b, h, n, m): queries at n against keys at m over the 64 lanes, times one eighth. -/
theorem score_eq (b : Fin 4) (h : Fin 16) (n m : Fin 2048) :
    val_main_v11 (F := Ideal) x0 x1 (ix4 b h n m) = score (xs x0) (ws x1) b h n m := by
  rw [val_main_v11_apply, val_main_v9_apply, val_main_v10_apply, val_main_cst_apply]
  have e : ∀ k : Fin 64, val_main_v4 (F := Ideal) x0 x1 (lidx_main_v9 (ix4 b h n m) k)
        * val_main_v6 (F := Ideal) x0 x1 (ridx_main_v9 (ix4 b h n m) k)
      = proj (xs x0) (ws x1) 0 b h n k * proj (xs x0) (ws x1) 1 b h m k := fun k => by
    have el : lidx_main_v9 (ix4 b h n m) k = ix4 b h n k :=
      funext fun a => Fin.ext (by match a with | ⟨0, _⟩ => rfl | ⟨1, _⟩ => rfl | ⟨2, _⟩ => rfl | ⟨3, _⟩ => rfl)
    have er : ridx_main_v9 (ix4 b h n m) k = ix4 b h m k :=
      funext fun a => Fin.ext (by match a with | ⟨0, _⟩ => rfl | ⟨1, _⟩ => rfl | ⟨2, _⟩ => rfl | ⟨3, _⟩ => rfl)
    rw [el, er, query_eq, key_eq]
  rw [Finset.sum_congr rfl fun k _ => e k]
  rfl

/-! ## The row maximum -/

/-- The word 0xFF800000 of an f32 is minus infinity. -/
theorem neg_inf_word : Ideal.ofBits .f32 0xFF800000#32 = (⊥ : EReal) := by
  simp [Ideal.ofBits, Ideal.ieee]

/-- The reduction by maximum over the key position, from minus infinity, is the supremum of the scores. -/
theorem reduce_max_eq (b : Fin 4) (h : Fin 16) (n : Fin 2048) :
    val_main_v12 (F := Ideal) x0 x1 (ix3 b h n) = rowMax (xs x0) (ws x1) b h n := by
  have hs : ∀ m : Fin 2048, val_main_v11 (F := Ideal) x0 x1 (ix4 b h n m) = score (xs x0) (ws x1) b h n m :=
    fun m => score_eq x0 x1 b h n m
  unfold val_main_v12
  generalize val_main_v11 (F := Ideal) x0 x1 = y at hs ⊢
  refine (Host.reduce_eq_fold_single (FloatOps.maximumf (F := Ideal) (φ := .f32)) y _
    reducesTo_S4x16x2048x2048_S4x16x2048_d3 (by decide) h_S_ _).trans ?_
  rw [val_main_cst_0_apply, Ideal.ofBits_def, neg_inf_word]
  unfold rowMax Finset.sup
  refine congrArg (fun f => Finset.fold _ ⊥ f Finset.univ) (funext fun m => ?_)
  rw [← hs m]
  exact congrArg y (funext fun a => Fin.ext (by
    match a with | ⟨0, _⟩ => rfl | ⟨1, _⟩ => rfl | ⟨2, _⟩ => rfl | ⟨3, _⟩ => rfl))

/-- The maximum with a splat of minus infinity changes nothing. -/
theorem rowMax_eq (b : Fin 4) (h : Fin 16) (n : Fin 2048) :
    val_main_v14 (F := Ideal) x0 x1 (ix3 b h n) = rowMax (xs x0) (ws x1) b h n := by
  rw [val_main_v14_apply, val_main_v13_apply, val_main_cst_1_apply, reduce_max_eq, Ideal.ofBits_def, neg_inf_word,
    Ideal.maximumf_def]
  exact max_bot_left _

/-! ## The softmax weight, its row total, and the normalised weight -/

/-- The exponential of the score less the row maximum (the maximum broadcast back along the key position). -/
theorem weight_eq (b : Fin 4) (h : Fin 16) (n m : Fin 2048) :
    val_main_v18 (F := Ideal) x0 x1 (ix4 b h n m) = weight (xs x0) (ws x1) b h n m := by
  have e : idx_main_v15 (idx_main_v16 (ix4 b h n m)) = ix3 b h n :=
    funext fun a => Fin.ext (by match a with | ⟨0, _⟩ => rfl | ⟨1, _⟩ => rfl | ⟨2, _⟩ => rfl)
  rw [val_main_v18_apply, val_main_v17_apply, val_main_v16_apply, val_main_v15_apply, e, score_eq, rowMax_eq,
    Ideal.subf_def, Ideal.hostUnary_exp_def]
  rfl

/-- The sum of the weights over the key position, from the zero word. -/
theorem total_eq (b : Fin 4) (h : Fin 16) (n : Fin 2048) :
    val_main_v19 (F := Ideal) x0 x1 (ix3 b h n) = total (xs x0) (ws x1) b h n := by
  rw [val_main_v19_apply, val_main_cst_2_apply, Ideal.ofBits_def, Ideal.ofBits_zero_f32, zero_add]
  refine Finset.sum_congr rfl fun k _ => ?_
  have e : idx_main_v19 (ix3 b h n) k = ix4 b h n k :=
    funext fun a => Fin.ext (by match a with | ⟨0, _⟩ => rfl | ⟨1, _⟩ => rfl | ⟨2, _⟩ => rfl | ⟨3, _⟩ => rfl)
  rw [e, weight_eq]

/-- Each weight divided by its row's total (the total broadcast back along the key position). -/
theorem normalised_eq (b : Fin 4) (h : Fin 16) (n m : Fin 2048) :
    val_main_v22 (F := Ideal) x0 x1 (ix4 b h n m)
      = Ideal.div (weight (xs x0) (ws x1) b h n m) (total (xs x0) (ws x1) b h n) := by
  have e : idx_main_v20 (idx_main_v21 (ix4 b h n m)) = ix3 b h n :=
    funext fun a => Fin.ext (by match a with | ⟨0, _⟩ => rfl | ⟨1, _⟩ => rfl | ⟨2, _⟩ => rfl)
  rw [val_main_v22_apply, val_main_v21_apply, val_main_v20_apply, e, weight_eq, total_eq, Ideal.hostDivf_def]

/-! ## A head's output, the concatenated heads, the result -/

/-- The normalised weights against the values over the key position. -/
theorem head_eq (b : Fin 4) (h : Fin 16) (n : Fin 2048) (d : Fin 64) :
    val_main_v23 (F := Ideal) x0 x1 (ix4 b h n d) = headRef (xs x0) (ws x1) b h n d := by
  rw [val_main_v23_apply]
  refine Finset.sum_congr rfl fun k _ => ?_
  have el : lidx_main_v23 (ix4 b h n d) k = ix4 b h n k :=
    funext fun a => Fin.ext (by match a with | ⟨0, _⟩ => rfl | ⟨1, _⟩ => rfl | ⟨2, _⟩ => rfl | ⟨3, _⟩ => rfl)
  have er : ridx_main_v23 (ix4 b h n d) k = ix4 b h k d :=
    funext fun a => Fin.ext (by match a with | ⟨0, _⟩ => rfl | ⟨1, _⟩ => rfl | ⟨2, _⟩ => rfl | ⟨3, _⟩ => rfl)
  rw [el, er, normalised_eq, value_eq]

/-- Feature c of the concatenated heads at (b, n) is lane c mod 64 of head c / 64: 1024 = 16 · 64. -/
theorem heads_eq (b : Fin 4) (n : Fin 2048) (c : Fin 1024) :
    val_main_v25 (F := Ideal) x0 x1 (ix3 b n c)
      = headRef (xs x0) (ws x1) b ⟨c.val / 64, by omega⟩ n ⟨c.val % 64, by omega⟩ := by
  have hb := b.isLt; have hn := n.isLt; have hc := c.isLt
  have e : idx_main_v24 (idx_main_v25 (ix3 b n c))
      = ix4 b (⟨c.val / 64, by omega⟩ : Fin 16) n (⟨c.val % 64, by omega⟩ : Fin 64) :=
    funext fun a => Fin.ext (by
      match a with
      | ⟨0, _⟩ => show ((b.val * 2048 + n.val) * 1024 + c.val) / 2097152 = b.val; omega
      | ⟨1, _⟩ => show ((b.val * 2048 + n.val) * 1024 + c.val) / 64 % 16 = c.val / 64; omega
      | ⟨2, _⟩ => show ((b.val * 2048 + n.val) * 1024 + c.val) / 1024 % 2048 = n.val; omega
      | ⟨3, _⟩ => show ((b.val * 2048 + n.val) * 1024 + c.val) % 64 = c.val % 64; omega)
  rw [val_main_v25_apply, val_main_v24_apply, e, head_eq]

/-- The concatenated heads against the output weights over all 1024 features, plus the bias. -/
theorem result_eq (x0 : (⟨S4x2048x1024, .f32⟩ : BufTy).Contents (Elt Ideal)) (x1 : (⟨S3072x1024, .f32⟩ : BufTy).Contents (Elt Ideal))
    (x2 : (⟨S1024x1024, .f32⟩ : BufTy).Contents (Elt Ideal)) (x3 : (⟨S1024, .f32⟩ : BufTy).Contents (Elt Ideal))
    (b : Fin 4) (n : Fin 2048) (o : Fin 1024) :
    Cert.ReferenceIdeal.Read.val_main_v29 (F := Ideal) x0 x1 x2 x3 (ValueIdx.ix3 b n o)
      = Cert.Attention.outRef (fun b n c => x0 (ValueIdx.ix3 b n c)) (fun r c => x1 (ValueIdx.ix2 r c))
          (fun o c => x2 (ValueIdx.ix2 o c)) (fun o => x3 (ValueIdx.ix1 o)) b n o := by
  have eb : idx_main_v27 (idx_main_v28 (ix3 b n o)) = ix1 o :=
    funext fun a => Fin.ext (by match a with | ⟨0, _⟩ => rfl)
  rw [val_main_v29_apply, val_main_v26_apply, val_main_v28_apply, val_main_v27_apply, eb, Ideal.addf_def]
  unfold outRef
  refine congrArg (· + x3 (ix1 o)) (Finset.sum_congr rfl fun k _ => ?_)
  have el : lidx_main_v26 (ix3 b n o) k = ix3 b n k :=
    funext fun a => Fin.ext (by match a with | ⟨0, _⟩ => rfl | ⟨1, _⟩ => rfl | ⟨2, _⟩ => rfl)
  have er : ridx_main_v26 (ix3 b n o) k = ix2 o k :=
    funext fun a => Fin.ext (by match a with | ⟨0, _⟩ => rfl | ⟨1, _⟩ => rfl)
  rw [el, er, heads_eq]

end Cert.ReferenceIdeal.RefValue

end
-- ==== Proof.Algebra.lean ====
import proofs.«146399_j69234872812274_2_alg».proof.Proof.Spec

/-!
# The two arrangements of multi-head attention agree on real inputs

With real activations and weights every projection, score and row maximum is a real number, every softmax
weight is the exponential of a real (a positive real) and so is their total. Dividing by a nonzero real is
multiplying by its reciprocal, a constant factor that moves out of a finite sum of reals; hence a head's output
is the same whether the weights are normalised before or after the sum against the values. The contraction over
the 1024 features of the concatenated heads is the double sum over head and lane through c = 64 h + d, and the
head-by-head accumulation from zero is the sum over the sixteen heads.
-/

noncomputable section

namespace Cert.Attention

open Idealize.ShloMosaic

/-! ### Coercion of finite sums, and the scale -/

/-- The coercion of reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 word 0x3E000000 denotes the real 1/8. -/
theorem eighth_eq : eighth = ((1 / 8 : ℝ) : EReal) := by
  simp [eighth, Ideal.ofBits, Ideal.ieee, -EReal.coe_mul]; norm_num

/-! ### Normalising before or after the sum -/

/-- Over the reals, dividing each weight by a nonzero total before summing against the values is dividing the
sum by the total. -/
theorem sum_div_mul_eq_div_sum {ι : Type*} [Fintype ι] (a v : ι → ℝ) {l : ℝ} (hl : l ≠ 0) :
    ∑ m, Ideal.div (a m : EReal) (l : EReal) * (v m : EReal)
      = Ideal.div (∑ m, (a m : EReal) * (v m : EReal)) (l : EReal) := by
  rw [Ideal.div_coe hl]
  simp only [Ideal.div_coe hl, ← EReal.coe_mul, ← coe_sum]
  congr 1
  rw [Finset.sum_mul]
  exact Finset.sum_congr rfl fun m _ => by ring

/-! ### The accumulation over the heads and the regrouping of the features -/

section General

variable (x : Fin 4 → Fin 2048 → Fin 1024 → EReal) (w : Fin 3072 → Fin 1024 → EReal)
  (wp : Fin 1024 → Fin 1024 → EReal)

/-- The running sum after k heads is the sum of the contributions of the heads below k. -/
theorem accKer_eq_sum_range (b : Fin 4) (n : Fin 2048) (o : Fin 1024) (k : ℕ) :
    accKer x w wp b n o k
      = ∑ i ∈ Finset.range k, (if hi : i < 16 then headTerm x w wp b n o ⟨i, hi⟩ else 0) := by
  induction k with
  | zero => simp [accKer]
  | succ k ih => rw [accKer, ih, Finset.sum_range_succ]

/-- After all sixteen heads the running sum is the sum over the heads. -/
theorem accKer_sixteen (b : Fin 4) (n : Fin 2048) (o : Fin 1024) :
    accKer x w wp b n o 16 = ∑ h : Fin 16, headTerm x w wp b n o h := by
  rw [accKer_eq_sum_range, Finset.sum_range]
  exact Finset.sum_congr rfl fun h _ => by rw [dif_pos h.isLt]

end General

/-- Head and lane against the feature of the concatenated heads, c = 64 h + d. -/
def colEquiv : Fin 16 × Fin 64 ≃ Fin 1024 where
  toFun p := col p.1 p.2
  invFun c := (⟨c.val / 64, by omega⟩, ⟨c.val % 64, by omega⟩)
  left_inv := by
    rintro ⟨h, d⟩
    ext
    · simp only [col]; omega
    · simp only [col]; omega
  right_inv := by
    intro c
    ext
    simp only [col]; omega

/-- A sum over the 1024 features is the double sum over head and lane. -/
theorem sum_features (g : Fin 1024 → EReal) :
    ∑ c : Fin 1024, g c = ∑ h : Fin 16, ∑ d : Fin 64, g (col h d) := by
  rw [← Equiv.sum_comp colEquiv g, Fintype.sum_prod_type]
  rfl

theorem col_div (h : Fin 16) (d : Fin 64) (hc : (col h d).val / 64 < 16) :
    (⟨(col h d).val / 64, hc⟩ : Fin 16) = h := by
  ext; simp only [col]; omega

theorem col_mod (h : Fin 16) (d : Fin 64) (hc : (col h d).val % 64 < 64) :
    (⟨(col h d).val % 64, hc⟩ : Fin 64) = d := by
  ext; simp only [col]; omega

section Normal

variable (x : Fin 4 → Fin 2048 → Fin 1024 → EReal) (w : Fin 3072 → Fin 1024 → EReal)
  (wp : Fin 1024 → Fin 1024 → EReal) (bp : Fin 1024 → EReal)

/-- The head-by-head result as a double sum over head and lane. -/
theorem outKer_eq (b : Fin 4) (n : Fin 2048) (o : Fin 1024) :
    outKer x w wp bp b n o
      = (∑ h : Fin 16, ∑ d : Fin 64, headKer x w b h n d * wp o (col h d)) + bp o := by
  rw [outKer, accKer_sixteen]
  simp only [headTerm]

/-- The all-features result as a double sum over head and lane. -/
theorem outRef_eq (b : Fin 4) (n : Fin 2048) (o : Fin 1024) :
    outRef x w wp bp b n o
      = (∑ h : Fin 16, ∑ d : Fin 64, headRef x w b h n d * wp o (col h d)) + bp o := by
  rw [outRef, sum_features]
  simp only [col_div, col_mod]

end Normal

/-! ### Real inputs -/

section Real

variable (x' : Fin 4 → Fin 2048 → Fin 1024 → ℝ) (w' : Fin 3072 → Fin 1024 → ℝ)

/-- The activations read as extended reals. -/
local notation "X" => (fun b n c => ((x' b n c : ℝ) : EReal))
/-- The stacked projection weights read as extended reals. -/
local notation "W" => (fun r c => ((w' r c : ℝ) : EReal))

/-- A projection of real inputs, as a real. -/
def projR (r : Fin 3) (b : Fin 4) (h : Fin 16) (n : Fin 2048) (d : Fin 64) : ℝ :=
  ∑ c : Fin 1024, x' b n c * w' (row r h d) c

/-- A score of real inputs, as a real. -/
def scoreR (b : Fin 4) (h : Fin 16) (n m : Fin 2048) : ℝ :=
  (∑ d : Fin 64, projR x' w' 0 b h n d * projR x' w' 1 b h m d) * (1 / 8)

theorem proj_eq (r : Fin 3) (b : Fin 4) (h : Fin 16) (n : Fin 2048) (d : Fin 64) :
    proj X W r b h n d = (projR x' w' r b h n d : EReal) := by
  simp only [proj, projR, coe_sum, EReal.coe_mul]

theorem score_eq (b : Fin 4) (h : Fin 16) (n m : Fin 2048) :
    score X W b h n m = (scoreR x' w' b h n m : EReal) := by
  simp only [score, scoreR, proj_eq, eighth_eq, coe_sum, EReal.coe_mul]

/-- The row maximum is one of the scores, hence a real. -/
theorem rowMax_real (b : Fin 4) (h : Fin 16) (n : Fin 2048) :
    ∃ M : ℝ, rowMax X W b h n = (M : EReal) := by
  obtain ⟨m, -, hm⟩ := Finset.exists_mem_eq_sup Finset.univ Finset.univ_nonempty
    (fun m : Fin 2048 => score X W b h n m)
  exact ⟨scoreR x' w' b h n m, by rw [rowMax, hm, score_eq]⟩

/-- Each weight is the exponential of a real. -/
theorem weight_eq {b : Fin 4} {h : Fin 16} {n : Fin 2048} {M : ℝ} (hM : rowMax X W b h n = (M : EReal))
    (m : Fin 2048) : weight X W b h n m = ((Real.exp (scoreR x' w' b h n m - M) : ℝ) : EReal) := by
  rw [weight, hM, score_eq, ← EReal.coe_sub, Ideal.exp_coe]

/-- The total is the sum of those exponentials. -/
theorem total_eq {b : Fin 4} {h : Fin 16} {n : Fin 2048} {M : ℝ} (hM : rowMax X W b h n = (M : EReal)) :
    total X W b h n = ((∑ m : Fin 2048, Real.exp (scoreR x' w' b h n m - M) : ℝ) : EReal) := by
  simp only [total, weight_eq x' w' hM, coe_sum]

/-- On real inputs a head's output is the same with the weights normalised before or after the sum. -/
theorem headRef_eq_headKer (b : Fin 4) (h : Fin 16) (n : Fin 2048) (d : Fin 64) :
    headRef X W b h n d = headKer X W b h n d := by
  obtain ⟨M, hM⟩ := rowMax_real x' w' b h n
  have hpos : (0 : ℝ) < ∑ m : Fin 2048, Real.exp (scoreR x' w' b h n m - M) :=
    Finset.sum_pos (fun m _ => Real.exp_pos _) Finset.univ_nonempty
  simp only [headRef, headKer, total_eq x' w' hM, weight_eq x' w' hM, proj_eq]
  exact sum_div_mul_eq_div_sum _ _ hpos.ne'

end Real

/-- On real inputs the result accumulated head by head is the result contracted over all features at once. -/
theorem outKer_eq_outRef (x' : Fin 4 → Fin 2048 → Fin 1024 → ℝ) (w' : Fin 3072 → Fin 1024 → ℝ)
    (wp' : Fin 1024 → Fin 1024 → ℝ) (bp' : Fin 1024 → ℝ) (b : Fin 4) (n : Fin 2048) (o : Fin 1024) :
    outKer (fun b n c => ((x' b n c : ℝ) : EReal)) (fun r c => ((w' r c : ℝ) : EReal)) (fun o c => ((wp' o c : ℝ) : EReal)) (fun o => ((bp' o : ℝ) : EReal)) b n o
      = outRef (fun b n c => ((x' b n c : ℝ) : EReal)) (fun r c => ((w' r c : ℝ) : EReal)) (fun o c => ((wp' o c : ℝ) : EReal)) (fun o => ((bp' o : ℝ) : EReal)) b n o := by
  rw [outKer_eq, outRef_eq]
  simp only [headRef_eq_headKer]

end Cert.Attention

end
-- ==== Proof.Finite.lean ====
import proofs.«146399_j69234872812274_2_alg».proof.Pre_finite_inputs
import proofs.«146399_j69234872812274_2_alg».proof.Proof.Gen.Pre_finite_inputs
import Idealize.ShloMosaic.PureOps.Ideal
import Idealize.ShloMosaic.Lib.ReduceAll
import Idealize.ShloMosaic.Lib.ValueIdx

/-!
# Finite inputs are real inputs

The precondition says, of each of the four arguments, that every entry's absolute value is below plus infinity,
and conjoins the four. Over the extended reals an entry whose absolute value max x (−x) is below ⊤ is neither ⊤ nor ⊥
(for ⊥ the absolute value is ⊤), so it is a real number.
-/

noncomputable section

namespace Cert.Pre_finite_inputs.Finite

open Idealize.ShloMosaic Cert.Pre_finite_inputs

/-- The rank-0 shape has one index. -/
instance : Subsingleton S_.Idx := ⟨fun a b => funext fun d => d.elim0⟩

/-- The word 0x7F800000 of an f32 is plus infinity. -/
theorem pos_inf_f32 : Ideal.ofBits .f32 0x7F800000#32 = (⊤ : EReal) := by
  simp [Ideal.ofBits, Ideal.ieee]

/-- An extended real whose absolute value is below plus infinity is a real. -/
theorem real_of_abs_lt_top (x : EReal) (h : Ideal.cmp .olt (max x (-x)) ⊤ = 1#1) : ∃ r : ℝ, x = (r : EReal) := by
  induction x using EReal.rec with
  | bot => exfalso; simp [Ideal.cmp] at h
  | coe r => exact ⟨r, rfl⟩
  | top => exfalso; simp [Ideal.cmp] at h

/-- An entry at which the comparison of the absolute value with the splat of plus infinity holds is a real. -/
theorem real_of_entry {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) := by
  refine real_of_abs_lt_top (x i) ?_
  rw [← pos_inf_f32]
  exact h

/-- Under the precondition every entry of every argument is a real number. -/
theorem real_of_pre [Cert.Pre_finite_inputs.Facts] (a0 : FVec Ideal S4x2048x1024 .f32) (a1 : FVec Ideal S3072x1024 .f32)
    (a2 : FVec Ideal S1024x1024 .f32) (a3 : FVec Ideal S1024 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact real_of_entry a0 _ i (Host.reduce_andi_all _ _ _ _ _ h0' i)
  · exact real_of_entry a1 _ i (Host.reduce_andi_all _ _ _ _ _ h1 i)
  · exact real_of_entry a2 _ i (Host.reduce_andi_all _ _ _ _ _ h2 i)
  · exact real_of_entry a3 _ i (Host.reduce_andi_all _ _ _ _ _ h3 i)

end Cert.Pre_finite_inputs.Finite

end
-- ==== Proof.lean ====
/-
  Multi-head attention as three tiled kernels, against its textbook form, over the extended reals.

  The kernel projects the activations onto queries, keys and values head by head, runs one head's attention per
  (batch·head, query tile) — scores scaled by 1/8, the weights the exponentials of the scores less the row's largest, the
  values mixed with the raw weights and the mix divided by the row's total weight —, and contracts the heads' outputs with
  the output weights one head after the other into a running sum to which the bias is added at the last head. The reference
  divides each weight by the row's total before mixing the values, and contracts all sixteen heads' outputs at once.

  Both are the same function of finite inputs: every projected entry, score and weight is then a real number and every total
  weight a positive real, so dividing the mixed values by the total is mixing with the divided weights, and a sum over 1024
  features regroups as sixteen sums over 64 lanes (`Proof/Algebra.lean`). What the kernel's result array holds is read off the
  three regions' write-backs and the reshapes between them (`Proof/KernelValue.lean`); what the reference's holds, off its run
  one operation at a time (`Proof/RefValue.lean`); the inputs' finiteness is the precondition decoded (`Proof/Finite.lean`).
  Each program runs to the end with its arguments unchanged: for the kernel this is the run of its three regions among the
  host operations (`Proof/KernelRun.lean`, and the same at the word level), for the reference its run as a list of host
  operations. The kernel's idealization rewrote nothing, so nothing is owed for it.
-/
import proofs.«146399_j69234872812274_2_alg».proof.Defs
import proofs.«146399_j69234872812274_2_alg».proof.Proof.Gen.Kernel
import proofs.«146399_j69234872812274_2_alg».proof.Proof.Gen.KernelIdeal
import proofs.«146399_j69234872812274_2_alg».proof.Proof.Gen.ReferenceIdeal
import proofs.«146399_j69234872812274_2_alg».proof.Proof.Gen.Pre_finite_inputs
import proofs.«146399_j69234872812274_2_alg».proof.Proof.Gen.ReferenceIdeal.Run
import proofs.«146399_j69234872812274_2_alg».proof.Proof.WordKernelRun
import proofs.«146399_j69234872812274_2_alg».proof.Proof.KernelValue
import proofs.«146399_j69234872812274_2_alg».proof.Proof.RefValue
import proofs.«146399_j69234872812274_2_alg».proof.Proof.Algebra
import proofs.«146399_j69234872812274_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.ValueIdx

/-! ## The frames -/

/-- The kernel as printed runs to the end and leaves its four arguments as launched: each is read off the last contents,
    where no host operation and no region has written it. -/
theorem frame_word : Cert.frame_Kernel := fun m ρ _ =>
  (θ_run Cert.Kernel.defs _ _).mono (fun r h c =>
    ⟨(h c _ (Cert.Kernel.Run.mem_uc Cert.Kernel.main_arg0 (by decide))).trans
        (Cert.Kernel.Run.W6_arg m c Cert.Kernel.main_arg0 (by decide) (by decide) (by decide) (by decide) (by decide) (by decide) (by decide) (by decide)),
      (h c _ (Cert.Kernel.Run.mem_uc Cert.Kernel.main_arg1 (by decide))).trans
        (Cert.Kernel.Run.W6_arg m c Cert.Kernel.main_arg1 (by decide) (by decide) (by decide) (by decide) (by decide) (by decide) (by decide) (by decide)),
      (h c _ (Cert.Kernel.Run.mem_uc Cert.Kernel.main_arg2 (by decide))).trans
        (Cert.Kernel.Run.W6_arg m c Cert.Kernel.main_arg2 (by decide) (by decide) (by decide) (by decide) (by decide) (by decide) (by decide) (by decide)),
      (h c _ (Cert.Kernel.Run.mem_uc Cert.Kernel.main_arg3 (by decide))).trans
        (Cert.Kernel.Run.W6_arg m c Cert.Kernel.main_arg3 (by decide) (by decide) (by decide) (by decide) (by decide) (by decide) (by decide) (by decide))⟩)
    (Cert.Kernel.Run.run (F := Bits) m ρ)

/-- The idealized kernel's run, with the result array named and the arguments as launched. -/
theorem run_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v13) = Cert.KernelIdeal.Run.W6 m c Cert.KernelIdeal.main_v13
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun r h c =>
    ⟨h c _ (Cert.KernelIdeal.Run.mem_uc Cert.KernelIdeal.main_v13 (by decide)),
      (h c _ (Cert.KernelIdeal.Run.mem_uc Cert.KernelIdeal.main_arg0 (by decide))).trans
        (Cert.KernelIdeal.Run.W6_arg m c Cert.KernelIdeal.main_arg0 (by decide) (by decide) (by decide) (by decide) (by decide) (by decide) (by decide) (by decide)),
      (h c _ (Cert.KernelIdeal.Run.mem_uc Cert.KernelIdeal.main_arg1 (by decide))).trans
        (Cert.KernelIdeal.Run.W6_arg m c Cert.KernelIdeal.main_arg1 (by decide) (by decide) (by decide) (by decide) (by decide) (by decide) (by decide) (by decide)),
      (h c _ (Cert.KernelIdeal.Run.mem_uc Cert.KernelIdeal.main_arg2 (by decide))).trans
        (Cert.KernelIdeal.Run.W6_arg m c Cert.KernelIdeal.main_arg2 (by decide) (by decide) (by decide) (by decide) (by decide) (by decide) (by decide) (by decide)),
      (h c _ (Cert.KernelIdeal.Run.mem_uc Cert.KernelIdeal.main_arg3 (by decide))).trans
        (Cert.KernelIdeal.Run.W6_arg m c Cert.KernelIdeal.main_arg3 (by decide) (by decide) (by decide) (by decide) (by decide) (by decide) (by decide) (by decide))⟩)
    (Cert.KernelIdeal.Run.run (F := Ideal) m ρ)

theorem frame_ideal : Cert.frame_KernelIdeal := fun m ρ _ =>
  (θ_run Cert.KernelIdeal.defs _ _).mono (fun _ h c => (h c).2) (run_ideal m ρ)

theorem frame_ref : Cert.frame_ReferenceIdeal := fun m ρ _ =>
  (θ_run Cert.ReferenceIdeal.defs _ _).mono (fun _ h c => (h c).2) (Cert.ReferenceIdeal.Value.run (F := Ideal) m ρ)

/-! ## The two results are one -/

/-- Under the precondition the kernel's result array is the reference arrangement `outRef` of its arguments: it is `outKer`
    of them, and the arguments are real. -/
theorem kernel_is_outRef (m : (ℓ : Loc Cert.KernelIdeal.nD Cert.KernelIdeal.τ Cert.KernelIdeal.sig) → Buf (Elt Ideal) ℓ) (hpre : Cert.Pre_KernelIdeal m)
    (c : Dev Cert.KernelIdeal.nD) (b : Fin 4) (n : Fin 2048) (o : Fin 1024) :
    (Cert.KernelIdeal.Run.W6 m c Cert.KernelIdeal.main_v13 : FVec Ideal Cert.KernelIdeal.S4x2048x1024 .f32) (ix3 b n o)
      = Cert.Attention.outRef (Cert.KernelIdeal.Run.xs m c) (Cert.KernelIdeal.Run.ws m c) (Cert.KernelIdeal.Run.wps m c) (Cert.KernelIdeal.Run.bps m c) b n o := by
  obtain ⟨h0, h1, h2, h3⟩ := Cert.Pre_finite_inputs.Finite.real_of_pre _ _ _ _ (hpre c)
  have ex : Cert.KernelIdeal.Run.xs m c = fun b n f => ((Classical.choose (h0 (ix3 b n f)) : ℝ) : EReal) :=
    funext fun b => funext fun n => funext fun f => Classical.choose_spec (h0 (ix3 b n f))
  have ew : Cert.KernelIdeal.Run.ws m c = fun r f => ((Classical.choose (h1 (ix2 r f)) : ℝ) : EReal) :=
    funext fun r => funext fun f => Classical.choose_spec (h1 (ix2 r f))
  have ewp : Cert.KernelIdeal.Run.wps m c = fun o f => ((Classical.choose (h2 (ix2 o f)) : ℝ) : EReal) :=
    funext fun o => funext fun f => Classical.choose_spec (h2 (ix2 o f))
  have ebp : Cert.KernelIdeal.Run.bps m c = fun o => ((Classical.choose (h3 (ix1 o)) : ℝ) : EReal) :=
    funext fun o => Classical.choose_spec (h3 (ix1 o))
  rw [Cert.KernelIdeal.Run.result_eq m c b n o, ex, ew, ewp, ebp]
  exact Cert.Attention.outKer_eq_outRef _ _ _ _ b n o

theorem preserves : Cert.preserves_Kernel_KernelIdeal := trivial

/-- From memories agreeing on the arguments both programs end, with equal results: the kernel's at `outRef` of its
    arguments (above), the reference's at `outRef` of its own, which are the same arrays. -/
theorem algebraic : Cert.algebraic_KernelIdeal_ReferenceIdeal := by
  intro m ρ m' ρ' hpre hagree
  refine ⟨fun c => Cert.KernelIdeal.Run.W6 m c Cert.KernelIdeal.main_v13, run_ideal m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2]
  funext i
  obtain ⟨b, n, o, rfl⟩ : ∃ (b : Fin 4) (n : Fin 2048) (o : Fin 1024), i = ix3 b n o := ⟨i 0, i 1, i 2, eq_ix3 i⟩
  exact (Cert.ReferenceIdeal.RefValue.result_eq _ _ _ _ b n o).trans (kernel_is_outRef m hpre c b n o).symm

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
